-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x63x2048 : Shape := ⟨3, ![2048, 63, 2048]⟩
abbrev S63x63 : Shape := ⟨2, ![63, 63]⟩
abbrev S1024x2048 : Shape := ⟨2, ![1024, 2048]⟩
abbrev S1024 : Shape := ⟨1, ![1024]⟩
abbrev S300x1024 : Shape := ⟨2, ![300, 1024]⟩
abbrev S300 : Shape := ⟨1, ![300]⟩
abbrev S_ : Shape := ⟨0, ![]⟩

class Facts : Prop where
  bcast_S_S2048x63x2048 : S_.BroadcastsInDim S2048x63x2048 (![] : Fin 0 → Fin S2048x63x2048.rank)
  reducesTo_S2048x63x2048_S_d0_1_2 : S2048x63x2048.ReducesTo [0, 1, 2] S_
  h_S_ : 0 < S_.numel
  bcast_S_S63x63 : S_.BroadcastsInDim S63x63 (![] : Fin 0 → Fin S63x63.rank)
  reducesTo_S63x63_S_d0_1 : S63x63.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S300x1024 : S_.BroadcastsInDim S300x1024 (![] : Fin 0 → Fin S300x1024.rank)
  reducesTo_S300x1024_S_d0_1 : S300x1024.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg4 : FVec F S300x1024 .f32) (main_arg5 : FVec F S300 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S300x1024 .f32 := Host.absf main_arg4
  let main_cst_6 : FVec F S_ .f32 := constant S_ .f32 0x7F800000#32
  let main_v20 : FVec F S300x1024 .f32 := broadcastInDim S300x1024 ![] bcast_S_S300x1024 main_cst_6
  let main_v21 : IVec S300x1024 1 := cmpf .olt main_v19 main_v20
  let main_c_7 : IVec S_ 1 := constantI S_ 1 1#1
  let main_v22 : IVec S_ 1 := (fun x v => Host.reduce IntOp.andi x v reducesTo_S300x1024_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S2048x63x2048 .f32) (main_arg1 : FVec F S63x63 .f32) (main_arg2 : FVec F S1024x2048 .f32) (main_arg3 : FVec F S1024 .f32) (main_arg4 : FVec F S300x1024 .f32) (main_arg5 : FVec F S300 .f32) : IVec S_ 1 :=
  let main_v0 : FVec F S2048x63x2048 .f32 := Host.absf main_arg0
  let main_cst : FVec F S_ .f32 := constant S_ .f32 0x7F800000#32
  let main_v1 : FVec F S2048x63x2048 .f32 := broadcastInDim S2048x63x2048 ![] bcast_S_S2048x63x2048 main_cst
  let main_v2 : IVec S2048x63x2048 1 := cmpf .olt main_v0 main_v1
  let main_c : IVec S_ 1 := constantI S_ 1 1#1
  let main_v3 : IVec S_ 1 := (fun x v => Host.reduce IntOp.andi x v reducesTo_S2048x63x2048_S_d0_1_2 h_S_) main_v2 main_c
  let main_v4 : FVec F S63x63 .f32 := Host.absf main_arg1
  let main_cst_0 : FVec F S_ .f32 := constant S_ .f32 0x7F800000#32
  let main_v5 : FVec F S63x63 .f32 := broadcastInDim S63x63 ![] bcast_S_S63x63 main_cst_0
  let main_v6 : IVec S63x63 1 := cmpf .olt main_v4 main_v5
  let main_c_1 : IVec S_ 1 := constantI S_ 1 1#1
  let main_v7 : IVec S_ 1 := (fun x v => Host.reduce IntOp.andi x v reducesTo_S63x63_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S2048x63x2048 : Shape := ⟨3, ![2048, 63, 2048]⟩
abbrev S63x63 : Shape := ⟨2, ![63, 63]⟩
abbrev S1024x2048 : Shape := ⟨2, ![1024, 2048]⟩
abbrev S1024 : Shape := ⟨1, ![1024]⟩
abbrev S300x1024 : Shape := ⟨2, ![300, 1024]⟩
abbrev S300 : Shape := ⟨1, ![300]⟩
abbrev S63x2048 : Shape := ⟨2, ![63, 2048]⟩
abbrev S2048x63 : Shape := ⟨2, ![2048, 63]⟩
abbrev S_ : Shape := ⟨0, ![]⟩
abbrev S63 : Shape := ⟨1, ![63]⟩
abbrev S63x1 : Shape := ⟨2, ![63, 1]⟩
abbrev S2048x1024 : Shape := ⟨2, ![2048, 1024]⟩
abbrev S63x1024 : Shape := ⟨2, ![63, 1024]⟩
abbrev S1x1024 : Shape := ⟨2, ![1, 1024]⟩
abbrev S1024x63 : Shape := ⟨2, ![1024, 63]⟩
abbrev S1024x300 : Shape := ⟨2, ![1024, 300]⟩
abbrev S63x300 : Shape := ⟨2, ![63, 300]⟩
abbrev S1x300 : Shape := ⟨2, ![1, 300]⟩
abbrev S300x63 : Shape := ⟨2, ![300, 63]⟩
abbrev S64x63x1024 : Shape := ⟨3, ![64, 63, 1024]⟩

abbrev nBuf : Space → Nat
  | .hbm => 103
  | .vmem => 4
  | .smem => 0
  | _ => 0

abbrev bufTy : (tb : Table) → Fin (tcTables nBuf tb) → BufTy
  | .hbm, ⟨0, _⟩ => ⟨S2048x63x2048, .f32⟩
  | .hbm, ⟨1, _⟩ => ⟨S63x63, .f32⟩
  | .hbm, ⟨2, _⟩ => ⟨S1024x2048, .f32⟩
  | .hbm, ⟨3, _⟩ => ⟨S1024, .f32⟩
  | .hbm, ⟨4, _⟩ => ⟨S300x1024, .f32⟩
  | .hbm, ⟨5, _⟩ => ⟨S300, .f32⟩
  | .hbm, ⟨6, _⟩ => ⟨S63x2048, .f32⟩
  | .hbm, ⟨7, _⟩ => ⟨S2048x63, .f32⟩
  | .hbm, ⟨8, _⟩ => ⟨S63x63, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S63x63, .f32⟩
  | .hbm, ⟨14, _⟩ => ⟨S63x63, .f32⟩
  | .hbm, ⟨15, _⟩ => ⟨S_, .f32⟩
  | .hbm, ⟨16, _⟩ => ⟨S63x63, .f32⟩
  | .hbm, ⟨17, _⟩ => ⟨S63x63, .f32⟩
  | .hbm, ⟨18, _⟩ => ⟨S63x63, .f32⟩
  | .hbm, ⟨19, _⟩ => ⟨S63x63, .i32⟩
  | .hbm, ⟨20, _⟩ => ⟨S63x63, .i32⟩
  | .hbm, ⟨21, _⟩ => ⟨S_, .i32⟩
  | .hbm, ⟨22, _⟩ => ⟨S63x63, .i32⟩
  | .hbm, ⟨23, _⟩ => ⟨S63x63, .i32⟩
  | .hbm, ⟨24, _⟩ => ⟨S63x63, .i1⟩
  | .hbm, ⟨25, _⟩ => ⟨S_, .f32⟩
  | .hbm, ⟨26, _⟩ => ⟨S63x63, .f32⟩
  | .hbm, ⟨27, _⟩ => ⟨S63x63, .f32⟩
  | .hbm, ⟨28, _⟩ => ⟨S_, .f32⟩
  | .hbm, ⟨29, _⟩ => ⟨S_, .f32⟩
  | .hbm, ⟨30, _⟩ => ⟨S63x63, .f32⟩
  | .hbm, ⟨31, _⟩ => ⟨S63x63, .f32⟩
  | .hbm, ⟨32, _⟩ => ⟨S63x63, .f32⟩
  | .hbm, ⟨33, _⟩ => ⟨S_, .f32⟩
  | .hbm, ⟨34, _⟩ => ⟨S63, .f32⟩
  | .hbm, ⟨35, _⟩ => ⟨S63x1, .f32⟩
  | .hbm, ⟨36, _⟩ => ⟨S_, .f32⟩
  | .hbm, ⟨37, _⟩ => ⟨S63x1, .f32⟩
  | .hbm, ⟨38, _⟩ => ⟨S63x1, .i1⟩
  | .hbm, ⟨39, _⟩ => ⟨S_, .f32⟩
  | .hbm, ⟨40, _⟩ => ⟨S63x1, .f32⟩
  | .hbm, ⟨41, _⟩ => ⟨S63x1, .f32⟩
  | .hbm, ⟨42, _⟩ => ⟨S63x63, .f32⟩
  | .hbm, ⟨43, _⟩ => ⟨S63x63, .f32⟩
  | .hbm, ⟨44, _⟩ => ⟨S2048x1024, .f32⟩
  | .hbm, ⟨45, _⟩ => ⟨S63x1024, .f32⟩
  | .hbm, ⟨46, _⟩ => ⟨S1x1024, .f32⟩
  | .hbm, ⟨47, _⟩ => ⟨S63x1024, .f32⟩
  | .hbm, ⟨48, _⟩ => ⟨S63x1024, .f32⟩
  | .hbm, ⟨49, _⟩ => ⟨S_, .f32⟩
  | .hbm, ⟨50, _⟩ => ⟨S63x1024, .f32⟩
  | .hbm, ⟨51, _⟩ => ⟨S63x1024, .f32⟩
  | .hbm, ⟨52, _⟩ => ⟨S1024x63, .f32⟩
  | .hbm, ⟨53, _⟩ => ⟨S63x1024, .f32⟩
  | .hbm, ⟨54, _⟩ => ⟨S63x1024, .f32⟩
  | .hbm, ⟨55, _⟩ => ⟨S1024x63, .f32⟩
  | .hbm, ⟨56, _⟩ => ⟨S63x63, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S63x63, .f32⟩
  | .hbm, ⟨62, _⟩ => ⟨S63x63, .f32⟩
  | .hbm, ⟨63, _⟩ => ⟨S_, .f32⟩
  | .hbm, ⟨64, _⟩ => ⟨S63x63, .f32⟩
  | .hbm, ⟨65, _⟩ => ⟨S63x63, .f32⟩
  | .hbm, ⟨66, _⟩ => ⟨S63x63, .f32⟩
  | .hbm, ⟨67, _⟩ => ⟨S63x63, .i32⟩
  | .hbm, ⟨68, _⟩ => ⟨S63x63, .i32⟩
  | .hbm, ⟨69, _⟩ => ⟨S_, .i32⟩
  | .hbm, ⟨70, _⟩ => ⟨S63x63, .i32⟩
  | .hbm, ⟨71, _⟩ => ⟨S63x63, .i32⟩
  | .hbm, ⟨72, _⟩ => ⟨S63x63, .i1⟩
  | .hbm, ⟨73, _⟩ => ⟨S_, .f32⟩
  | .hbm, ⟨74, _⟩ => ⟨S63x63, .f32⟩
  | .hbm, ⟨75, _⟩ => ⟨S63x63, .f32⟩
  | .hbm, ⟨76, _⟩ => ⟨S_, .f32⟩
  | .hbm, ⟨77, _⟩ => ⟨S_, .f32⟩
  | .hbm, ⟨78, _⟩ => ⟨S63x63, .f32⟩
  | .hbm, ⟨79, _⟩ => ⟨S63x63, .f32⟩
  | .hbm, ⟨80, _⟩ => ⟨S63x63, .f32⟩
  | .hbm, ⟨81, _⟩ => ⟨S_, .f32⟩
  | .hbm, ⟨82, _⟩ => ⟨S63, .f32⟩
  | .hbm, ⟨83, _⟩ => ⟨S63x1, .f32⟩
  | .hbm, ⟨84, _⟩ => ⟨S_, .f32⟩
  | .hbm, ⟨85, _⟩ => ⟨S63x1, .f32⟩
  | .hbm, ⟨86, _⟩ => ⟨S63x1, .i1⟩
  | .hbm, ⟨87, _⟩ => ⟨S_, .f32⟩
  | .hbm, ⟨88, _⟩ => ⟨S63x1, .f32⟩
  | .hbm, ⟨89, _⟩ => ⟨S63x1, .f32⟩
  | .hbm, ⟨90, _⟩ => ⟨S63x63, .f32⟩
  | .hbm, ⟨91, _⟩ => ⟨S63x63, .f32⟩
  | .hbm, ⟨92, _⟩ => ⟨S1024x300, .f32⟩
  | .hbm, ⟨93, _⟩ => ⟨S63x300, .f32⟩
  | .hbm, ⟨94, _⟩ => ⟨S1x300, .f32⟩
  | .hbm, ⟨95, _⟩ => ⟨S63x300, .f32⟩
  | .hbm, ⟨96, _⟩ => ⟨S63x300, .f32⟩
  | .hbm, ⟨97, _⟩ => ⟨S_, .f32⟩
  | .hbm, ⟨98, _⟩ => ⟨S63x300, .f32⟩
  | .hbm, ⟨99, _⟩ => ⟨S63x300, .f32⟩
  | .hbm, ⟨100, _⟩ => ⟨S300x63, .f32⟩
  | .hbm, ⟨101, _⟩ => ⟨S63x300, .f32⟩
  | .hbm, ⟨102, _⟩ => ⟨S63x300, .f32⟩
  | .local _ .vmem, ⟨0, _⟩ => ⟨S64x63x1024, .f32⟩
  | .local _ .vmem, ⟨1, _⟩ => ⟨S64x63x1024, .f32⟩
  | .local _ .vmem, ⟨2, _⟩ => ⟨S63x1024, .f32⟩
  | .local _ .vmem, ⟨3, _⟩ => ⟨S63x1024, .f32⟩
  | _, _ => ⟨S2048x63x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_c : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_cst : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_cst_0 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst_1 : Ref sig .tc := ⟨.hbm, 33, rfl⟩
abbrev main_call0_v15 : Ref sig .tc := ⟨.hbm, 34, rfl⟩
abbrev main_call0_v16 : Ref sig .tc := ⟨.hbm, 35, rfl⟩
abbrev main_call0_cst_2 : Ref sig .tc := ⟨.hbm, 36, rfl⟩
abbrev main_call0_v17 : Ref sig .tc := ⟨.hbm, 37, rfl⟩
abbrev main_call0_v18 : Ref sig .tc := ⟨.hbm, 38, rfl⟩
abbrev main_call0_cst_3 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_v0_1 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_call2_cst : Ref sig .tc := ⟨.hbm, 49, rfl⟩
abbrev main_call0_call2_v0 : Ref sig .tc := ⟨.hbm, 50, rfl⟩
abbrev main_call0_v28 : Ref sig .tc := ⟨.hbm, 51, rfl⟩
abbrev main_call0_v29 : Ref sig .tc := ⟨.hbm, 52, rfl⟩
abbrev main_call0_v30 : Ref sig .tc := ⟨.hbm, 53, rfl⟩
abbrev main_call0_v31 : Ref sig .tc := ⟨.hbm, 54, rfl⟩
abbrev main_call0_v32 : Ref sig .tc := ⟨.hbm, 55, rfl⟩
abbrev main_call0_v33 : Ref sig .tc := ⟨.hbm, 56, rfl⟩
abbrev main_call0_cst_4 : Ref sig .tc := ⟨.hbm, 57, rfl⟩
abbrev main_call0_v34 : Ref sig .tc := ⟨.hbm, 58, rfl⟩
abbrev main_call0_cst_5 : Ref sig .tc := ⟨.hbm, 59, rfl⟩
abbrev main_call0_v35 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_v40 : Ref sig .tc := ⟨.hbm, 65, rfl⟩
abbrev main_call0_v41 : Ref sig .tc := ⟨.hbm, 66, rfl⟩
abbrev main_call0_call3_v0 : Ref sig .tc := ⟨.hbm, 67, rfl⟩
abbrev main_call0_call3_v1 : Ref sig .tc := ⟨.hbm, 68, rfl⟩
abbrev main_call0_call3_c : Ref sig .tc := ⟨.hbm, 69, rfl⟩
abbrev main_call0_call3_v2 : Ref sig .tc := ⟨.hbm, 70, rfl⟩
abbrev main_call0_call3_v3 : Ref sig .tc := ⟨.hbm, 71, rfl⟩
abbrev main_call0_call3_v4 : Ref sig .tc := ⟨.hbm, 72, rfl⟩
abbrev main_call0_call3_cst : Ref sig .tc := ⟨.hbm, 73, rfl⟩
abbrev main_call0_call3_v5 : Ref sig .tc := ⟨.hbm, 74, rfl⟩
abbrev main_call0_call3_v6 : Ref sig .tc := ⟨.hbm, 75, rfl⟩
abbrev main_call0_call3_cst_0 : Ref sig .tc := ⟨.hbm, 76, rfl⟩
abbrev main_call0_v42 : Ref sig .tc := ⟨.hbm, 77, rfl⟩
abbrev main_call0_v43 : Ref sig .tc := ⟨.hbm, 78, rfl⟩
abbrev main_call0_v44 : Ref sig .tc := ⟨.hbm, 79, rfl⟩
abbrev main_call0_v45 : Ref sig .tc := ⟨.hbm, 80, rfl⟩
abbrev main_call0_cst_6 : Ref sig .tc := ⟨.hbm, 81, rfl⟩
abbrev main_call0_v46 : Ref sig .tc := ⟨.hbm, 82, rfl⟩
abbrev main_call0_v47 : Ref sig .tc := ⟨.hbm, 83, rfl⟩
abbrev main_call0_cst_7 : Ref sig .tc := ⟨.hbm, 84, rfl⟩
abbrev main_call0_v48 : Ref sig .tc := ⟨.hbm, 85, rfl⟩
abbrev main_call0_v49 : Ref sig .tc := ⟨.hbm, 86, rfl⟩
abbrev main_call0_cst_8 : Ref sig .tc := ⟨.hbm, 87, rfl⟩
abbrev main_call0_v50 : Ref sig .tc := ⟨.hbm, 88, rfl⟩
abbrev main_call0_v51 : Ref sig .tc := ⟨.hbm, 89, rfl⟩
abbrev main_call0_v52 : Ref sig .tc := ⟨.hbm, 90, rfl⟩
abbrev main_v0_2 : Ref sig .tc := ⟨.hbm, 91, rfl⟩
abbrev main_call0_v54 : Ref sig .tc := ⟨.hbm, 92, rfl⟩
abbrev main_call0_v55 : Ref sig .tc := ⟨.hbm, 93, rfl⟩
abbrev main_call0_v56 : Ref sig .tc := ⟨.hbm, 94, rfl⟩
abbrev main_call0_v57 : Ref sig .tc := ⟨.hbm, 95, rfl⟩
abbrev main_call0_v58 : Ref sig .tc := ⟨.hbm, 96, rfl⟩
abbrev main_call0_call5_cst : Ref sig .tc := ⟨.hbm, 97, rfl⟩
abbrev main_call0_call5_v0 : Ref sig .tc := ⟨.hbm, 98, rfl⟩
abbrev main_call0_v59 : Ref sig .tc := ⟨.hbm, 99, rfl⟩
abbrev main_call0_v60 : Ref sig .tc := ⟨.hbm, 100, rfl⟩
abbrev main_call0_v61 : Ref sig .tc := ⟨.hbm, 101, rfl⟩
abbrev main_v0_0 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x63x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S63x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  transposes_S63x2048_S2048x63_1_0 : S63x2048.Transposes [1, 0] S2048x63
  reducesTo_S63x63_S_d0_1 : S63x63.ReducesTo [0, 1] S_
  h_S_ : 0 < S_.numel
  bcast_S_S63x63 : S_.BroadcastsInDim S63x63 (![] : Fin 0 → Fin S63x63.rank)
  reducesTo_S63x63_S63_d1 : S63x63.ReducesTo [1] S63
  bcast_S63_S63x1_0 : S63.BroadcastsInDim S63x1 (![0] : Fin 1 → Fin S63x1.rank)
  bcast_S_S63x1 : S_.BroadcastsInDim S63x1 (![] : Fin 0 → Fin S63x1.rank)
  bcast_S63x1_S63x63_0_1 : S63x1.BroadcastsInDim S63x63 (![0, 1] : Fin 2 → Fin S63x63.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S63x1024_0_1 : S1x1024.BroadcastsInDim S63x1024 (![0, 1] : Fin 2 → Fin S63x1024.rank)
  bcast_S_S63x1024 : S_.BroadcastsInDim S63x1024 (![] : Fin 0 → Fin S63x1024.rank)
  shapeCasts_S63x1024_S1024x63 : S63x1024.ShapeCasts S1024x63
  transposes_S1024x63_S63x1024_1_0 : S1024x63.Transposes [1, 0] S63x1024
  transposes_S63x1024_S1024x63_1_0 : S63x1024.Transposes [1, 0] S1024x63
  transposes_S300x1024_S1024x300_1_0 : S300x1024.Transposes [1, 0] S1024x300
  bcast_S300_S1x300_1 : S300.BroadcastsInDim S1x300 (![1] : Fin 1 → Fin S1x300.rank)
  bcast_S1x300_S63x300_0_1 : S1x300.BroadcastsInDim S63x300 (![0, 1] : Fin 2 → Fin S63x300.rank)
  bcast_S_S63x300 : S_.BroadcastsInDim S63x300 (![] : Fin 0 → Fin S63x300.rank)
  shapeCasts_S63x300_S300x63 : S63x300.ShapeCasts S300x63
  transposes_S300x63_S63x300_1_0 : S300x63.Transposes [1, 0] S63x300
  inb_S63x1024_S63x1024_0_0 : ∀ a, (![0, 0] : Fin 2 → Nat) a + S63x1024.size a ≤ S63x1024.size a
  h_S63x1024 : 0 < S63x1024.numel
  shapeCasts_S63x1024_S63x1024 : S63x1024.ShapeCasts S63x1024
  inb_S64x63x1024_S64x63x1024_0_0_0 : ∀ a, (![0, 0, 0] : Fin 3 → Nat) a + S64x63x1024.size a ≤ S64x63x1024.size a
  h_S64x63x1024 : 0 < S64x63x1024.numel
  reduces_S64x63x1024_S63x1024 : S64x63x1024.Reduces [0] S63x1024
  dot_S63x2048_S2048x63_S63x63_1_0_0_1_n_n_wf : DotDims.WF S63x2048 S2048x63 S63x63 [1] [0] [0] [1] [] []
  dot_S63x2048_S2048x1024_S63x1024_1_0_0_1_n_n_wf : DotDims.WF S63x2048 S2048x1024 S63x1024 [1] [0] [0] [1] [] []
  dot_S63x63_S63x1024_S63x1024_1_0_0_1_n_n_wf : DotDims.WF S63x63 S63x1024 S63x1024 [1] [0] [0] [1] [] []
  dot_S63x1024_S1024x63_S63x63_1_0_0_1_n_n_wf : DotDims.WF S63x1024 S1024x63 S63x63 [1] [0] [0] [1] [] []
  dot_S63x1024_S1024x300_S63x300_1_0_0_1_n_n_wf : DotDims.WF S63x1024 S1024x300 S63x300 [1] [0] [0] [1] [] []
  dot_S63x63_S63x300_S63x300_1_0_0_1_n_n_wf : DotDims.WF S63x63 S63x300 S63x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x63x1024.size a ≤ S2048x63x2048.size a
  hwx0_0 : ∀ i : grid0.Coords, EltTy.bits .f32 = 32 ∨ (Rect.block (s := S2048x63x2048) S64x63x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S63x1024.size a ≤ S63x2048.size a
  hwx0_1 : ∀ i : grid0.Coords, EltTy.bits .f32 = 32 ∨ (Rect.block (s := S63x2048) S63x1024.size (cc0_transform_1 i) (hinb0_1 i)).WholeWords (EltTy.packing .f32)

variable [Facts₀]

def dot_S63x2048_S2048x63_S63x63_1_0_0_1_n_n : DotDims S63x2048 S2048x63 S63x63 where
  lhsContracting := [1]
  rhsContracting := [0]
  lhsNonContracting := [0]
  rhsNonContracting := [1]
  lhsBatch := []
  rhsBatch := []
  wf := dot_S63x2048_S2048x63_S63x63_1_0_0_1_n_n_wf
def dot_S63x2048_S2048x1024_S63x1024_1_0_0_1_n_n : DotDims S63x2048 S2048x1024 S63x1024 where
  lhsContracting := [1]
  rhsContracting := [0]
  lhsNonContracting := [0]
  rhsNonContracting := [1]
  lhsBatch := []
  rhsBatch := []
  wf := dot_S63x2048_S2048x1024_S63x1024_1_0_0_1_n_n_wf
def dot_S63x63_S63x1024_S63x1024_1_0_0_1_n_n : DotDims S63x63 S63x1024 S63x1024 where
  lhsContracting := [1]
  rhsContracting := [0]
  lhsNonContracting := [0]
  rhsNonContracting := [1]
  lhsBatch := []
  rhsBatch := []
  wf := dot_S63x63_S63x1024_S63x1024_1_0_0_1_n_n_wf
def dot_S63x1024_S1024x63_S63x63_1_0_0_1_n_n : DotDims S63x1024 S1024x63 S63x63 where
  lhsContracting := [1]
  rhsContracting := [0]
  lhsNonContracting := [0]
  rhsNonContracting := [1]
  lhsBatch := []
  rhsBatch := []
  wf := dot_S63x1024_S1024x63_S63x63_1_0_0_1_n_n_wf
def dot_S63x1024_S1024x300_S63x300_1_0_0_1_n_n : DotDims S63x1024 S1024x300 S63x300 where
  lhsContracting := [1]
  rhsContracting := [0]
  lhsNonContracting := [0]
  rhsNonContracting := [1]
  lhsBatch := []
  rhsBatch := []
  wf := dot_S63x1024_S1024x300_S63x300_1_0_0_1_n_n_wf
def dot_S63x63_S63x300_S63x300_1_0_0_1_n_n : DotDims S63x63 S63x300 S63x300 where
  lhsContracting := [1]
  rhsContracting := [0]
  lhsNonContracting := [0]
  rhsNonContracting := [1]
  lhsBatch := []
  rhsBatch := []
  wf := dot_S63x63_S63x300_S63x300_1_0_0_1_n_n_wf

abbrev win0_0 : Pipeline.Window sig grid0 :=
  Pipeline.Window.ofSpec (Memref.whole main_arg0) S64x63x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S63x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x63x2048 : Shape := ⟨3, ![2048, 63, 2048]⟩
abbrev S63x63 : Shape := ⟨2, ![63, 63]⟩
abbrev S1024x2048 : Shape := ⟨2, ![1024, 2048]⟩
abbrev S1024 : Shape := ⟨1, ![1024]⟩
abbrev S300x1024 : Shape := ⟨2, ![300, 1024]⟩
abbrev S300 : Shape := ⟨1, ![300]⟩
abbrev S_ : Shape := ⟨0, ![]⟩
abbrev S63x2048 : Shape := ⟨2, ![63, 2048]⟩
abbrev S2048x63 : Shape := ⟨2, ![2048, 63]⟩
abbrev S63 : Shape := ⟨1, ![63]⟩
abbrev S63x1 : Shape := ⟨2, ![63, 1]⟩
abbrev S2048x1024 : Shape := ⟨2, ![2048, 1024]⟩
abbrev S63x1024 : Shape := ⟨2, ![63, 1024]⟩
abbrev S1x1024 : Shape := ⟨2, ![1, 1024]⟩
abbrev S1024x63 : Shape := ⟨2, ![1024, 63]⟩
abbrev S1024x300 : Shape := ⟨2, ![1024, 300]⟩
abbrev S63x300 : Shape := ⟨2, ![63, 300]⟩
abbrev S1x300 : Shape := ⟨2, ![1, 300]⟩
abbrev S300x63 : Shape := ⟨2, ![300, 63]⟩

abbrev nBuf : Space → Nat
  | .hbm => 107
  | .vmem => 0
  | .smem => 0
  | _ => 0

abbrev bufTy : (tb : Table) → Fin (tcTables nBuf tb) → BufTy
  | .hbm, ⟨0, _⟩ => ⟨S2048x63x2048, .f32⟩
  | .hbm, ⟨1, _⟩ => ⟨S63x63, .f32⟩
  | .hbm, ⟨2, _⟩ => ⟨S1024x2048, .f32⟩
  | .hbm, ⟨3, _⟩ => ⟨S1024, .f32⟩
  | .hbm, ⟨4, _⟩ => ⟨S300x1024, .f32⟩
  | .hbm, ⟨5, _⟩ => ⟨S300, .f32⟩
  | .hbm, ⟨6, _⟩ => ⟨S_, .f32⟩
  | .hbm, ⟨7, _⟩ => ⟨S63x2048, .f32⟩
  | .hbm, ⟨8, _⟩ => ⟨S_, .f32⟩
  | .hbm, ⟨9, _⟩ => ⟨S63x2048, .f32⟩
  | .hbm, ⟨10, _⟩ => ⟨S63x2048, .f32⟩
  | .hbm, ⟨11, _⟩ => ⟨S2048x63, .f32⟩
  | .hbm, ⟨12, _⟩ => ⟨S63x63, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S63x63, .f32⟩
  | .hbm, ⟨18, _⟩ => ⟨S63x63, .f32⟩
  | .hbm, ⟨19, _⟩ => ⟨S_, .f32⟩
  | .hbm, ⟨20, _⟩ => ⟨S63x63, .f32⟩
  | .hbm, ⟨21, _⟩ => ⟨S63x63, .f32⟩
  | .hbm, ⟨22, _⟩ => ⟨S63x63, .f32⟩
  | .hbm, ⟨23, _⟩ => ⟨S63x63, .i32⟩
  | .hbm, ⟨24, _⟩ => ⟨S63x63, .i32⟩
  | .hbm, ⟨25, _⟩ => ⟨S_, .i32⟩
  | .hbm, ⟨26, _⟩ => ⟨S63x63, .i32⟩
  | .hbm, ⟨27, _⟩ => ⟨S63x63, .i32⟩
  | .hbm, ⟨28, _⟩ => ⟨S63x63, .i1⟩
  | .hbm, ⟨29, _⟩ => ⟨S_, .f32⟩
  | .hbm, ⟨30, _⟩ => ⟨S63x63, .f32⟩
  | .hbm, ⟨31, _⟩ => ⟨S63x63, .f32⟩
  | .hbm, ⟨32, _⟩ => ⟨S_, .f32⟩
  | .hbm, ⟨33, _⟩ => ⟨S_, .f32⟩
  | .hbm, ⟨34, _⟩ => ⟨S63x63, .f32⟩
  | .hbm, ⟨35, _⟩ => ⟨S63x63, .f32⟩
  | .hbm, ⟨36, _⟩ => ⟨S63x63, .f32⟩
  | .hbm, ⟨37, _⟩ => ⟨S_, .f32⟩
  | .hbm, ⟨38, _⟩ => ⟨S63, .f32⟩
  | .hbm, ⟨39, _⟩ => ⟨S63x1, .f32⟩
  | .hbm, ⟨40, _⟩ => ⟨S_, .f32⟩
  | .hbm, ⟨41, _⟩ => ⟨S63x1, .f32⟩
  | .hbm, ⟨42, _⟩ => ⟨S63x1, .i1⟩
  | .hbm, ⟨43, _⟩ => ⟨S_, .f32⟩
  | .hbm, ⟨44, _⟩ => ⟨S63x1, .f32⟩
  | .hbm, ⟨45, _⟩ => ⟨S63x1, .f32⟩
  | .hbm, ⟨46, _⟩ => ⟨S63x63, .f32⟩
  | .hbm, ⟨47, _⟩ => ⟨S63x63, .f32⟩
  | .hbm, ⟨48, _⟩ => ⟨S2048x1024, .f32⟩
  | .hbm, ⟨49, _⟩ => ⟨S63x1024, .f32⟩
  | .hbm, ⟨50, _⟩ => ⟨S1x1024, .f32⟩
  | .hbm, ⟨51, _⟩ => ⟨S63x1024, .f32⟩
  | .hbm, ⟨52, _⟩ => ⟨S63x1024, .f32⟩
  | .hbm, ⟨53, _⟩ => ⟨S_, .f32⟩
  | .hbm, ⟨54, _⟩ => ⟨S63x1024, .f32⟩
  | .hbm, ⟨55, _⟩ => ⟨S63x1024, .f32⟩
  | .hbm, ⟨56, _⟩ => ⟨S1024x63, .f32⟩
  | .hbm, ⟨57, _⟩ => ⟨S63x1024, .f32⟩
  | .hbm, ⟨58, _⟩ => ⟨S63x1024, .f32⟩
  | .hbm, ⟨59, _⟩ => ⟨S1024x63, .f32⟩
  | .hbm, ⟨60, _⟩ => ⟨S63x63, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S63x63, .f32⟩
  | .hbm, ⟨66, _⟩ => ⟨S63x63, .f32⟩
  | .hbm, ⟨67, _⟩ => ⟨S_, .f32⟩
  | .hbm, ⟨68, _⟩ => ⟨S63x63, .f32⟩
  | .hbm, ⟨69, _⟩ => ⟨S63x63, .f32⟩
  | .hbm, ⟨70, _⟩ => ⟨S63x63, .f32⟩
  | .hbm, ⟨71, _⟩ => ⟨S63x63, .i32⟩
  | .hbm, ⟨72, _⟩ => ⟨S63x63, .i32⟩
  | .hbm, ⟨73, _⟩ => ⟨S_, .i32⟩
  | .hbm, ⟨74, _⟩ => ⟨S63x63, .i32⟩
  | .hbm, ⟨75, _⟩ => ⟨S63x63, .i32⟩
  | .hbm, ⟨76, _⟩ => ⟨S63x63, .i1⟩
  | .hbm, ⟨77, _⟩ => ⟨S_, .f32⟩
  | .hbm, ⟨78, _⟩ => ⟨S63x63, .f32⟩
  | .hbm, ⟨79, _⟩ => ⟨S63x63, .f32⟩
  | .hbm, ⟨80, _⟩ => ⟨S_, .f32⟩
  | .hbm, ⟨81, _⟩ => ⟨S_, .f32⟩
  | .hbm, ⟨82, _⟩ => ⟨S63x63, .f32⟩
  | .hbm, ⟨83, _⟩ => ⟨S63x63, .f32⟩
  | .hbm, ⟨84, _⟩ => ⟨S63x63, .f32⟩
  | .hbm, ⟨85, _⟩ => ⟨S_, .f32⟩
  | .hbm, ⟨86, _⟩ => ⟨S63, .f32⟩
  | .hbm, ⟨87, _⟩ => ⟨S63x1, .f32⟩
  | .hbm, ⟨88, _⟩ => ⟨S_, .f32⟩
  | .hbm, ⟨89, _⟩ => ⟨S63x1, .f32⟩
  | .hbm, ⟨90, _⟩ => ⟨S63x1, .i1⟩
  | .hbm, ⟨91, _⟩ => ⟨S_, .f32⟩
  | .hbm, ⟨92, _⟩ => ⟨S63x1, .f32⟩
  | .hbm, ⟨93, _⟩ => ⟨S63x1, .f32⟩
  | .hbm, ⟨94, _⟩ => ⟨S63x63, .f32⟩
  | .hbm, ⟨95, _⟩ => ⟨S63x63, .f32⟩
  | .hbm, ⟨96, _⟩ => ⟨S1024x300, .f32⟩
  | .hbm, ⟨97, _⟩ => ⟨S63x300, .f32⟩
  | .hbm, ⟨98, _⟩ => ⟨S1x300, .f32⟩
  | .hbm, ⟨99, _⟩ => ⟨S63x300, .f32⟩
  | .hbm, ⟨100, _⟩ => ⟨S63x300, .f32⟩
  | .hbm, ⟨101, _⟩ => ⟨S_, .f32⟩
  | .hbm, ⟨102, _⟩ => ⟨S63x300, .f32⟩
  | .hbm, ⟨103, _⟩ => ⟨S63x300, .f32⟩
  | .hbm, ⟨104, _⟩ => ⟨S300x63, .f32⟩
  | .hbm, ⟨105, _⟩ => ⟨S63x300, .f32⟩
  | .hbm, ⟨106, _⟩ => ⟨S63x300, .f32⟩
  | _, _ => ⟨S2048x63x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_c : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_cst : Ref sig .tc := ⟨.hbm, 29, rfl⟩
abbrev main_call0_v5 : Ref sig .tc := ⟨.hbm, 30, rfl⟩
abbrev main_call0_v6 : Ref sig .tc := ⟨.hbm, 31, rfl⟩
abbrev main_call0_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call2_cst : Ref sig .tc := ⟨.hbm, 53, rfl⟩
abbrev main_call2_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call3_v0 : Ref sig .tc := ⟨.hbm, 71, rfl⟩
abbrev main_call3_v1 : Ref sig .tc := ⟨.hbm, 72, rfl⟩
abbrev main_call3_c : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_cst : Ref sig .tc := ⟨.hbm, 77, rfl⟩
abbrev main_call3_v5 : Ref sig .tc := ⟨.hbm, 78, rfl⟩
abbrev main_call3_v6 : Ref sig .tc := ⟨.hbm, 79, rfl⟩
abbrev main_call3_cst_0 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_8 : Ref sig .tc := ⟨.hbm, 85, rfl⟩
abbrev main_v48 : Ref sig .tc := ⟨.hbm, 86, rfl⟩
abbrev main_v49 : Ref sig .tc := ⟨.hbm, 87, rfl⟩
abbrev main_cst_9 : Ref sig .tc := ⟨.hbm, 88, rfl⟩
abbrev main_v50 : Ref sig .tc := ⟨.hbm, 89, rfl⟩
abbrev main_v51 : Ref sig .tc := ⟨.hbm, 90, rfl⟩
abbrev main_cst_10 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_call5_cst : Ref sig .tc := ⟨.hbm, 101, rfl⟩
abbrev main_call5_v0 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩

abbrev nD : Nat := 1
abbrev τ : Topo := Topo.v7x

variable {F : FTy → Type} [FloatOps F]

class Facts₀ : Prop where
  reducesTo_S2048x63x2048_S63x2048_d0 : S2048x63x2048.ReducesTo [0] S63x2048
  h_S_ : 0 < S_.numel
  bcast_S_S63x2048 : S_.BroadcastsInDim S63x2048 (![] : Fin 0 → Fin S63x2048.rank)
  transposes_S63x2048_S2048x63_1_0 : S63x2048.Transposes [1, 0] S2048x63
  reducesTo_S63x63_S_d0_1 : S63x63.ReducesTo [0, 1] S_
  bcast_S_S63x63 : S_.BroadcastsInDim S63x63 (![] : Fin 0 → Fin S63x63.rank)
  reducesTo_S63x63_S63_d1 : S63x63.ReducesTo [1] S63
  bcast_S63_S63x1_0 : S63.BroadcastsInDim S63x1 (![0] : Fin 1 → Fin S63x1.rank)
  bcast_S_S63x1 : S_.BroadcastsInDim S63x1 (![] : Fin 0 → Fin S63x1.rank)
  bcast_S63x1_S63x63_0_1 : S63x1.BroadcastsInDim S63x63 (![0, 1] : Fin 2 → Fin S63x63.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S63x1024_0_1 : S1x1024.BroadcastsInDim S63x1024 (![0, 1] : Fin 2 → Fin S63x1024.rank)
  bcast_S_S63x1024 : S_.BroadcastsInDim S63x1024 (![] : Fin 0 → Fin S63x1024.rank)
  shapeCasts_S63x1024_S1024x63 : S63x1024.ShapeCasts S1024x63
  transposes_S1024x63_S63x1024_1_0 : S1024x63.Transposes [1, 0] S63x1024
  transposes_S63x1024_S1024x63_1_0 : S63x1024.Transposes [1, 0] S1024x63
  transposes_S300x1024_S1024x300_1_0 : S300x1024.Transposes [1, 0] S1024x300
  bcast_S300_S1x300_1 : S300.BroadcastsInDim S1x300 (![1] : Fin 1 → Fin S1x300.rank)
  bcast_S1x300_S63x300_0_1 : S1x300.BroadcastsInDim S63x300 (![0, 1] : Fin 2 → Fin S63x300.rank)
  bcast_S_S63x300 : S_.BroadcastsInDim S63x300 (![] : Fin 0 → Fin S63x300.rank)
  shapeCasts_S63x300_S300x63 : S63x300.ShapeCasts S300x63
  transposes_S300x63_S63x300_1_0 : S300x63.Transposes [1, 0] S63x300
  dot_S63x2048_S2048x63_S63x63_1_0_0_1_n_n_wf : DotDims.WF S63x2048 S2048x63 S63x63 [1] [0] [0] [1] [] []
  dot_S63x2048_S2048x1024_S63x1024_1_0_0_1_n_n_wf : DotDims.WF S63x2048 S2048x1024 S63x1024 [1] [0] [0] [1] [] []
  dot_S63x63_S63x1024_S63x1024_1_0_0_1_n_n_wf : DotDims.WF S63x63 S63x1024 S63x1024 [1] [0] [0] [1] [] []
  dot_S63x1024_S1024x63_S63x63_1_0_0_1_n_n_wf : DotDims.WF S63x1024 S1024x63 S63x63 [1] [0] [0] [1] [] []
  dot_S63x1024_S1024x300_S63x300_1_0_0_1_n_n_wf : DotDims.WF S63x1024 S1024x300 S63x300 [1] [0] [0] [1] [] []
  dot_S63x63_S63x300_S63x300_1_0_0_1_n_n_wf : DotDims.WF S63x63 S63x300 S63x300 [1] [0] [0] [1] [] []

variable [Facts₀]

def dot_S63x2048_S2048x63_S63x63_1_0_0_1_n_n : DotDims S63x2048 S2048x63 S63x63 where
  lhsContracting := [1]
  rhsContracting := [0]
  lhsNonContracting := [0]
  rhsNonContracting := [1]
  lhsBatch := []
  rhsBatch := []
  wf := dot_S63x2048_S2048x63_S63x63_1_0_0_1_n_n_wf
def dot_S63x2048_S2048x1024_S63x1024_1_0_0_1_n_n : DotDims S63x2048 S2048x1024 S63x1024 where
  lhsContracting := [1]
  rhsContracting := [0]
  lhsNonContracting := [0]
  rhsNonContracting := [1]
  lhsBatch := []
  rhsBatch := []
  wf := dot_S63x2048_S2048x1024_S63x1024_1_0_0_1_n_n_wf
def dot_S63x63_S63x1024_S63x1024_1_0_0_1_n_n : DotDims S63x63 S63x1024 S63x1024 where
  lhsContracting := [1]
  rhsContracting := [0]
  lhsNonContracting := [0]
  rhsNonContracting := [1]
  lhsBatch := []
  rhsBatch := []
  wf := dot_S63x63_S63x1024_S63x1024_1_0_0_1_n_n_wf
def dot_S63x1024_S1024x63_S63x63_1_0_0_1_n_n : DotDims S63x1024 S1024x63 S63x63 where
  lhsContracting := [1]
  rhsContracting := [0]
  lhsNonContracting := [0]
  rhsNonContracting := [1]
  lhsBatch := []
  rhsBatch := []
  wf := dot_S63x1024_S1024x63_S63x63_1_0_0_1_n_n_wf
def dot_S63x1024_S1024x300_S63x300_1_0_0_1_n_n : DotDims S63x1024 S1024x300 S63x300 where
  lhsContracting := [1]
  rhsContracting := [0]
  lhsNonContracting := [0]
  rhsNonContracting := [1]
  lhsBatch := []
  rhsBatch := []
  wf := dot_S63x1024_S1024x300_S63x300_1_0_0_1_n_n_wf
def dot_S63x63_S63x300_S63x300_1_0_0_1_n_n : DotDims S63x63 S63x300 S63x300 where
  lhsContracting := [1]
  rhsContracting := [0]
  lhsNonContracting := [0]
  rhsNonContracting := [1]
  lhsBatch := []
  rhsBatch := []
  wf := dot_S63x63_S63x300_S63x300_1_0_0_1_n_n_wf

class Facts : Prop extends Facts₀ where

variable [Facts]
-- ==== Proof.Kernel.Shared.lean ====
/-
  The batch-mean kernel's launch, seen from outside its body.

  The grid has 2 x 32 points: the first coordinate picks a half of the 2048 columns, the second a tile of 64 of the
  2048 batch entries. The program enters the region before any host line, so the region finds every array as it was
  launched; 96 host lines follow it. Here: those entry contents; that the following lines touch only unscoped buffers,
  allocate nothing and never write the batch array or the mean's array; the block of an array a point's window
  shows; and the two branch conditions of the body, each decided over the grid - the accumulator is reset exactly at
  the first batch tile of a half (point = 0 mod 32) and scaled exactly at the last (point = 31 mod 32).
-/
import proofs.«102532_j52673478918326_2_alg».proof.Proof.Gen.Kernel.Launch
import proofs.«102532_j52673478918326_2_alg».proof.Proof.Gen.Kernel.Skeleton
import proofs.«102532_j52673478918326_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mean

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry, and the lines after it -/

/-- The buffers' contents when the region is entered: the launch contents (no host line comes before it). -/
abbrev V0 (c : Dev nD) : Valuation τ sig (Elt F) := StableHlo.after (List.flatten []) (fun b => m (c, b))
/-- The same, read at a TensorCore reference. -/
abbrev V (c : Dev nD) (b : Ref sig .tc) : Buf (Elt F) ((c : Thread nD τ).loc b) := V0 m c (Proc.devRef .tc b)

/-- No line after the region allocates a buffer. -/
theorem hostOps1_fresh : (hostOps1 : List (HloOp τ sig (Elt F))).Forall fun op => op.fresh = ∅ := by
  simp only [List.Forall]; repeat' constructor

/-- No line after the region writes the batch array or the mean's array: each writes its own result buffer only. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.nullary_writes, StableHlo.unary_writes, StableHlo.binary_writes, StableHlo.ternary_writes,
        StableHlo.reshape_writes, Finset.mem_singleton] <;>
      exact StableHlo.devRef_ne_of_ne (by decide)

set_option maxHeartbeats 40000000 in  -- the statement carries the literal list of the 96 lines
/-- The program is the region followed by the 96 lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

theorem V_main_arg0 (c : Dev nD) : V m c main_arg0 = m ((c : Thread nD τ).loc main_arg0) := rfl

/-! ## A window's block at a point -/

/-- The block of window `w`'s array that point `t` shows, read off the region-entry contents. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The batch window's staging buffer holds its block at every point, for any proof data over the entry contents
    whose body leaves that block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branches -/

/-- "This is the first batch tile": the body's first condition, from the grid coordinates. -/
abbrev isFirst (i : grid0.Coords) : Prop := (Scalar.cmpi .ne (Scalar.extui (Scalar.cmpi .eq (BitVec.ofNat 32 (i 1).val) 0#32)) 0#32) = 1#1
/-- It holds exactly at the points = 0 (mod 32). -/
theorem isFirst_iff : ∀ t : Fin cfg0.N, isFirst (grid0.coords t) ↔ t.val % 32 = 0 :=
  (by decide +kernel : ∀ t : Fin grid0.N, isFirst (grid0.coords t) ↔ t.val % 32 = 0)

/-- "This is the last batch tile": the body's second condition. -/
abbrev isLast (i : grid0.Coords) : Prop := (Scalar.cmpi .ne (Scalar.extui (Scalar.cmpi .eq (BitVec.ofNat 32 (i 1).val) 31#32)) 0#32) = 1#1
/-- It holds exactly at the points = 31 (mod 32). -/
theorem isLast_iff : ∀ t : Fin cfg0.N, isLast (grid0.coords t) ↔ t.val % 32 = 31 :=
  (by decide +kernel : ∀ t : Fin grid0.N, isLast (grid0.coords t) ↔ t.val % 32 = 31)

/-! ## The staging memrefs -/

/-- One staging buffer of the mean's window, through which its contents are stated. -/
abbrev accView : View sig .tc .vmem S63x1024 .f32 := (Memref.whole cc0_stg1_0 : Memref sig .tc .vmem S63x1024 .f32).view
/-- Each window's current staging memref at point `t`, as the pipeline passes it to the body, and that it is whole. -/
abbrev ms0_0 (t : Fin cfg0.N) : Memref sig .tc .vmem S64x63x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S63x1024 .f32 := win0_1.stage (cfg0.slots t 1)
abbrev hs0_1 (t : Fin cfg0.N) : (ms0_1 t).IsWhole := hstage0_1 ((cfg0.slots t 1).cast nbuf0_1)

end Cert.Kernel.Mean

end
-- ==== Proof.Kernel.RunFirst.lean ====
/-
  The body at the first batch tile of a half: it overwrites the accumulator with zeros, then adds the tile's sum over its
  64 batch entries; it does not scale. The accumulator's earlier contents are never used.
-/
import proofs.«102532_j52673478918326_2_alg».proof.Proof.Kernel.Shared

set_option maxRecDepth 16384

noncomputable section

namespace Cert.Kernel.Mean

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the mean's staging buffer in this case, last first, with the proof that from whole
    staging buffers - the batch tile's at its contents - the body runs to its continuation, the batch tile untouched
    and the mean's buffer holding those stores. -/
noncomputable def runFirst (c : Dev nD) (i : grid0.Coords) (arg2 : Memref sig .tc .vmem S64x63x1024 .f32) (harg2 : arg2.IsWhole) (arg3 : Memref sig .tc .vmem S63x1024 .f32) (harg3 : arg3.IsWhole) (hc0 : isFirst i) (hc1 : ¬isLast i)
    (x0 : Vec F S64x63x1024 .f32) :
    { L1 : List (View.Piece (Elt F) S63x1024 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_kernel i arg2 harg2 arg3 harg3) K } := by
  refine ⟨?_, fun E K => ?run⟩
  case run =>
    simp only [cc0__mean_kernel_eq_skeleton]; unfold cc0__mean_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.Kernel.Mean

end
-- ==== Proof.Kernel.RunMiddle.lean ====
/-
  The body at a batch tile that is neither first nor last: it adds the tile's sum over its 64 batch entries to the
  accumulator the previous point left.
-/
import proofs.«102532_j52673478918326_2_alg».proof.Proof.Kernel.RunFirst

set_option maxRecDepth 16384

noncomputable section

namespace Cert.Kernel.Mean

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the mean's staging buffer in this case, last first, with the proof that from whole
    staging buffers - the batch tile's at its contents - the body runs to its continuation, the batch tile untouched
    and the mean's buffer holding those stores. -/
noncomputable def runMiddle (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : ¬isLast i)
    (x0 : Vec F S64x63x1024 .f32) (xo1 : Vec F S63x1024 .f32) :
    { L1 : List (View.Piece (Elt F) S63x1024 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_kernel i arg2 harg2 arg3 harg3) K } := by
  refine ⟨?_, fun E K => ?run⟩
  case run =>
    simp only [cc0__mean_kernel_eq_skeleton]; unfold cc0__mean_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.Kernel.Mean

end
-- ==== Proof.Kernel.RunLast.lean ====
/-
  The body at the last batch tile of a half: it adds the tile's sum over its 64 batch entries to the accumulator the
  previous point left, then multiplies the total by the constant 2^-11 (one over the 2048 batch entries).
-/
import proofs.«102532_j52673478918326_2_alg».proof.Proof.Kernel.RunMiddle

set_option maxRecDepth 16384

noncomputable section

namespace Cert.Kernel.Mean

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the mean's staging buffer in this case, last first, with the proof that from whole
    staging buffers - the batch tile's at its contents - the body runs to its continuation, the batch tile untouched
    and the mean's buffer holding those stores. -/
noncomputable def runLast (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : isLast i)
    (x0 : Vec F S64x63x1024 .f32) (xo1 : Vec F S63x1024 .f32) :
    { L1 : List (View.Piece (Elt F) S63x1024 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_kernel i arg2 harg2 arg3 harg3) K } := by
  refine ⟨?_, fun E K => ?run⟩
  case run =>
    simp only [cc0__mean_kernel_eq_skeleton]; unfold cc0__mean_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.Kernel.Mean

end
-- ==== Proof.Kernel.Frame.lean ====
/-
  The batch-mean program runs to its end, faults nowhere and leaves its arguments as they were.

  After the body at grid point t the accumulator's staging buffer holds, by recursion on t: at the first batch tile of a
  half (t = 0 mod 32) the tile's sum over its 64 batch entries added to zero; at a later tile that sum added to what the
  point before left (the buffer is not written back in between: it is written back only after the last tile); and at
  the last tile (t = 31 mod 32) that total times 2^-11. With the batch window's buffer at its block at every point, this
  is the pipeline's proof data; the body meets it in each of the three cases; the 96 host lines that follow touch
  neither array; so every fair execution terminates with the mean's array at what the proof data says, every
  argument unchanged, and every other buffer at what the lines compute from those.
-/
import proofs.«102532_j52673478918326_2_alg».proof.Proof.Kernel.RunLast

set_option maxRecDepth 16384

noncomputable section

namespace Cert.Kernel.Mean

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator -/

/-- In each case the stores cover the whole accumulator block. -/
theorem coverFirst (c : Dev nD) (i : grid0.Coords) (arg2 : Memref sig .tc .vmem S64x63x1024 .f32) (harg2 : arg2.IsWhole) (arg3 : Memref sig .tc .vmem S63x1024 .f32) (harg3 : arg3.IsWhole) (hc0 : isFirst i) (hc1 : ¬isLast i)
    (x0 : Vec F S64x63x1024 .f32) (y : S63x1024.Idx) :
    ∃ pc ∈ (runFirst c i arg2 harg2 arg3 harg3 hc0 hc1 x0).1, y ∈ pc.1.set :=
  View.cover_of_tiledL (runFirst c i arg2 harg2 arg3 harg3 hc0 hc1 x0).1 S63x1024.size (by sl_kernel_rfl) y

theorem coverMiddle (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : ¬isLast i)
    (x0 : Vec F S64x63x1024 .f32) (xo1 : Vec F S63x1024 .f32) (y : S63x1024.Idx) :
    ∃ pc ∈ (runMiddle c i arg2 harg2 arg3 harg3 hc0 hc1 x0 xo1).1, y ∈ pc.1.set :=
  View.cover_of_tiledL (runMiddle c i arg2 harg2 arg3 harg3 hc0 hc1 x0 xo1).1 S63x1024.size (by sl_kernel_rfl) y

theorem coverLast (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : isLast i)
    (x0 : Vec F S64x63x1024 .f32) (xo1 : Vec F S63x1024 .f32) (y : S63x1024.Idx) :
    ∃ pc ∈ (runLast c i arg2 harg2 arg3 harg3 hc0 hc1 x0 xo1).1, y ∈ pc.1.set :=
  View.cover_of_tiledL (runLast c i arg2 harg2 arg3 harg3 hc0 hc1 x0 xo1).1 S63x1024.size (by sl_kernel_rfl) y

/-- What the first-tile case leaves in the accumulator: its stores read back. -/
def outFirst (c : Dev nD) (i : grid0.Coords) (arg2 : Memref sig .tc .vmem S64x63x1024 .f32) (harg2 : arg2.IsWhole) (arg3 : Memref sig .tc .vmem S63x1024 .f32) (harg3 : arg3.IsWhole) (hc0 : isFirst i) (hc1 : ¬isLast i)
    (x0 : Vec F S64x63x1024 .f32) : Vec F S63x1024 .f32 :=
  accView.read (Elt F) (accView.writes (Elt F) accView.junk (runFirst c i arg2 harg2 arg3 harg3 hc0 hc1 x0).1)

/-- What a middle tile leaves, over what the point before left (`xo1`). -/
def outMiddle (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : ¬isLast i)
    (x0 : Vec F S64x63x1024 .f32) (xo1 : Vec F S63x1024 .f32) : Vec F S63x1024 .f32 :=
  accView.read (Elt F) (accView.writes (Elt F) accView.junk (runMiddle c i arg2 harg2 arg3 harg3 hc0 hc1 x0 xo1).1)

/-- What the last tile leaves, over what the point before left (`xo1`). -/
def outLast (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : isLast i)
    (x0 : Vec F S64x63x1024 .f32) (xo1 : Vec F S63x1024 .f32) : Vec F S63x1024 .f32 :=
  accView.read (Elt F) (accView.writes (Elt F) accView.junk (runLast c i arg2 harg2 arg3 harg3 hc0 hc1 x0 xo1).1)

/-! ## The accumulator, point by point -/

theorem notLast_of_first (t : Fin cfg0.N) (h0 : t.val % 32 = 0) : ¬isLast (grid0.coords t) := fun h => by
  have h' : t.val % 32 = 31 := (isLast_iff t).mp h
  omega

/-- The accumulation: what the accumulator's staging buffer holds after the body at position `n`. -/
def accAt (c : Dev nD) : (n : ℕ) → n < cfg0.N → Vec F S63x1024 .f32
  | 0, hn => outFirst c (grid0.coords ⟨0, hn⟩) (ms0_0 ⟨0, hn⟩) (hs0_0 ⟨0, hn⟩) (ms0_1 ⟨0, hn⟩) (hs0_1 ⟨0, hn⟩)
      ((isFirst_iff ⟨0, hn⟩).mpr (Nat.zero_mod _)) (notLast_of_first ⟨0, hn⟩ (Nat.zero_mod _)) (iblk m c 0 ⟨0, hn⟩)
  | n + 1, hn =>
    if h0 : (n + 1) % 32 = 0 then
      outFirst c (grid0.coords ⟨n + 1, hn⟩) (ms0_0 ⟨n + 1, hn⟩) (hs0_0 ⟨n + 1, hn⟩) (ms0_1 ⟨n + 1, hn⟩) (hs0_1 ⟨n + 1, hn⟩)
        ((isFirst_iff ⟨n + 1, hn⟩).mpr h0) (notLast_of_first ⟨n + 1, hn⟩ h0) (iblk m c 0 ⟨n + 1, hn⟩)
    else if h1 : (n + 1) % 32 = 31 then
      outLast c (grid0.coords ⟨n + 1, hn⟩) (ms0_0 ⟨n + 1, hn⟩) (hs0_0 ⟨n + 1, hn⟩) (ms0_1 ⟨n + 1, hn⟩) (hs0_1 ⟨n + 1, hn⟩)
        (fun h => h0 ((isFirst_iff ⟨n + 1, hn⟩).mp h)) ((isLast_iff ⟨n + 1, hn⟩).mpr h1) (iblk m c 0 ⟨n + 1, hn⟩) (accAt c n (Nat.lt_of_succ_lt hn))
    else
      outMiddle c (grid0.coords ⟨n + 1, hn⟩) (ms0_0 ⟨n + 1, hn⟩) (hs0_0 ⟨n + 1, hn⟩) (ms0_1 ⟨n + 1, hn⟩) (hs0_1 ⟨n + 1, hn⟩)
        (fun h => h0 ((isFirst_iff ⟨n + 1, hn⟩).mp h)) (fun h => h1 ((isLast_iff ⟨n + 1, hn⟩).mp h)) (iblk m c 0 ⟨n + 1, hn⟩) (accAt c n (Nat.lt_of_succ_lt hn))

/-- At a first tile: the sum of the tile from zero. -/
theorem accAt_first (c : Dev nD) (t : Fin cfg0.N) (h0 : t.val % 32 = 0) :
    accAt m c t.val t.isLt = outFirst c (grid0.coords t) (ms0_0 t) (hs0_0 t) (ms0_1 t) (hs0_1 t) ((isFirst_iff t).mpr h0) (notLast_of_first t h0) (iblk m c 0 t) := by
  obtain ⟨n, hn⟩ := t
  cases n with
  | zero => exact rfl
  | succ n => exact (dif_pos h0).trans rfl

/-- At the last tile: over what the point before left, then scaled. -/
theorem accAt_last (c : Dev nD) (t : Fin cfg0.N) (h0 : ¬t.val % 32 = 0) (h1 : t.val % 32 = 31) :
    accAt m c t.val t.isLt = outLast c (grid0.coords t) (ms0_0 t) (hs0_0 t) (ms0_1 t) (hs0_1 t) (fun h => h0 ((isFirst_iff t).mp h)) ((isLast_iff t).mpr h1) (iblk m c 0 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- At a middle tile: over what the point before left. -/
theorem accAt_middle (c : Dev nD) (t : Fin cfg0.N) (h0 : ¬t.val % 32 = 0) (h1 : ¬t.val % 32 = 31) :
    accAt m c t.val t.isLt = outMiddle c (grid0.coords t) (ms0_0 t) (hs0_0 t) (ms0_1 t) (hs0_1 t) (fun h => h0 ((isFirst_iff t).mp h)) (fun h => h1 ((isLast_iff t).mp h)) (iblk m c 0 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-! ## The pipeline's proof data -/

/-- The arrays as the region finds them; after the body at point `t` the batch window's buffer at its block and the
    accumulator's at `accAt`; nothing else kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (accAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (accAt m c t.val t.isLt) := by dsimp only [dats]

/-- The batch window's buffer holds its block at every point. -/
theorem before0_0 (c : Dev nD) (t : Fin cfg0.N) (d) : (dats m 0 c).before 0 t d = iblk m c 0 t :=
  before0_0_of m (dats m 0 c) (A_eq m c 0) (after0_0 m c) t d

/-- At a tile that is not the first of its half the accumulator's buffer holds what the point before left: the point
    before is not a last tile, so nothing was written back in between. -/
theorem before0_1_kept (c : Dev nD) (t : Fin cfg0.N) (h0 : ¬t.val % 32 = 0) (d) :
    (dats m 0 c).before 1 t d = (accAt m c (t.val - 1) (Nat.lt_of_le_of_lt (Nat.sub_le _ _) t.isLt)) := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 1600000 in
/-- The body at any point: which of the three cases the point is in is read off its position mod 32, and that case's
    run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 64 := lt_of_lt_of_eq t.isLt (show cfg0.N = 64 from N_0)
  by_cases h0 : t.val % 32 = 0
  · rw [accAt_first m c t h0]
    unfold outFirst
    iintro ⟨HΦ, Ho, ⟨%d0, H0⟩, ⟨%d1, H1⟩⟩
    iapply ((runFirst c (grid0.coords t) _ _ _ _ ((isFirst_iff t).mpr h0) (notLast_of_first t h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _ _)
  · by_cases h1 : t.val % 32 = 31
    · rw [accAt_last m c t h0 h1]
      simp only [before0_1_kept m c t h0]
      unfold outLast
      iintro ⟨HΦ, Ho, ⟨%d0, H0⟩, ⟨%d1, H1⟩⟩
      iapply ((runLast c (grid0.coords t) _ _ _ _ (fun h => h0 ((isFirst_iff t).mp h)) ((isLast_iff t).mpr h1) (iblk m c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (coverLast c _ _ _ _ _ _ _ _ _)
    · rw [accAt_middle m c t h0 h1]
      simp only [before0_1_kept m c t h0]
      unfold outMiddle
      iintro ⟨HΦ, Ho, ⟨%d0, H0⟩, ⟨%d1, H1⟩⟩
      iapply ((runMiddle c (grid0.coords t) _ _ _ _ (fun h => h0 ((isFirst_iff t).mp h)) (fun h => h1 ((isLast_iff t).mp h)) (iblk m c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (coverMiddle c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
set_option maxHeartbeats 40000000 in  -- the statement carries the literal list of the 96 lines
/-- Every fair execution terminates; the two arrays end at what the proof data computes, every other unscoped buffer at
    what the 96 lines leave from the region's exit. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-! ## The arguments that bypass the region -/

/-- No line after the region writes an argument. -/
theorem hostOps1_keeps_args : (hostOps1 : List (HloOp τ sig (Elt F))).Forall fun op =>
    ∀ r ∈ [main_arg1, main_arg2, main_arg3, main_arg4, main_arg5], Proc.devRef (τ := τ) .tc r ∉ op.writes := by
  simp only [List.Forall]
  repeat' apply And.intro
  all_goals
    intro r hr
    simp only [List.mem_cons, List.mem_nil_iff, or_false] at hr
    rcases hr with rfl | rfl | rfl | rfl | rfl <;>
      simp only [StableHlo.nullary_writes, StableHlo.unary_writes, StableHlo.binary_writes, StableHlo.ternary_writes,
        StableHlo.reshape_writes, Finset.mem_singleton] <;>
      exact StableHlo.devRef_ne_of_ne (by decide)

set_option maxHeartbeats 4000000 in
/-- So after the lines each such argument holds its launch contents. -/
theorem tail_kept (dats : (p : Fin 1) → (c : Dev nD) → Dat τ (Elt F) Unit ℕ (UR sig nD τ) ℕ (cfgs p) c) (c : Dev nD) (r : Ref sig .tc)
    (hr : r ∈ [main_arg1, main_arg2, main_arg3, main_arg4, main_arg5]) :
    Pipeline.afterTail₀ cfgs dats 0 (V0 m) [hostOps1] c r = m ((c : Thread nD τ).loc r) := by
  unfold Pipeline.afterTail₀
  show StableHlo.after hostOps1 _ (Proc.devRef .tc r) = _
  rw [StableHlo.after_of_forall_not_mem _ _ fun op hop => (List.forall_iff_forall_mem.mp hostOps1_keeps_args) op hop r hr]
  rw [Pipeline.withArrays_of_ne _ c _ _ r ?_]
  · rfl
  · intro w
    simp only [List.mem_cons, List.mem_nil_iff, or_false] at hr
    rcases hr with rfl | rfl | rfl | rfl | rfl <;> fin_cases w <;> decide

/-! ## The frame -/

/-- From a run to the library's post: the batch array by the proof data (an input keeps its entry contents), the other
    five arguments because no line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).2 main_arg1 (Pipeline.mem_restRefs_of _ rfl (by decide))).trans (tail_kept m dats c main_arg1 (by simp)),
     ((h c).2 main_arg2 (Pipeline.mem_restRefs_of _ rfl (by decide))).trans (tail_kept m dats c main_arg2 (by simp)),
     ((h c).2 main_arg3 (Pipeline.mem_restRefs_of _ rfl (by decide))).trans (tail_kept m dats c main_arg3 (by simp)),
     ((h c).2 main_arg4 (Pipeline.mem_restRefs_of _ rfl (by decide))).trans (tail_kept m dats c main_arg4 (by simp)),
     ((h c).2 main_arg5 (Pipeline.mem_restRefs_of _ rfl (by decide))).trans (tail_kept m dats c main_arg5 (by simp))⟩) h

/-- The frame claim's statement, for any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Mean

end
-- ==== Proof.KernelIdeal.Shared.lean ====
/-
  The batch-mean kernel's launch, seen from outside its body.

  The grid has 2 x 32 points: the first coordinate picks a half of the 2048 columns, the second a tile of 64 of the
  2048 batch entries. The program enters the region before any host line, so the region finds every array as it was
  launched; 96 host lines follow it. Here: those entry contents; that the following lines touch only unscoped buffers,
  allocate nothing and never write the batch array or the mean's array; the block of an array a point's window
  shows; and the two branch conditions of the body, each decided over the grid - the accumulator is reset exactly at
  the first batch tile of a half (point = 0 mod 32) and scaled exactly at the last (point = 31 mod 32).
-/
import proofs.«102532_j52673478918326_2_alg».proof.Proof.Gen.KernelIdeal.Launch
import proofs.«102532_j52673478918326_2_alg».proof.Proof.Gen.KernelIdeal.Skeleton
import proofs.«102532_j52673478918326_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry, and the lines after it -/

/-- The buffers' contents when the region is entered: the launch contents (no host line comes before it). -/
abbrev V0 (c : Dev nD) : Valuation τ sig (Elt F) := StableHlo.after (List.flatten []) (fun b => m (c, b))
/-- The same, read at a TensorCore reference. -/
abbrev V (c : Dev nD) (b : Ref sig .tc) : Buf (Elt F) ((c : Thread nD τ).loc b) := V0 m c (Proc.devRef .tc b)

/-- No line after the region allocates a buffer. -/
theorem hostOps1_fresh : (hostOps1 : List (HloOp τ sig (Elt F))).Forall fun op => op.fresh = ∅ := by
  simp only [List.Forall]; repeat' constructor

/-- No line after the region writes the batch array or the mean's array: each writes its own result buffer only. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.nullary_writes, StableHlo.unary_writes, StableHlo.binary_writes, StableHlo.ternary_writes,
        StableHlo.reshape_writes, Finset.mem_singleton] <;>
      exact StableHlo.devRef_ne_of_ne (by decide)

set_option maxHeartbeats 40000000 in  -- the statement carries the literal list of the 96 lines
/-- The program is the region followed by the 96 lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

theorem V_main_arg0 (c : Dev nD) : V m c main_arg0 = m ((c : Thread nD τ).loc main_arg0) := rfl

/-! ## A window's block at a point -/

/-- The block of window `w`'s array that point `t` shows, read off the region-entry contents. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The batch window's staging buffer holds its block at every point, for any proof data over the entry contents
    whose body leaves that block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branches -/

/-- "This is the first batch tile": the body's first condition, from the grid coordinates. -/
abbrev isFirst (i : grid0.Coords) : Prop := (Scalar.cmpi .ne (Scalar.extui (Scalar.cmpi .eq (BitVec.ofNat 32 (i 1).val) 0#32)) 0#32) = 1#1
/-- It holds exactly at the points = 0 (mod 32). -/
theorem isFirst_iff : ∀ t : Fin cfg0.N, isFirst (grid0.coords t) ↔ t.val % 32 = 0 :=
  (by decide +kernel : ∀ t : Fin grid0.N, isFirst (grid0.coords t) ↔ t.val % 32 = 0)

/-- "This is the last batch tile": the body's second condition. -/
abbrev isLast (i : grid0.Coords) : Prop := (Scalar.cmpi .ne (Scalar.extui (Scalar.cmpi .eq (BitVec.ofNat 32 (i 1).val) 31#32)) 0#32) = 1#1
/-- It holds exactly at the points = 31 (mod 32). -/
theorem isLast_iff : ∀ t : Fin cfg0.N, isLast (grid0.coords t) ↔ t.val % 32 = 31 :=
  (by decide +kernel : ∀ t : Fin grid0.N, isLast (grid0.coords t) ↔ t.val % 32 = 31)

/-! ## The staging memrefs -/

/-- One staging buffer of the mean's window, through which its contents are stated. -/
abbrev accView : View sig .tc .vmem S63x1024 .f32 := (Memref.whole cc0_stg1_0 : Memref sig .tc .vmem S63x1024 .f32).view
/-- Each window's current staging memref at point `t`, as the pipeline passes it to the body, and that it is whole. -/
abbrev ms0_0 (t : Fin cfg0.N) : Memref sig .tc .vmem S64x63x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S63x1024 .f32 := win0_1.stage (cfg0.slots t 1)
abbrev hs0_1 (t : Fin cfg0.N) : (ms0_1 t).IsWhole := hstage0_1 ((cfg0.slots t 1).cast nbuf0_1)

end Cert.KernelIdeal.Mean

end
-- ==== Proof.KernelIdeal.RunFirst.lean ====
/-
  The body at the first batch tile of a half: it overwrites the accumulator with zeros, then adds the tile's sum over its
  64 batch entries; it does not scale. The accumulator's earlier contents are never used.
-/
import proofs.«102532_j52673478918326_2_alg».proof.Proof.KernelIdeal.Shared

set_option maxRecDepth 16384

noncomputable section

namespace Cert.KernelIdeal.Mean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the mean's staging buffer in this case, last first, with the proof that from whole
    staging buffers - the batch tile's at its contents - the body runs to its continuation, the batch tile untouched
    and the mean's buffer holding those stores. -/
noncomputable def runFirst (c : Dev nD) (i : grid0.Coords) (arg2 : Memref sig .tc .vmem S64x63x1024 .f32) (harg2 : arg2.IsWhole) (arg3 : Memref sig .tc .vmem S63x1024 .f32) (harg3 : arg3.IsWhole) (hc0 : isFirst i) (hc1 : ¬isLast i)
    (x0 : Vec F S64x63x1024 .f32) :
    { L1 : List (View.Piece (Elt F) S63x1024 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_kernel i arg2 harg2 arg3 harg3) K } := by
  refine ⟨?_, fun E K => ?run⟩
  case run =>
    simp only [cc0__mean_kernel_eq_skeleton]; unfold cc0__mean_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.KernelIdeal.Mean

end
-- ==== Proof.KernelIdeal.RunMiddle.lean ====
/-
  The body at a batch tile that is neither first nor last: it adds the tile's sum over its 64 batch entries to the
  accumulator the previous point left.
-/
import proofs.«102532_j52673478918326_2_alg».proof.Proof.KernelIdeal.RunFirst

set_option maxRecDepth 16384

noncomputable section

namespace Cert.KernelIdeal.Mean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the mean's staging buffer in this case, last first, with the proof that from whole
    staging buffers - the batch tile's at its contents - the body runs to its continuation, the batch tile untouched
    and the mean's buffer holding those stores. -/
noncomputable def runMiddle (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : ¬isLast i)
    (x0 : Vec F S64x63x1024 .f32) (xo1 : Vec F S63x1024 .f32) :
    { L1 : List (View.Piece (Elt F) S63x1024 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_kernel i arg2 harg2 arg3 harg3) K } := by
  refine ⟨?_, fun E K => ?run⟩
  case run =>
    simp only [cc0__mean_kernel_eq_skeleton]; unfold cc0__mean_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.KernelIdeal.Mean

end
-- ==== Proof.KernelIdeal.RunLast.lean ====
/-
  The body at the last batch tile of a half: it adds the tile's sum over its 64 batch entries to the accumulator the
  previous point left, then multiplies the total by the constant 2^-11 (one over the 2048 batch entries).
-/
import proofs.«102532_j52673478918326_2_alg».proof.Proof.KernelIdeal.RunMiddle

set_option maxRecDepth 16384

noncomputable section

namespace Cert.KernelIdeal.Mean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the mean's staging buffer in this case, last first, with the proof that from whole
    staging buffers - the batch tile's at its contents - the body runs to its continuation, the batch tile untouched
    and the mean's buffer holding those stores. -/
noncomputable def runLast (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : isLast i)
    (x0 : Vec F S64x63x1024 .f32) (xo1 : Vec F S63x1024 .f32) :
    { L1 : List (View.Piece (Elt F) S63x1024 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_kernel i arg2 harg2 arg3 harg3) K } := by
  refine ⟨?_, fun E K => ?run⟩
  case run =>
    simp only [cc0__mean_kernel_eq_skeleton]; unfold cc0__mean_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.KernelIdeal.Mean

end
-- ==== Proof.KernelIdeal.Frame.lean ====
/-
  The batch-mean program runs to its end, faults nowhere and leaves its arguments as they were.

  After the body at grid point t the accumulator's staging buffer holds, by recursion on t: at the first batch tile of a
  half (t = 0 mod 32) the tile's sum over its 64 batch entries added to zero; at a later tile that sum added to what the
  point before left (the buffer is not written back in between: it is written back only after the last tile); and at
  the last tile (t = 31 mod 32) that total times 2^-11. With the batch window's buffer at its block at every point, this
  is the pipeline's proof data; the body meets it in each of the three cases; the 96 host lines that follow touch
  neither array; so every fair execution terminates with the mean's array at what the proof data says, every
  argument unchanged, and every other buffer at what the lines compute from those.
-/
import proofs.«102532_j52673478918326_2_alg».proof.Proof.KernelIdeal.RunLast

set_option maxRecDepth 16384

noncomputable section

namespace Cert.KernelIdeal.Mean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator -/

/-- In each case the stores cover the whole accumulator block. -/
theorem coverFirst (c : Dev nD) (i : grid0.Coords) (arg2 : Memref sig .tc .vmem S64x63x1024 .f32) (harg2 : arg2.IsWhole) (arg3 : Memref sig .tc .vmem S63x1024 .f32) (harg3 : arg3.IsWhole) (hc0 : isFirst i) (hc1 : ¬isLast i)
    (x0 : Vec F S64x63x1024 .f32) (y : S63x1024.Idx) :
    ∃ pc ∈ (runFirst c i arg2 harg2 arg3 harg3 hc0 hc1 x0).1, y ∈ pc.1.set :=
  View.cover_of_tiledL (runFirst c i arg2 harg2 arg3 harg3 hc0 hc1 x0).1 S63x1024.size (by sl_kernel_rfl) y

theorem coverMiddle (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : ¬isLast i)
    (x0 : Vec F S64x63x1024 .f32) (xo1 : Vec F S63x1024 .f32) (y : S63x1024.Idx) :
    ∃ pc ∈ (runMiddle c i arg2 harg2 arg3 harg3 hc0 hc1 x0 xo1).1, y ∈ pc.1.set :=
  View.cover_of_tiledL (runMiddle c i arg2 harg2 arg3 harg3 hc0 hc1 x0 xo1).1 S63x1024.size (by sl_kernel_rfl) y

theorem coverLast (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : isLast i)
    (x0 : Vec F S64x63x1024 .f32) (xo1 : Vec F S63x1024 .f32) (y : S63x1024.Idx) :
    ∃ pc ∈ (runLast c i arg2 harg2 arg3 harg3 hc0 hc1 x0 xo1).1, y ∈ pc.1.set :=
  View.cover_of_tiledL (runLast c i arg2 harg2 arg3 harg3 hc0 hc1 x0 xo1).1 S63x1024.size (by sl_kernel_rfl) y

/-- What the first-tile case leaves in the accumulator: its stores read back. -/
def outFirst (c : Dev nD) (i : grid0.Coords) (arg2 : Memref sig .tc .vmem S64x63x1024 .f32) (harg2 : arg2.IsWhole) (arg3 : Memref sig .tc .vmem S63x1024 .f32) (harg3 : arg3.IsWhole) (hc0 : isFirst i) (hc1 : ¬isLast i)
    (x0 : Vec F S64x63x1024 .f32) : Vec F S63x1024 .f32 :=
  accView.read (Elt F) (accView.writes (Elt F) accView.junk (runFirst c i arg2 harg2 arg3 harg3 hc0 hc1 x0).1)

/-- What a middle tile leaves, over what the point before left (`xo1`). -/
def outMiddle (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : ¬isLast i)
    (x0 : Vec F S64x63x1024 .f32) (xo1 : Vec F S63x1024 .f32) : Vec F S63x1024 .f32 :=
  accView.read (Elt F) (accView.writes (Elt F) accView.junk (runMiddle c i arg2 harg2 arg3 harg3 hc0 hc1 x0 xo1).1)

/-- What the last tile leaves, over what the point before left (`xo1`). -/
def outLast (c : Dev nD) (i : grid0.Coords) (arg2 : Memref sig .tc .vmem S64x63x1024 .f32) (harg2 : arg2.IsWhole) (arg3 : Memref sig .tc .vmem S63x1024 .f32) (harg3 : arg3.IsWhole) (hc0 : ¬isFirst i) (hc1 : isLast i)
    (x0 : Vec F S64x63x1024 .f32) (xo1 : Vec F S63x1024 .f32) : Vec F S63x1024 .f32 :=
  accView.read (Elt F) (accView.writes (Elt F) accView.junk (runLast c i arg2 harg2 arg3 harg3 hc0 hc1 x0 xo1).1)

/-! ## The accumulator, point by point -/

theorem notLast_of_first (t : Fin cfg0.N) (h0 : t.val % 32 = 0) : ¬isLast (grid0.coords t) := fun h => by
  have h' : t.val % 32 = 31 := (isLast_iff t).mp h
  omega

/-- The accumulation: what the accumulator's staging buffer holds after the body at position `n`. -/
def accAt (c : Dev nD) : (n : ℕ) → n < cfg0.N → Vec F S63x1024 .f32
  | 0, hn => outFirst c (grid0.coords ⟨0, hn⟩) (ms0_0 ⟨0, hn⟩) (hs0_0 ⟨0, hn⟩) (ms0_1 ⟨0, hn⟩) (hs0_1 ⟨0, hn⟩)
      ((isFirst_iff ⟨0, hn⟩).mpr (Nat.zero_mod _)) (notLast_of_first ⟨0, hn⟩ (Nat.zero_mod _)) (iblk m c 0 ⟨0, hn⟩)
  | n + 1, hn =>
    if h0 : (n + 1) % 32 = 0 then
      outFirst c (grid0.coords ⟨n + 1, hn⟩) (ms0_0 ⟨n + 1, hn⟩) (hs0_0 ⟨n + 1, hn⟩) (ms0_1 ⟨n + 1, hn⟩) (hs0_1 ⟨n + 1, hn⟩)
        ((isFirst_iff ⟨n + 1, hn⟩).mpr h0) (notLast_of_first ⟨n + 1, hn⟩ h0) (iblk m c 0 ⟨n + 1, hn⟩)
    else if h1 : (n + 1) % 32 = 31 then
      outLast c (grid0.coords ⟨n + 1, hn⟩) (ms0_0 ⟨n + 1, hn⟩) (hs0_0 ⟨n + 1, hn⟩) (ms0_1 ⟨n + 1, hn⟩) (hs0_1 ⟨n + 1, hn⟩)
        (fun h => h0 ((isFirst_iff ⟨n + 1, hn⟩).mp h)) ((isLast_iff ⟨n + 1, hn⟩).mpr h1) (iblk m c 0 ⟨n + 1, hn⟩) (accAt c n (Nat.lt_of_succ_lt hn))
    else
      outMiddle c (grid0.coords ⟨n + 1, hn⟩) (ms0_0 ⟨n + 1, hn⟩) (hs0_0 ⟨n + 1, hn⟩) (ms0_1 ⟨n + 1, hn⟩) (hs0_1 ⟨n + 1, hn⟩)
        (fun h => h0 ((isFirst_iff ⟨n + 1, hn⟩).mp h)) (fun h => h1 ((isLast_iff ⟨n + 1, hn⟩).mp h)) (iblk m c 0 ⟨n + 1, hn⟩) (accAt c n (Nat.lt_of_succ_lt hn))

/-- At a first tile: the sum of the tile from zero. -/
theorem accAt_first (c : Dev nD) (t : Fin cfg0.N) (h0 : t.val % 32 = 0) :
    accAt m c t.val t.isLt = outFirst c (grid0.coords t) (ms0_0 t) (hs0_0 t) (ms0_1 t) (hs0_1 t) ((isFirst_iff t).mpr h0) (notLast_of_first t h0) (iblk m c 0 t) := by
  obtain ⟨n, hn⟩ := t
  cases n with
  | zero => exact rfl
  | succ n => exact (dif_pos h0).trans rfl

/-- At the last tile: over what the point before left, then scaled. -/
theorem accAt_last (c : Dev nD) (t : Fin cfg0.N) (h0 : ¬t.val % 32 = 0) (h1 : t.val % 32 = 31) :
    accAt m c t.val t.isLt = outLast c (grid0.coords t) (ms0_0 t) (hs0_0 t) (ms0_1 t) (hs0_1 t) (fun h => h0 ((isFirst_iff t).mp h)) ((isLast_iff t).mpr h1) (iblk m c 0 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- At a middle tile: over what the point before left. -/
theorem accAt_middle (c : Dev nD) (t : Fin cfg0.N) (h0 : ¬t.val % 32 = 0) (h1 : ¬t.val % 32 = 31) :
    accAt m c t.val t.isLt = outMiddle c (grid0.coords t) (ms0_0 t) (hs0_0 t) (ms0_1 t) (hs0_1 t) (fun h => h0 ((isFirst_iff t).mp h)) (fun h => h1 ((isLast_iff t).mp h)) (iblk m c 0 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-! ## The pipeline's proof data -/

/-- The arrays as the region finds them; after the body at point `t` the batch window's buffer at its block and the
    accumulator's at `accAt`; nothing else kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (accAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (accAt m c t.val t.isLt) := by dsimp only [dats]

/-- The batch window's buffer holds its block at every point. -/
theorem before0_0 (c : Dev nD) (t : Fin cfg0.N) (d) : (dats m 0 c).before 0 t d = iblk m c 0 t :=
  before0_0_of m (dats m 0 c) (A_eq m c 0) (after0_0 m c) t d

/-- At a tile that is not the first of its half the accumulator's buffer holds what the point before left: the point
    before is not a last tile, so nothing was written back in between. -/
theorem before0_1_kept (c : Dev nD) (t : Fin cfg0.N) (h0 : ¬t.val % 32 = 0) (d) :
    (dats m 0 c).before 1 t d = (accAt m c (t.val - 1) (Nat.lt_of_le_of_lt (Nat.sub_le _ _) t.isLt)) := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 1600000 in
/-- The body at any point: which of the three cases the point is in is read off its position mod 32, and that case's
    run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 64 := lt_of_lt_of_eq t.isLt (show cfg0.N = 64 from N_0)
  by_cases h0 : t.val % 32 = 0
  · rw [accAt_first m c t h0]
    unfold outFirst
    iintro ⟨HΦ, Ho, ⟨%d0, H0⟩, ⟨%d1, H1⟩⟩
    iapply ((runFirst c (grid0.coords t) _ _ _ _ ((isFirst_iff t).mpr h0) (notLast_of_first t h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _ _)
  · by_cases h1 : t.val % 32 = 31
    · rw [accAt_last m c t h0 h1]
      simp only [before0_1_kept m c t h0]
      unfold outLast
      iintro ⟨HΦ, Ho, ⟨%d0, H0⟩, ⟨%d1, H1⟩⟩
      iapply ((runLast c (grid0.coords t) _ _ _ _ (fun h => h0 ((isFirst_iff t).mp h)) ((isLast_iff t).mpr h1) (iblk m c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (coverLast c _ _ _ _ _ _ _ _ _)
    · rw [accAt_middle m c t h0 h1]
      simp only [before0_1_kept m c t h0]
      unfold outMiddle
      iintro ⟨HΦ, Ho, ⟨%d0, H0⟩, ⟨%d1, H1⟩⟩
      iapply ((runMiddle c (grid0.coords t) _ _ _ _ (fun h => h0 ((isFirst_iff t).mp h)) (fun h => h1 ((isLast_iff t).mp h)) (iblk m c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (coverMiddle c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
set_option maxHeartbeats 40000000 in  -- the statement carries the literal list of the 96 lines
/-- Every fair execution terminates; the two arrays end at what the proof data computes, every other unscoped buffer at
    what the 96 lines leave from the region's exit. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-! ## The arguments that bypass the region -/

/-- No line after the region writes an argument. -/
theorem hostOps1_keeps_args : (hostOps1 : List (HloOp τ sig (Elt F))).Forall fun op =>
    ∀ r ∈ [main_arg1, main_arg2, main_arg3, main_arg4, main_arg5], Proc.devRef (τ := τ) .tc r ∉ op.writes := by
  simp only [List.Forall]
  repeat' apply And.intro
  all_goals
    intro r hr
    simp only [List.mem_cons, List.mem_nil_iff, or_false] at hr
    rcases hr with rfl | rfl | rfl | rfl | rfl <;>
      simp only [StableHlo.nullary_writes, StableHlo.unary_writes, StableHlo.binary_writes, StableHlo.ternary_writes,
        StableHlo.reshape_writes, Finset.mem_singleton] <;>
      exact StableHlo.devRef_ne_of_ne (by decide)

set_option maxHeartbeats 4000000 in
/-- So after the lines each such argument holds its launch contents. -/
theorem tail_kept (dats : (p : Fin 1) → (c : Dev nD) → Dat τ (Elt F) Unit ℕ (UR sig nD τ) ℕ (cfgs p) c) (c : Dev nD) (r : Ref sig .tc)
    (hr : r ∈ [main_arg1, main_arg2, main_arg3, main_arg4, main_arg5]) :
    Pipeline.afterTail₀ cfgs dats 0 (V0 m) [hostOps1] c r = m ((c : Thread nD τ).loc r) := by
  unfold Pipeline.afterTail₀
  show StableHlo.after hostOps1 _ (Proc.devRef .tc r) = _
  rw [StableHlo.after_of_forall_not_mem _ _ fun op hop => (List.forall_iff_forall_mem.mp hostOps1_keeps_args) op hop r hr]
  rw [Pipeline.withArrays_of_ne _ c _ _ r ?_]
  · rfl
  · intro w
    simp only [List.mem_cons, List.mem_nil_iff, or_false] at hr
    rcases hr with rfl | rfl | rfl | rfl | rfl <;> fin_cases w <;> decide

/-! ## The frame -/

/-- From a run to the library's post: the batch array by the proof data (an input keeps its entry contents), the other
    five arguments because no line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).2 main_arg1 (Pipeline.mem_restRefs_of _ rfl (by decide))).trans (tail_kept m dats c main_arg1 (by simp)),
     ((h c).2 main_arg2 (Pipeline.mem_restRefs_of _ rfl (by decide))).trans (tail_kept m dats c main_arg2 (by simp)),
     ((h c).2 main_arg3 (Pipeline.mem_restRefs_of _ rfl (by decide))).trans (tail_kept m dats c main_arg3 (by simp)),
     ((h c).2 main_arg4 (Pipeline.mem_restRefs_of _ rfl (by decide))).trans (tail_kept m dats c main_arg4 (by simp)),
     ((h c).2 main_arg5 (Pipeline.mem_restRefs_of _ rfl (by decide))).trans (tail_kept m dats c main_arg5 (by simp))⟩) h

/-- The frame claim's statement, for any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Mean

end
-- ==== Proof.KernelIdeal.Pieces.lean ====
/-
  What each case of the body leaves in the accumulator, as a value.

  Every store of the body covers the whole accumulator block and every load reads a whole buffer, so the contents after
  the body are the LAST store's value with each load replaced by what it read: at a first tile the sum of the tile
  added to the zero block just stored; at a middle tile the sum of the tile added to the previous contents; at the last
  tile that, scaled.
-/
import proofs.«102532_j52673478918326_2_alg».proof.Proof.KernelIdeal.Frame
import Idealize.ShloMosaic.Lib.Pipeline.Value

set_option maxRecDepth 16384

noncomputable section

namespace Cert.KernelIdeal.Mean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the tile's sum added to what was there. -/
theorem outMiddle_eq (c : Dev nD) (i : grid0.Coords) (a2 : Memref sig .tc .vmem S64x63x1024 .f32) (h2 : a2.IsWhole) (a3 : Memref sig .tc .vmem S63x1024 .f32) (h3 : a3.IsWhole) (hc0 : ¬isFirst i) (hc1 : ¬isLast i) (x : Vec F S64x63x1024 .f32) (xo : Vec F S63x1024 .f32) :
    outMiddle c i a2 h2 a3 h3 hc0 hc1 x xo = k0_pay2 xo x := by
  unfold outMiddle
  rw [View.read_writes_eq_canon _ _ _ (coverMiddle c i a2 h2 a3 h3 hc0 hc1 x xo)]
  unfold runMiddle
  dsimp only
  sl_unfold_words
  rw [View.canon_unit_zero (S := S63x1024) hz2]
  simp only [View.readAt_eq_ld, h2.read_unread, h3.read_unread, View.ld_unit_zero (S := S63x1024) hz2,
    View.ld_unit_zero (S := S64x63x1024) hz3]

/-- A first tile: the tile's sum added to the zero block. -/
theorem outFirst_eq (c : Dev nD) (i : grid0.Coords) (a2 : Memref sig .tc .vmem S64x63x1024 .f32) (h2 : a2.IsWhole) (a3 : Memref sig .tc .vmem S63x1024 .f32) (h3 : a3.IsWhole) (hc0 : isFirst i) (hc1 : ¬isLast i) (x : Vec F S64x63x1024 .f32) :
    outFirst c i a2 h2 a3 h3 hc0 hc1 x = k0_pay2 (k0_pay1 (F := F)) x := by
  unfold outFirst
  rw [View.read_writes_eq_canon _ _ _ (coverFirst c i a2 h2 a3 h3 hc0 hc1 x)]
  unfold runFirst
  dsimp only
  sl_unfold_words
  rw [View.canon_cons_unit_zero (S := S63x1024) hz2, View.readCov_unit_zero (S := S63x1024) _ hz2]
  simp only [View.readAt_eq_ld, h2.read_unread, View.ld_unit_zero (S := S64x63x1024) hz3]

/-- The last tile: the tile's sum added to what was there, then scaled. -/
theorem outLast_eq (c : Dev nD) (i : grid0.Coords) (a2 : Memref sig .tc .vmem S64x63x1024 .f32) (h2 : a2.IsWhole) (a3 : Memref sig .tc .vmem S63x1024 .f32) (h3 : a3.IsWhole) (hc0 : ¬isFirst i) (hc1 : isLast i) (x : Vec F S64x63x1024 .f32) (xo : Vec F S63x1024 .f32) :
    outLast c i a2 h2 a3 h3 hc0 hc1 x xo = k0_pay3 (k0_pay2 xo x) := by
  unfold outLast
  rw [View.read_writes_eq_canon _ _ _ (coverLast c i a2 h2 a3 h3 hc0 hc1 x xo)]
  unfold runLast
  dsimp only
  sl_unfold_words
  rw [View.canon_cons_unit_zero (S := S63x1024) hz2, View.readCov_unit_zero (S := S63x1024) _ hz2]
  simp only [View.readAt_eq_ld, h2.read_unread, h3.read_unread, View.ld_unit_zero (S := S63x1024) hz2,
    View.ld_unit_zero (S := S64x63x1024) hz3]

end Cert.KernelIdeal.Mean

end
-- ==== Proof.LibAxisFolds.lean ====
/-
  Folds along one axis, and a host sum over the two trailing axes, of rank-3 and rank-4 arrays, read at
  coordinates at the ideal values (floats are extended reals, every operation exact); and two keepdims layouts.
  For any extents, and any float type or (for the layouts) any element type:

  * a vector sum over the LEADING axis of [a, b, c] into [b, c], at (r, w), is the sum over k < a of the array at
    (k, r, w) (`multiReduction_add_lead_apply`), and a vector maximum over that axis is the fold of `max` from the
    accumulator's value over the same entries (`multiReduction_max_lead_apply`);
  * a vector sum over the LAST axis of [a, b, c] into [a, b], at (p, n), is the sum over k < c of the array at
    (p, n, k) (`multiReduction_add_last3_apply`);
  * a host maximum over axis 1 of [a, b, c, d] into [a, c, d], at (p, r, w), is the fold of `max` from the initial
    value over k < b of the array at (p, k, r, w) (`hostReduce_max_axis1_apply`);
  * a host sum over the TWO TRAILING axes of [a, b, c, d] into [a, b], at (p, q), is the initial value plus the
    double sum over n < c and k < d of the array at (p, q, n, k) (`hostReduceAdd_trailing_two4_apply`): the indices
    that drop to (p, q) are exactly the (p, q, n, k), in bijection with the pairs (n, k);
  * an array [b, c] laid as [1, b, c] and broadcast along a new leading axis to [a, b, c] reads, at (k, r, w), its
    entry (r, w) (`leadBroadcast_apply`); an array [a, b] given a trailing unit axis reads, at (p, n, ·), its entry
    (p, n) (`shapeCast_ab_ab1_apply`).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.AxisFolds

open Idealize.ShloMosaic Idealize.ShloMosaic.ValueIdx

variable {φ : FTy}

/-- A vector sum over the leading axis of [a, b, c], read at (r, w): the sum over the leading coordinate. -/
theorem multiReduction_add_lead_apply {a b c : Nat} (src : FVec Ideal ⟨3, ![a, b, c]⟩ φ) (acc : BitVec φ.bits)
    (h : (⟨3, ![a, b, c]⟩ : Shape).Reduces [0] ⟨2, ![b, c]⟩) (hφ : FKind.Formats φ)
    (hacc : acc = FKind.add.neutral φ hφ) (r : Fin b) (w : Fin c) :
    multiReduction .add [0] ⟨2, ![b, c]⟩ src acc h hφ hacc (ix2 r w) = ∑ k : Fin a, src (ix3 k r w) := by
  rw [Ideal.multiReduction_add_single]
  refine Finset.sum_congr rfl fun k _ => ?_
  exact congrArg src (funext fun d => Fin.ext (by match d with | ⟨0, _⟩ => rfl | ⟨1, _⟩ => rfl | ⟨2, _⟩ => rfl))

/-- A vector maximum over the leading axis of [a, b, c], read at (r, w): the fold of `max` from the accumulator's
    value over the leading coordinate. -/
theorem multiReduction_max_lead_apply {a b c : Nat} (src : FVec Ideal ⟨3, ![a, b, c]⟩ φ) (acc : BitVec φ.bits)
    (h : (⟨3, ![a, b, c]⟩ : Shape).Reduces [0] ⟨2, ![b, c]⟩) (hφ : FKind.Formats φ)
    (hacc : acc = FKind.maximumf.neutral φ hφ) (r : Fin b) (w : Fin c) :
    multiReduction .maximumf [0] ⟨2, ![b, c]⟩ src acc h hφ hacc (ix2 r w)
      = (Finset.univ : Finset (Fin a)).fold max (Ideal.ofBits φ acc) (fun k => src (ix3 k r w)) := by
  rw [Ideal.multiReduction_maximumf_single]
  have hf : (src ∘ h.lift (ix2 r w)) = fun k : Fin a => src (ix3 k r w) :=
    funext fun k => congrArg src (funext fun d => Fin.ext (by match d with | ⟨0, _⟩ => rfl | ⟨1, _⟩ => rfl | ⟨2, _⟩ => rfl))
  exact congrArg (fun f => Finset.fold max (Ideal.ofBits φ acc) f (Finset.univ : Finset (Fin a))) hf

/-- A vector sum over the last axis of [a, b, c], read at (p, n): the sum over the last coordinate. -/
theorem multiReduction_add_last3_apply {a b c : Nat} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (n : Fin b) :
    multiReduction .add [2] ⟨2, ![a, b]⟩ src acc h hφ hacc (ix2 p n) = ∑ k : Fin c, src (ix3 p n k) := by
  rw [Ideal.multiReduction_add_single]
  refine Finset.sum_congr rfl fun k _ => ?_
  exact congrArg src (funext fun d => Fin.ext (by match d with | ⟨0, _⟩ => rfl | ⟨1, _⟩ => rfl | ⟨2, _⟩ => rfl))

/-- A host maximum over axis 1 of [a, b, c, d], read at (p, r, w): the fold of `max` from the initial value over
    the coordinate of axis 1. -/
theorem hostReduce_max_axis1_apply {a b c d : Nat} {u : Shape} (x : FVec Ideal ⟨4, ![a, b, c, d]⟩ φ)
    (init : u.Idx → Ideal φ) (h' : (⟨4, ![a, b, c, d]⟩ : Shape).ReducesTo [1] ⟨3, ![a, c, d]⟩)
    (h : (⟨4, ![a, b, c, d]⟩ : Shape).Reduces [1] ⟨3, ![a, c, d]⟩) (hu : 0 < u.numel)
    (p : Fin a) (r : Fin c) (w : Fin d) :
    Host.reduce FloatOps.maximumf x init h' hu (ix3 p r w)
      = (Finset.univ : Finset (Fin b)).fold max (init (Shape.Idx.first hu)) (fun k => x (ix4 p k r w)) := by
  rw [Host.reduce_eq_fold_single FloatOps.maximumf x init h' h hu]
  have hf : (x ∘ h.lift (ix3 p r w)) = fun k : Fin b => x (ix4 p k r w) :=
    funext fun k => congrArg x (funext fun e => Fin.ext (by
      match e with | ⟨0, _⟩ => rfl | ⟨1, _⟩ => rfl | ⟨2, _⟩ => rfl | ⟨3, _⟩ => rfl))
  exact congrArg (fun f => Finset.fold max (init (Shape.Idx.first hu)) f (Finset.univ : Finset (Fin b))) hf

/-- An index of [a, b, c, d] drops, over its two trailing axes, to its two leading coordinates. -/
theorem drop_trailing_two4 {a b c d : Nat} (h : (⟨4, ![a, b, c, d]⟩ : Shape).ReducesTo [2, 3] ⟨2, ![a, b]⟩)
    (i : (⟨4, ![a, b, c, d]⟩ : Shape).Idx) : h.drop i = ix2 (i 0) (i 1) := by
  funext e
  match e with
  | ⟨0, _⟩ => exact Fin.ext (h.drop_apply_val_of_eq i ⟨0, Nat.zero_lt_two⟩ 0 Nat.zero_lt_two rfl)
  | ⟨1, _⟩ => exact Fin.ext (h.drop_apply_val_of_eq i ⟨1, Nat.one_lt_two⟩ 1 Nat.one_lt_two rfl)

/-- A host sum over the two trailing axes of [a, b, c, d], read at (p, q): the initial value plus the double sum
    over the two trailing coordinates. -/
theorem hostReduceAdd_trailing_two4_apply {a b c d : Nat}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ n : Fin c, ∑ k : Fin d, x (ix4 p q n k) := by
  unfold Ideal.hostReduceAdd
  refine congrArg (init + ·) ?_
  rw [← Finset.sum_product' (Finset.univ : Finset (Fin c)) (Finset.univ : Finset (Fin d)) fun n k => x (ix4 p q n k)]
  refine Finset.sum_nbij' (fun i => (i 2, i 3)) (fun z => ix4 p q z.1 z.2) ?_ ?_ ?_ ?_ ?_
  · intro i _; exact Finset.mem_product.2 ⟨Finset.mem_univ _, Finset.mem_univ _⟩
  · intro z _
    refine Finset.mem_filter.2 ⟨Finset.mem_univ _, ?_⟩
    rw [drop_trailing_two4]
    rfl
  · intro i hi
    have hj := (Finset.mem_filter.1 hi).2
    rw [drop_trailing_two4] at hj
    have h0 : i 0 = p := congrFun hj 0
    have h1 : i 1 = q := congrFun hj 1
    funext e
    match e with
    | ⟨0, _⟩ => exact h0.symm
    | ⟨1, _⟩ => exact h1.symm
    | ⟨2, _⟩ => rfl
    | ⟨3, _⟩ => rfl
  · intro z _; rfl
  · intro i hi
    have hj := (Finset.mem_filter.1 hi).2
    rw [drop_trailing_two4] at hj
    have h0 : i 0 = p := congrFun hj 0
    have h1 : i 1 = q := congrFun hj 1
    refine congrArg x ?_
    funext e
    match e with
    | ⟨0, _⟩ => exact h0
    | ⟨1, _⟩ => exact h1
    | ⟨2, _⟩ => rfl
    | ⟨3, _⟩ => rfl

section Layout
variable {α : Type}

/-- An array [a, b] given a trailing unit axis reads, at (p, n, ·), its entry (p, n). -/
theorem shapeCast_ab_ab1_apply {a b : Nat} (x : (⟨2, ![a, b]⟩ : Shape).Idx → α)
    (h : (⟨2, ![a, b]⟩ : Shape).ShapeCasts ⟨3, ![a, b, 1]⟩) (p : Fin a) (n : Fin b) (z : Fin 1) :
    shapeCast ⟨3, ![a, b, 1]⟩ x h (ix3 p n z) = x (ix2 p n) :=
  shapeCast_apply x h _ _ (by
    have hz : z.val = 0 := by omega
    rw [Shape.rowMajor_val_three, Shape.rowMajor_val_two]
    show p.val * b + n.val = (p.val * b + n.val) * 1 + z.val
    rw [hz, Nat.mul_one, Nat.add_zero])

/-- An array [b, c] laid as [1, b, c] and broadcast along a new leading axis to [a, b, c] reads, at (k, r, w), its
    entry (r, w). -/
theorem leadBroadcast_apply {a b c : Nat} (y : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (k : Fin a) (r : Fin b) (w : Fin c) :
    broadcastTo ⟨3, ![a, b, c]⟩ (shapeCast ⟨3, ![1, b, c]⟩ y hc) hb (ix3 k r w) = y (ix2 r w) := by
  refine (broadcastTo_apply _ hb (ix3 k r w) (ix3 (0 : Fin 1) r w) (fun e => ?_)).trans
    (shapeCast_ab_1ab_apply y hc 0 r w)
  match e with
  | ⟨0, _⟩ => show (0 : Nat) = if (1 : Nat) = 1 then 0 else k.val; rw [if_pos rfl]
  | ⟨1, _⟩ =>
    show r.val = if b = 1 then 0 else r.val
    split_ifs with hb1
    · have := r.isLt; omega
    · rfl
  | ⟨2, _⟩ =>
    show w.val = if c = 1 then 0 else w.val
    split_ifs with hc1
    · have := w.isLt; omega
    · rfl

end Layout

end Cert.Lib.AxisFolds

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.KernelIdeal.MeanValue.lean ====
/-
  The array the kernel leaves: the batch mean, entry by entry, on the extended reals.

  Read at entry (p, q) of the accumulator block, a first tile leaves the sum of its 64 batch entries, a middle tile
  adds its 64 to what was there, and the last tile adds its 64 and multiplies by 2^-11. By induction on the point,
  after batch tile k of a column half the accumulator holds the sum of the batch entries of tiles 0..k at that
  column; after tile 31, the sum of all 32 x 64 = 2048 of them (a sum cut into consecutive blocks: addition on the
  extended reals is associative and commutative, so no finiteness is needed), times 2^-11. The two write-back points
  (one per column half) each write their half of the columns, and together they cover the whole 63 x 2048 array.
-/
import proofs.«102532_j52673478918326_2_alg».proof.Proof.KernelIdeal.Pieces
import proofs.«102532_j52673478918326_2_alg».proof.Proof.LibAxisFolds
import proofs.«102532_j52673478918326_2_alg».proof.Proof.LibSumBlocks
import Idealize.ShloMosaic.PureOps.Ideal.Laws
import Idealize.ShloMosaic.Lib.ValueIdx
import Idealize.ShloMosaic.Lib.Pipeline.Value

set_option maxRecDepth 16384

noncomputable section

namespace Cert.KernelIdeal.Mean

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ) (ρ : Dev nD → PrngReg)

/-- The constant the last tile multiplies by: the word of 2^-11. -/
abbrev scale : EReal := Ideal.ofBits .f32 0x3A000000#32

/-! ## The body's three values at an entry -/

theorem pay1_apply (j : S63x1024.Idx) : k0_pay1 (F := Ideal) j = 0 := by
  unfold k0_pay1
  show Ideal.ofBits .f32 0x00000000#32 = 0
  exact Ideal.ofBits_zero_f32

theorem pay2_apply (v3 : Vec Ideal S63x1024 .f32) (v5 : Vec Ideal S64x63x1024 .f32) (p : Fin 63) (q : Fin 1024) :
    k0_pay2 v3 v5 (ix2 p q) = v3 (ix2 p q) + ∑ b : Fin 64, v5 (ix3 b p q) := by
  unfold k0_pay2
  dsimp only
  refine (addf_apply _ _ _).trans ?_
  rw [shapeCast_self]
  exact congrArg (v3 (ix2 p q) + ·) (Cert.Lib.AxisFolds.multiReduction_add_lead_apply v5 _ _ _ _ p q)

theorem pay3_apply (v : Vec Ideal S63x1024 .f32) (j : S63x1024.Idx) : k0_pay3 v j = v j * scale := by
  unfold k0_pay3
  refine (mulf_apply _ _ _).trans ?_
  rw [shapeCast_self]
  rfl

/-! ## The batch array read at natural-number coordinates -/

/-- The batch array at batch entry `i`, row `p`, column `l` (zero outside the array). -/
def at3 (X : FVec Ideal S2048x63x2048 .f32) (i : ℕ) (p : Fin 63) (l : ℕ) : EReal :=
  if h : i < 2048 ∧ l < 2048 then X (ix3 ⟨i, h.1⟩ p ⟨l, h.2⟩) else 0

/-- The sum of batch tile `a`'s 64 entries at (p, l). -/
def tile (X : FVec Ideal S2048x63x2048 .f32) (a : ℕ) (p : Fin 63) (l : ℕ) : EReal :=
  ∑ b : Fin 64, at3 X (a * 64 + b.val) p l

/-- Where the two windows' blocks sit at each point. -/
theorem idx_facts : ∀ t : Fin cfg0.N, win0_0.index t (0 : Fin 3) = t.val % 32 ∧ win0_0.index t (1 : Fin 3) = 0
    ∧ win0_0.index t (2 : Fin 3) = t.val / 32 ∧ win0_1.index t (0 : Fin 2) = 0 ∧ win0_1.index t (1 : Fin 2) = t.val / 32 :=
  (by decide +kernel : ∀ t : Fin grid0.N, _)

/-- The batch window's block at point `t`, as a function into the extended reals. -/
abbrev tileBlock (c : Dev nD) (t : Fin cfg0.N) : S64x63x1024.Idx → EReal := iblk m c 0 t

/-- The batch window's block at point `t` shows batch entries (t mod 32)·64 + b and columns (t div 32)·1024 + q. -/
theorem iblk_apply (c : Dev nD) (t : Fin cfg0.N) (b : Fin 64) (p : Fin 63) (q : Fin 1024) :
    tileBlock m c t (ix3 b p q)
      = at3 (V m c main_arg0) ((t.val % 32) * 64 + b.val) p ((t.val / 32) * 1024 + q.val) := by
  have hN : t.val < 64 := lt_of_lt_of_eq t.isLt (show cfg0.N = 64 from N_0)
  obtain ⟨e0, e1, e2, -, -⟩ := idx_facts t
  have hb := b.isLt
  have hq := q.isLt
  unfold at3
  rw [dif_pos ⟨by omega, by omega⟩]
  unfold tileBlock iblk
  rw [View.read_apply]
  show V m c main_arg0 _ = V m c main_arg0 _
  refine congrArg _ (funext fun a => Fin.ext ?_)
  match a with
  | ⟨0, _⟩ => show win0_0.index t (0 : Fin 3) * 64 + 1 * b.val = (t.val % 32) * 64 + b.val; rw [e0]; omega
  | ⟨1, _⟩ => show win0_0.index t (1 : Fin 3) * 63 + 1 * p.val = p.val; rw [e1]; omega
  | ⟨2, _⟩ => show win0_0.index t (2 : Fin 3) * 1024 + 1 * q.val = (t.val / 32) * 1024 + q.val; rw [e2]; omega

/-- The sum over a point's block of its 64 batch entries is that tile's sum. -/
theorem block_sum (c : Dev nD) (t : Fin cfg0.N) (p : Fin 63) (q : Fin 1024) :
    ∑ b : Fin 64, tileBlock m c t (ix3 b p q)
      = tile (V m c main_arg0) (t.val % 32) p ((t.val / 32) * 1024 + q.val) :=
  Finset.sum_congr rfl fun b _ => iblk_apply m c t b p q

/-! ## The accumulator after each point -/

theorem acc_first (c : Dev nD) (t : Fin cfg0.N) (h0 : t.val % 32 = 0) (p : Fin 63) (q : Fin 1024) :
    accAt m c t.val t.isLt (ix2 p q) = tile (V m c main_arg0) 0 p ((t.val / 32) * 1024 + q.val) := by
  rw [accAt_first m c t h0, outFirst_eq, pay2_apply, pay1_apply, zero_add]
  exact (block_sum m c t p q).trans (by rw [h0])

theorem acc_middle (c : Dev nD) (t : Fin cfg0.N) (h0 : ¬t.val % 32 = 0) (h1 : ¬t.val % 32 = 31) (p : Fin 63) (q : Fin 1024) :
    accAt m c t.val t.isLt (ix2 p q)
      = accAt m c (t.val - 1) (Nat.lt_of_le_of_lt (Nat.sub_le _ _) t.isLt) (ix2 p q)
        + tile (V m c main_arg0) (t.val % 32) p ((t.val / 32) * 1024 + q.val) := by
  rw [accAt_middle m c t h0 h1, outMiddle_eq, pay2_apply]
  exact congrArg (_ + ·) (block_sum m c t p q)

theorem acc_last (c : Dev nD) (t : Fin cfg0.N) (h0 : ¬t.val % 32 = 0) (h1 : t.val % 32 = 31) (p : Fin 63) (q : Fin 1024) :
    accAt m c t.val t.isLt (ix2 p q)
      = (accAt m c (t.val - 1) (Nat.lt_of_le_of_lt (Nat.sub_le _ _) t.isLt) (ix2 p q)
        + tile (V m c main_arg0) (t.val % 32) p ((t.val / 32) * 1024 + q.val)) * scale := by
  rw [accAt_last m c t h0 h1, outLast_eq, pay3_apply, pay2_apply]
  exact congrArg (fun z => (_ + z) * scale) (block_sum m c t p q)

/-- Before the last tile of a half the accumulator holds the sum of the tiles so far. -/
theorem acc_partial (c : Dev nD) : ∀ (n : ℕ) (hn : n < cfg0.N), n % 32 ≠ 31 → ∀ (p : Fin 63) (q : Fin 1024),
    accAt m c n hn (ix2 p q) = ∑ a ∈ Finset.range (n % 32 + 1), tile (V m c main_arg0) a p ((n / 32) * 1024 + q.val)
  | 0, hn, _, p, q => by
    have e := acc_first m c ⟨0, hn⟩ (Nat.zero_mod _) p q
    dsimp only at e
    rw [e, Nat.zero_mod, Nat.zero_add, Finset.sum_range_one]
  | n + 1, hn, h31, p, q => by
    have hN : n + 1 < 64 := lt_of_lt_of_eq hn (show cfg0.N = 64 from N_0)
    by_cases h0 : (n + 1) % 32 = 0
    · have e := acc_first m c ⟨n + 1, hn⟩ h0 p q
      dsimp only at e
      rw [e, h0, Nat.zero_add, Finset.sum_range_one]
    · have e := acc_middle m c ⟨n + 1, hn⟩ h0 h31 p q
      dsimp only at e
      have e1 : (n + 1) / 32 = n / 32 := by omega
      have e2 : (n + 1) % 32 = n % 32 + 1 := by omega
      have ih := acc_partial c n (Nat.lt_of_succ_lt hn) (by omega) p q
      rw [e, show accAt m c (n + 1 - 1) _ = accAt m c n (Nat.lt_of_succ_lt hn) from rfl, ih, e1, e2]
      exact (Finset.sum_range_succ _ _).symm

/-- After the last tile: the sum of all 32 tiles, scaled. -/
theorem acc_total (c : Dev nD) (t : Fin cfg0.N) (h1 : t.val % 32 = 31) (p : Fin 63) (q : Fin 1024) :
    accAt m c t.val t.isLt (ix2 p q)
      = (∑ a ∈ Finset.range 32, tile (V m c main_arg0) a p ((t.val / 32) * 1024 + q.val)) * scale := by
  have hN : t.val < 64 := lt_of_lt_of_eq t.isLt (show cfg0.N = 64 from N_0)
  have e1 : (t.val - 1) / 32 = t.val / 32 := by omega
  have e2 : (t.val - 1) % 32 + 1 = 31 := by omega
  rw [acc_last m c t (by omega) h1 p q, acc_partial m c (t.val - 1) _ (by omega) p q, e1, e2, h1]
  exact congrArg (· * scale) (Finset.sum_range_succ _ 31).symm

/-- The 32 tiles' sums add up to the sum over all 2048 batch entries. -/
theorem tiles_sum (X : FVec Ideal S2048x63x2048 .f32) (p : Fin 63) (l : Fin 2048) :
    ∑ a ∈ Finset.range 32, tile X a p l.val = ∑ i : Fin 2048, X (ix3 i p l) := by
  rw [SumBlocks.sum_eq (m := 32) (n := 64) (by norm_num : 32 * 64 = 2048) (fun i => X (ix3 i p l)),
    ← Fin.sum_univ_eq_sum_range (fun a => tile X a p l.val) 32]
  refine Finset.sum_congr rfl fun a _ => Finset.sum_congr rfl fun b _ => ?_
  have ha := a.isLt
  have hb := b.isLt
  unfold at3
  rw [dif_pos ⟨by omega, l.isLt⟩]
  rfl

/-! ## The mean's array after the run -/

/-- The batch mean at row `p`, column `l`: the sum over the 2048 batch entries, times 2^-11. -/
def meanAt (X : FVec Ideal S2048x63x2048 .f32) (p : Fin 63) (l : Fin 2048) : EReal :=
  (∑ i : Fin 2048, X (ix3 i p l)) * scale

/-- The batch mean as an array. -/
def meanK (X : FVec Ideal S2048x63x2048 .f32) : FVec Ideal S63x2048 .f32 :=
  fun j => meanAt X ⟨(j 0).val, idx2_lt0 j⟩ ⟨(j 1).val, idx2_lt1 j⟩

theorem meanK_apply (X : FVec Ideal S2048x63x2048 .f32) (p : Fin 63) (l : Fin 2048) : meanK X (ix2 p l) = meanAt X p l := rfl

/-- What a write-back point writes is its half of the columns of the batch mean. -/
theorem flushed_eq (c : Dev nD) (t : Fin cfg0.N) (hf : (cfg0.win 1).flush t = true) :
    (dats m 0 c).flushed 1 t = ((cfg0.win 1).blk t).view.read (Elt Ideal) (meanK (V m c main_arg0)) := by
  have hN : t.val < 64 := lt_of_lt_of_eq t.isLt (show cfg0.N = 64 from N_0)
  have h31 : t.val % 32 = 31 := (flush0_1 t).mp hf
  obtain ⟨-, -, -, e3, e4⟩ := idx_facts t
  show (cfg0.win 1).cut (grid0.coords t) ((dats m 0 c).after 1 t) = _
  rw [after0_1]
  funext j
  obtain ⟨p, q, rfl⟩ : ∃ (p : Fin 63) (q : Fin 1024), j = ix2 p q := ⟨j 0, j 1, eq_ix2 j⟩
  have hq := q.isLt
  show accAt m c t.val t.isLt (ix2 p q) = meanK (V m c main_arg0) (((cfg0.win 1).blk t).view.emb (ix2 p q))
  have he : ((cfg0.win 1).blk t).view.emb (ix2 p q) = ix2 p (⟨(t.val / 32) * 1024 + q.val, by omega⟩ : Fin 2048) := by
    funext a; apply Fin.ext
    match a with
    | ⟨0, _⟩ => show win0_1.index t (0 : Fin 2) * 63 + 1 * p.val = p.val; rw [e3]; omega
    | ⟨1, _⟩ => show win0_1.index t (1 : Fin 2) * 1024 + 1 * q.val = (t.val / 32) * 1024 + q.val; rw [e4]; omega
  rw [he, meanK_apply, acc_total m c t h31 p q]
  exact congrArg (· * scale) (tiles_sum (V m c main_arg0) p ⟨(t.val / 32) * 1024 + q.val, by omega⟩)

/-- An entry of the array is in point `t`'s block iff each coordinate is in the block's range. -/
theorem mem_blk (t : Fin cfg0.N) (i : S63x2048.Idx) :
    i ∈ ((cfg0.win 1).blk t).view.set ↔ ∀ a : Fin 2, win0_1.index t a * S63x1024.size a ≤ (i a).val ∧ (i a).val < win0_1.index t a * S63x1024.size a + S63x1024.size a := by
  show i ∈ ((View.whole main_call0_v0).slice (win0_1.rect t)).set ↔ _
  rw [View.set_slice_whole, Rect.mem_set_unit]
  exact Iff.rfl

/-- Every entry is written back by the last tile of its column half. -/
theorem covered (i : S63x2048.Idx) : ∃ t : Fin cfg0.N, (cfg0.win 1).flush t = true ∧ i ∈ ((cfg0.win 1).blk t).view.set := by
  have hi0 : (i 0).val < 63 := (i 0).isLt
  have hi1 : (i 1).val < 2048 := (i 1).isLt
  obtain ⟨t, ht⟩ : ∃ t : Fin cfg0.N, t.val = ((i 1).val / 1024) * 32 + 31 :=
    ⟨⟨((i 1).val / 1024) * 32 + 31, lt_of_lt_of_eq (by omega) (N_0).symm⟩, rfl⟩
  refine ⟨t, (flush0_1 t).mpr (by omega), ?_⟩
  rw [mem_blk]
  obtain ⟨-, -, -, e3, e4⟩ := idx_facts t
  have e4' : win0_1.index t (1 : Fin 2) = (i 1).val / 1024 := by rw [e4]; omega
  intro a
  match a with
  | ⟨0, _⟩ => show win0_1.index t (0 : Fin 2) * 63 ≤ (i 0).val ∧ (i 0).val < win0_1.index t (0 : Fin 2) * 63 + 63; rw [e3]; omega
  | ⟨1, _⟩ => show win0_1.index t (1 : Fin 2) * 1024 ≤ (i 1).val ∧ (i 1).val < win0_1.index t (1 : Fin 2) * 1024 + 1024; rw [e4']; omega

/-- So the mean's array ends holding the batch mean of the batch array as launched. -/
theorem final_mean (c : Dev nD) : (dats m 0 c).arrAt 1 cfg0.N = meanK (V m c main_arg0) :=
  (dats m 0 c).arrAt_eq_of_cover 1 (meanK (V m c main_arg0)) (flushed_eq m c) (covered)

end Cert.KernelIdeal.Mean

end
-- ==== Proof.Downstream.lean ====
/-
  The computation both programs apply to the batch mean, as pure functions of arrays.

  From a 63-row feature matrix `L` the programs form the Gram matrix `L·Lᵀ`, rescale it entrywise to
  `sqrt((x - max x) / (min x - max x))`, divide by its trace, mask it with the adjacency matrix and divide every
  row by its sum (a row whose sum is zero is divided by one): `affinity`. A layer multiplies the features by a
  transposed weight matrix, adds the bias along rows, clamps at zero, re-reads the result's row-major
  elements as a matrix with 63 columns, transposes that back and multiplies by the affinity matrix on the
  left: `layer1`, `layer2`. The three results are the second layer's output and the two affinity matrices.
  Stated once, over literal shapes and for any float model, so that each program's run can be read as these
  functions of its own arrays and the two compared without opening them.
-/
import Idealize.ShloMosaic.PureOps

noncomputable section

namespace Cert.Downstream

open Idealize.ShloMosaic

variable {F : FTy → Type} [FloatOps F]

abbrev S_ : Shape := ⟨0, ![]⟩
abbrev S63 : Shape := ⟨1, ![63]⟩
abbrev S300 : Shape := ⟨1, ![300]⟩
abbrev S1024 : Shape := ⟨1, ![1024]⟩
abbrev S63x1 : Shape := ⟨2, ![63, 1]⟩
abbrev S63x63 : Shape := ⟨2, ![63, 63]⟩
abbrev S63x300 : Shape := ⟨2, ![63, 300]⟩
abbrev S300x63 : Shape := ⟨2, ![300, 63]⟩
abbrev S1x300 : Shape := ⟨2, ![1, 300]⟩
abbrev S63x1024 : Shape := ⟨2, ![63, 1024]⟩
abbrev S1024x63 : Shape := ⟨2, ![1024, 63]⟩
abbrev S1x1024 : Shape := ⟨2, ![1, 1024]⟩
abbrev S63x2048 : Shape := ⟨2, ![63, 2048]⟩
abbrev S2048x63 : Shape := ⟨2, ![2048, 63]⟩
abbrev S300x1024 : Shape := ⟨2, ![300, 1024]⟩
abbrev S1024x300 : Shape := ⟨2, ![1024, 300]⟩
abbrev S1024x2048 : Shape := ⟨2, ![1024, 2048]⟩
abbrev S2048x1024 : Shape := ⟨2, ![2048, 1024]⟩
abbrev S2048x63x2048 : Shape := ⟨3, ![2048, 63, 2048]⟩

/-- The plain matrix product's dimension numbers: contract the left operand's columns with the right operand's rows. -/
def dotGram2048 : DotDims S63x2048 S2048x63 S63x63 := ⟨[1], [0], [0], [1], [], [], by decide⟩
def dotGram1024 : DotDims S63x1024 S1024x63 S63x63 := ⟨[1], [0], [0], [1], [], [], by decide⟩
def dotW1 : DotDims S63x2048 S2048x1024 S63x1024 := ⟨[1], [0], [0], [1], [], [], by decide⟩
def dotW2 : DotDims S63x1024 S1024x300 S63x300 := ⟨[1], [0], [0], [1], [], [], by decide⟩
def dotS1 : DotDims S63x63 S63x1024 S63x1024 := ⟨[1], [0], [0], [1], [], [], by decide⟩
def dotS2 : DotDims S63x63 S63x300 S63x300 := ⟨[1], [0], [0], [1], [], [], by decide⟩

/-- The batch mean as the reference takes it: the sum over the leading axis from zero, divided by 2048. -/
def meanRef (x : FVec F S2048x63x2048 .f32) : FVec F S63x2048 .f32 :=
  Host.divf (Host.reduceAdd x (constant S_ .f32 0x00000000#32) (by decide : S2048x63x2048.ReducesTo [0] S63x2048) (by decide))
    (broadcastInDim S63x2048 ![] (by decide) (constant S_ .f32 0x45000000#32))

/-- `L·Lᵀ` of the 63 × 2048 feature matrix. -/
def gram2048 (L : FVec F S63x2048 .f32) : FVec F S63x63 .f32 :=
  Host.dotGeneral dotGram2048 none L (transpose S2048x63 [1, 0] L (by decide))

/-- `L·Lᵀ` of the 63 × 1024 feature matrix. -/
def gram1024 (L : FVec F S63x1024 .f32) : FVec F S63x63 .f32 :=
  Host.dotGeneral dotGram1024 none L (transpose S1024x63 [1, 0] L (by decide))

/-- The trace: the sum, from zero, of the matrix masked to its diagonal (row index equal to column index). -/
def trace63 (x : FVec F S63x63 .f32) : FVec F S_ .f32 :=
  Host.reduceAdd
    (select (cmpi .eq (addi (iotaInDim S63x63 32 0) (broadcastInDim S63x63 ![] (by decide) (constantI S_ 32 0#32))) (iotaInDim S63x63 32 1))
      x (broadcastInDim S63x63 ![] (by decide) (constant S_ .f32 0x00000000#32)))
    (constant S_ .f32 0x00000000#32) (by decide : S63x63.ReducesTo [0, 1] S_) (by decide)

/-- The Gram matrix rescaled between its extremes and square-rooted. -/
def rescaled (x : FVec F S63x63 .f32) : FVec F S63x63 .f32 :=
  Host.sqrt (Host.divf
    (subf x (broadcastInDim S63x63 ![] (by decide)
      (Host.reduce FloatOps.maximumf x (constant S_ .f32 0xFF800000#32) (by decide : S63x63.ReducesTo [0, 1] S_) (by decide))))
    (broadcastInDim S63x63 ![] (by decide)
      (subf (Host.reduce FloatOps.minimumf x (constant S_ .f32 0x7F800000#32) (by decide : S63x63.ReducesTo [0, 1] S_) (by decide))
        (Host.reduce FloatOps.maximumf x (constant S_ .f32 0xFF800000#32) (by decide : S63x63.ReducesTo [0, 1] S_) (by decide)))))

/-- The adjacency mask times the rescaled matrix over its trace. -/
def masked (x adj : FVec F S63x63 .f32) : FVec F S63x63 .f32 :=
  mulf adj (Host.divf (rescaled x) (broadcastInDim S63x63 ![] (by decide) (trace63 (rescaled x))))

/-- Each row's sum as a column, a zero sum replaced by one. -/
def rowDivisor (s : FVec F S63x63 .f32) : FVec F S63x1 .f32 :=
  select
    (cmpf .oeq (broadcastInDim S63x1 ![0] (by decide) (Host.reduceAdd s (constant S_ .f32 0x00000000#32) (by decide : S63x63.ReducesTo [1] S63) (by decide)))
      (broadcastInDim S63x1 ![] (by decide) (constant S_ .f32 0x00000000#32)))
    (broadcastInDim S63x1 ![] (by decide) (constant S_ .f32 0x3F800000#32))
    (broadcastInDim S63x1 ![0] (by decide) (Host.reduceAdd s (constant S_ .f32 0x00000000#32) (by decide : S63x63.ReducesTo [1] S63) (by decide)))

/-- The row-normalised masked affinity of a Gram matrix `x`. -/
def affinity (x adj : FVec F S63x63 .f32) : FVec F S63x63 .f32 :=
  Host.divf (masked x adj) (broadcastInDim S63x63 ![0, 1] (by decide) (rowDivisor (masked x adj)))

/-- The first layer: `S · reshape(relu(L·W1ᵀ + b1), [1024, 63])ᵀ`. -/
def layer1 (L : FVec F S63x2048 .f32) (W1 : FVec F S1024x2048 .f32) (b1 : FVec F S1024 .f32) (S : FVec F S63x63 .f32) :
    FVec F S63x1024 .f32 :=
  Host.dotGeneral dotS1 none S
    (transpose S63x1024 [1, 0]
      (shapeCast S1024x63
        (maximumf
          (addf (Host.dotGeneral dotW1 none L (transpose S2048x1024 [1, 0] W1 (by decide)))
            (broadcastInDim S63x1024 ![0, 1] (by decide) (broadcastInDim S1x1024 ![1] (by decide) b1)))
          (broadcastInDim S63x1024 ![] (by decide) (constant S_ .f32 0x00000000#32)))
        (by decide))
      (by decide))

/-- The second layer: `S · reshape(relu(L·W2ᵀ + b2), [300, 63])ᵀ`. -/
def layer2 (L : FVec F S63x1024 .f32) (W2 : FVec F S300x1024 .f32) (b2 : FVec F S300 .f32) (S : FVec F S63x63 .f32) :
    FVec F S63x300 .f32 :=
  Host.dotGeneral dotS2 none S
    (transpose S63x300 [1, 0]
      (shapeCast S300x63
        (maximumf
          (addf (Host.dotGeneral dotW2 none L (transpose S1024x300 [1, 0] W2 (by decide)))
            (broadcastInDim S63x300 ![0, 1] (by decide) (broadcastInDim S1x300 ![1] (by decide) b2)))
          (broadcastInDim S63x300 ![] (by decide) (constant S_ .f32 0x00000000#32)))
        (by decide))
      (by decide))

/-- The first affinity matrix, of the mean's Gram matrix. -/
def affinity1 (lg : FVec F S63x2048 .f32) (adj : FVec F S63x63 .f32) : FVec F S63x63 .f32 :=
  affinity (gram2048 lg) adj

/-- The hidden features. -/
def hidden (lg : FVec F S63x2048 .f32) (adj : FVec F S63x63 .f32) (W1 : FVec F S1024x2048 .f32) (b1 : FVec F S1024 .f32) :
    FVec F S63x1024 .f32 :=
  layer1 lg W1 b1 (affinity1 lg adj)

/-- The second affinity matrix, of the hidden features' Gram matrix. -/
def affinity2 (lg : FVec F S63x2048 .f32) (adj : FVec F S63x63 .f32) (W1 : FVec F S1024x2048 .f32) (b1 : FVec F S1024 .f32) :
    FVec F S63x63 .f32 :=
  affinity (gram1024 (hidden lg adj W1 b1)) adj

/-- The output features. -/
def output (lg : FVec F S63x2048 .f32) (adj : FVec F S63x63 .f32) (W1 : FVec F S1024x2048 .f32) (b1 : FVec F S1024 .f32)
    (W2 : FVec F S300x1024 .f32) (b2 : FVec F S300 .f32) : FVec F S63x300 .f32 :=
  layer2 (hidden lg adj W1 b1) W2 b2 (affinity2 lg adj W1 b1)

end Cert.Downstream

end
-- ==== Proof.KernelIdeal.Tail.lean ====
/-
  The program's 96 host operations after its region, read at the three result buffers as the shared downstream
  functions of the region's output array and the five parameter arrays.

  The line is cut into six consecutive stretches: the Gram matrix of the 63 × 2048 features (2 operations), the
  first affinity matrix (35), the first layer (11), the Gram matrix of the 63 × 1024 hidden features (2), the second
  affinity matrix (35) and the second layer (11). Run from any contents, each stretch leaves at its last result
  buffer one stage function of the contents it read. A buffer keeps its contents through a stretch none of whose
  operations writes it; which buffer each operation writes is listed once, in order, and "not written in positions
  k … k+n-1" is then decided on that list. The three results are the compositions of the stages.
-/
import proofs.«102532_j52673478918326_2_alg».proof.Proof.Gen.KernelIdeal.Launch
import proofs.«102532_j52673478918326_2_alg».proof.Proof.Downstream
import Idealize.ShloMosaic.Lib.StableHlo.Run

set_option maxRecDepth 2048

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-! ## Running a line in pieces -/

/-- Two lines run one after the other: the second runs from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The six stretches: positions 0–1, 2–36, 37–47, 48–49, 50–84 and 85–95 of the line. -/
def ops0 : List (HloOp τ sig (Elt F)) := (hostOps1.drop 0).take 2
def ops1 : List (HloOp τ sig (Elt F)) := (hostOps1.drop 2).take 35
def ops2 : List (HloOp τ sig (Elt F)) := (hostOps1.drop 37).take 11
def ops3 : List (HloOp τ sig (Elt F)) := (hostOps1.drop 48).take 2
def ops4 : List (HloOp τ sig (Elt F)) := (hostOps1.drop 50).take 35
def ops5 : List (HloOp τ sig (Elt F)) := (hostOps1.drop 85).take 11

/-- The line is its six stretches in order. -/
theorem hostOps1_eq :
    (hostOps1 : List (HloOp τ sig (Elt F))) = ops0 ++ (ops1 ++ (ops2 ++ (ops3 ++ (ops4 ++ ops5)))) := rfl

/-- So running the line is running the stretches one after the other. -/
theorem after_split (V : Valuation τ sig (Elt F)) :
    after hostOps1 V = after ops5 (after ops4 (after ops3 (after ops2 (after ops1 (after ops0 V))))) := by
  rw [hostOps1_eq]
  simp only [after_append]

/-! ## Which buffer each operation writes -/

/-- The buffer each operation of the line writes, in the line's order. -/
def writeRefs : List (Ref sig .tc) :=
  [
    main_call0_v1, main_call0_v2, main_call0_cst, main_call0_v3, main_call0_cst_0, main_call0_v4,
    main_call0_v5, main_call0_v6, main_call0_v7, main_call0_v8, main_call0_v9, main_call0_v10,
    main_call0_call0_v0, main_call0_call0_v1, main_call0_call0_c, main_call0_call0_v2, main_call0_call0_v3, main_call0_call0_v4,
    main_call0_call0_cst, main_call0_call0_v5, main_call0_call0_v6, main_call0_call0_cst_0, main_call0_v11, main_call0_v12,
    main_call0_v13, main_call0_v14, main_call0_cst_1, main_call0_v15, main_call0_v16, main_call0_cst_2,
    main_call0_v17, main_call0_v18, main_call0_cst_3, main_call0_v19, main_call0_v20, main_call0_v21,
    main_v0_1, main_call0_v23, main_call0_v24, main_call0_v25, main_call0_v26, main_call0_v27,
    main_call0_call2_cst, main_call0_call2_v0, main_call0_v28, main_call0_v29, main_call0_v30, main_call0_v31,
    main_call0_v32, main_call0_v33, main_call0_cst_4, main_call0_v34, main_call0_cst_5, main_call0_v35,
    main_call0_v36, main_call0_v37, main_call0_v38, main_call0_v39, main_call0_v40, main_call0_v41,
    main_call0_call3_v0, main_call0_call3_v1, main_call0_call3_c, main_call0_call3_v2, main_call0_call3_v3, main_call0_call3_v4,
    main_call0_call3_cst, main_call0_call3_v5, main_call0_call3_v6, main_call0_call3_cst_0, main_call0_v42, main_call0_v43,
    main_call0_v44, main_call0_v45, main_call0_cst_6, main_call0_v46, main_call0_v47, main_call0_cst_7,
    main_call0_v48, main_call0_v49, main_call0_cst_8, main_call0_v50, main_call0_v51, main_call0_v52,
    main_v0_2, main_call0_v54, main_call0_v55, main_call0_v56, main_call0_v57, main_call0_v58,
    main_call0_call5_cst, main_call0_call5_v0, main_call0_v59, main_call0_v60, main_call0_v61, main_v0_0 ]

/-- Operation `i` of the line writes exactly buffer `i` of that list. -/
theorem writes_are :
    List.Forall₂ (fun (op : HloOp τ sig (Elt F)) (y : Ref sig .tc) => op.writes = {Proc.devRef .tc y}) hostOps1 writeRefs :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- A buffer that is not among the ones a line's operations write is written by none of them. -/
theorem not_written {ops : List (HloOp τ sig (Elt F))} {ws : List (Ref sig .tc)}
    (h : List.Forall₂ (fun (op : HloOp τ sig (Elt F)) (y : Ref sig .tc) => op.writes = {Proc.devRef .tc y}) ops ws)
    {r : Ref sig .tc} (hr : r ∉ ws) : ∀ op ∈ ops, Proc.devRef (τ := τ) .tc r ∉ op.writes := by
  induction h with
  | nil => intro op hop; cases hop
  | cons hw _ ih =>
    intro op hop
    rcases List.mem_cons.mp hop with rfl | hop
    · rw [hw, Finset.mem_singleton]
      exact fun e => hr (List.mem_cons.mpr (Or.inl (Proc.devRef_injective _ e)))
    · exact ih (fun hm => hr (List.mem_cons_of_mem _ hm)) op hop

/-- A buffer not written in positions `k … k+n-1` keeps its contents through those operations. -/
theorem kept (k n : Nat) (V : Valuation τ sig (Elt F)) (r : Ref sig .tc) (hr : r ∉ (writeRefs.drop k).take n) :
    after (((hostOps1 : List (HloOp τ sig (Elt F))).drop k).take n) V (Proc.devRef .tc r) = V (Proc.devRef .tc r) :=
  after_of_forall_not_mem _ V (not_written (List.forall₂_take n (List.forall₂_drop k writes_are)) hr)

theorem kept0 (V : Valuation τ sig (Elt F)) (r : Ref sig .tc) (hr : r ∉ (writeRefs.drop 0).take 2 := by decide) :
    after ops0 V (Proc.devRef .tc r) = V (Proc.devRef .tc r) := kept 0 2 V r hr
theorem kept1 (V : Valuation τ sig (Elt F)) (r : Ref sig .tc) (hr : r ∉ (writeRefs.drop 2).take 35 := by decide) :
    after ops1 V (Proc.devRef .tc r) = V (Proc.devRef .tc r) := kept 2 35 V r hr
theorem kept2 (V : Valuation τ sig (Elt F)) (r : Ref sig .tc) (hr : r ∉ (writeRefs.drop 37).take 11 := by decide) :
    after ops2 V (Proc.devRef .tc r) = V (Proc.devRef .tc r) := kept 37 11 V r hr
theorem kept3 (V : Valuation τ sig (Elt F)) (r : Ref sig .tc) (hr : r ∉ (writeRefs.drop 48).take 2 := by decide) :
    after ops3 V (Proc.devRef .tc r) = V (Proc.devRef .tc r) := kept 48 2 V r hr
theorem kept4 (V : Valuation τ sig (Elt F)) (r : Ref sig .tc) (hr : r ∉ (writeRefs.drop 50).take 35 := by decide) :
    after ops4 V (Proc.devRef .tc r) = V (Proc.devRef .tc r) := kept 50 35 V r hr
theorem kept5 (V : Valuation τ sig (Elt F)) (r : Ref sig .tc) (hr : r ∉ (writeRefs.drop 85).take 11 := by decide) :
    after ops5 V (Proc.devRef .tc r) = V (Proc.devRef .tc r) := kept 85 11 V r hr

/-! ## Each stretch as one stage function

Each operation's result is its function of its operands' contents; substituting along the stretch gives the stage
function applied to the contents the stretch read. A buffer's contents are carried at the buffer's own type and read
back at the value's type, the two being the same type: the two transports cancel. -/

/-- Positions 0–1: the Gram matrix of the features. -/
theorem gram1_seg (V : Valuation τ sig (Elt F)) :
    after ops0 V (Proc.devRef .tc main_call0_v2) = Cert.Downstream.gram2048 (V (Proc.devRef .tc main_call0_v0)) := by
  show after [_, _] V _ = _
  after_results_simp
  simp only [cast_cast, cast_eq]
  rfl

/-- Positions 2–36: the first affinity matrix, of that Gram matrix and the adjacency matrix. -/
theorem aff1_seg (V : Valuation τ sig (Elt F)) :
    after ops1 V (Proc.devRef .tc main_v0_1)
      = Cert.Downstream.affinity (V (Proc.devRef .tc main_call0_v2)) (V (Proc.devRef .tc main_arg1)) := by
  show after [_, _, _, _, _, _, _, _, _, _, _, _, _, _, _, _, _, _, _, _, _, _, _, _, _, _, _, _, _, _, _, _, _, _, _] V _ = _
  after_results_simp
  simp only [cast_cast, cast_eq]
  rfl

/-- Positions 37–47: the first layer. -/
theorem layer1_seg (V : Valuation τ sig (Elt F)) :
    after ops2 V (Proc.devRef .tc main_call0_v31)
      = Cert.Downstream.layer1 (V (Proc.devRef .tc main_call0_v0)) (V (Proc.devRef .tc main_arg2)) (V (Proc.devRef .tc main_arg3))
          (V (Proc.devRef .tc main_v0_1)) := by
  show after [_, _, _, _, _, _, _, _, _, _, _] V _ = _
  after_results_simp
  simp only [cast_cast, cast_eq]
  rfl

/-- Positions 48–49: the Gram matrix of the hidden features. -/
theorem gram2_seg (V : Valuation τ sig (Elt F)) :
    after ops3 V (Proc.devRef .tc main_call0_v33) = Cert.Downstream.gram1024 (V (Proc.devRef .tc main_call0_v31)) := by
  show after [_, _] V _ = _
  after_results_simp
  simp only [cast_cast, cast_eq]
  rfl

/-- Positions 50–84: the second affinity matrix. -/
theorem aff2_seg (V : Valuation τ sig (Elt F)) :
    after ops4 V (Proc.devRef .tc main_v0_2)
      = Cert.Downstream.affinity (V (Proc.devRef .tc main_call0_v33)) (V (Proc.devRef .tc main_arg1)) := by
  show after [_, _, _, _, _, _, _, _, _, _, _, _, _, _, _, _, _, _, _, _, _, _, _, _, _, _, _, _, _, _, _, _, _, _, _] V _ = _
  after_results_simp
  simp only [cast_cast, cast_eq]
  rfl

/-- Positions 85–95: the second layer. -/
theorem layer2_seg (V : Valuation τ sig (Elt F)) :
    after ops5 V (Proc.devRef .tc main_v0_0)
      = Cert.Downstream.layer2 (V (Proc.devRef .tc main_call0_v31)) (V (Proc.devRef .tc main_arg4)) (V (Proc.devRef .tc main_arg5))
          (V (Proc.devRef .tc main_v0_2)) := by
  show after [_, _, _, _, _, _, _, _, _, _, _] V _ = _
  after_results_simp
  simp only [cast_cast, cast_eq]
  rfl

/-! ## The line's results -/

variable (W : Valuation τ sig (Elt F))

/-- The hidden features, at their buffer after the first three stretches. -/
theorem hidden_at :
    after ops2 (after ops1 (after ops0 W)) (Proc.devRef .tc main_call0_v31)
      = Cert.Downstream.hidden (W (Proc.devRef .tc main_call0_v0)) (W (Proc.devRef .tc main_arg1)) (W (Proc.devRef .tc main_arg2))
          (W (Proc.devRef .tc main_arg3)) := by
  rw [layer1_seg, aff1_seg, gram1_seg,
    kept1 _ main_call0_v0, kept0 _ main_call0_v0, kept1 _ main_arg2, kept0 _ main_arg2,
    kept1 _ main_arg3, kept0 _ main_arg3, kept0 _ main_arg1]
  rfl

/-- The first affinity matrix is the line's second result. -/
theorem out1 :
    after hostOps1 W (Proc.devRef .tc main_v0_1)
      = Cert.Downstream.affinity1 (W (Proc.devRef .tc main_call0_v0)) (W (Proc.devRef .tc main_arg1)) := by
  rw [after_split, kept5 _ main_v0_1, kept4 _ main_v0_1, kept3 _ main_v0_1, kept2 _ main_v0_1,
    aff1_seg, gram1_seg, kept0 _ main_arg1]
  rfl

/-- The second affinity matrix is the line's third result. -/
theorem out2 :
    after hostOps1 W (Proc.devRef .tc main_v0_2)
      = Cert.Downstream.affinity2 (W (Proc.devRef .tc main_call0_v0)) (W (Proc.devRef .tc main_arg1)) (W (Proc.devRef .tc main_arg2))
          (W (Proc.devRef .tc main_arg3)) := by
  rw [after_split, kept5 _ main_v0_2, aff2_seg, gram2_seg, hidden_at,
    kept3 _ main_arg1, kept2 _ main_arg1, kept1 _ main_arg1, kept0 _ main_arg1]
  rfl

/-- The second layer's output is the line's first result. -/
theorem out0 :
    after hostOps1 W (Proc.devRef .tc main_v0_0)
      = Cert.Downstream.output (W (Proc.devRef .tc main_call0_v0)) (W (Proc.devRef .tc main_arg1)) (W (Proc.devRef .tc main_arg2))
          (W (Proc.devRef .tc main_arg3)) (W (Proc.devRef .tc main_arg4)) (W (Proc.devRef .tc main_arg5)) := by
  rw [after_split, layer2_seg, aff2_seg, gram2_seg,
    kept4 _ main_call0_v31, kept3 _ main_call0_v31, hidden_at,
    kept3 _ main_arg1, kept2 _ main_arg1, kept1 _ main_arg1, kept0 _ main_arg1,
    kept4 _ main_arg4, kept3 _ main_arg4, kept2 _ main_arg4, kept1 _ main_arg4, kept0 _ main_arg4,
    kept4 _ main_arg5, kept3 _ main_arg5, kept2 _ main_arg5, kept1 _ main_arg5, kept0 _ main_arg5]
  rfl

/-- No operation of the line writes a parameter array. -/
theorem kept_arg1 : after hostOps1 W (Proc.devRef .tc main_arg1) = W (Proc.devRef .tc main_arg1) :=
  kept 0 96 W main_arg1 (by decide)
theorem kept_arg2 : after hostOps1 W (Proc.devRef .tc main_arg2) = W (Proc.devRef .tc main_arg2) :=
  kept 0 96 W main_arg2 (by decide)
theorem kept_arg3 : after hostOps1 W (Proc.devRef .tc main_arg3) = W (Proc.devRef .tc main_arg3) :=
  kept 0 96 W main_arg3 (by decide)
theorem kept_arg4 : after hostOps1 W (Proc.devRef .tc main_arg4) = W (Proc.devRef .tc main_arg4) :=
  kept 0 96 W main_arg4 (by decide)
theorem kept_arg5 : after hostOps1 W (Proc.devRef .tc main_arg5) = W (Proc.devRef .tc main_arg5) :=
  kept 0 96 W main_arg5 (by decide)

end Cert.KernelIdeal.Tail

end
-- ==== Proof.KernelIdeal.Value.lean ====
/-
  The idealized kernel program's run, with every result named.

  The frame run ends with the mean's array at the batch mean of the batch array as launched (the accumulation, read
  at every entry) and every other buffer at what the 96 host lines leave, run from the contents at the region's
  exit: the arrays at their final contents, the five other arguments at their launch contents. Those lines compute
  the two affinity matrices and the output features as the shared downstream functions of the mean's array and the
  arguments. So the three results are those functions of the batch mean and the arguments, and the arguments end
  unchanged.
-/
import proofs.«102532_j52673478918326_2_alg».proof.Proof.KernelIdeal.MeanValue
import proofs.«102532_j52673478918326_2_alg».proof.Proof.KernelIdeal.Tail
import proofs.«102532_j52673478918326_2_alg».proof.Proof.Downstream

set_option maxRecDepth 16384

noncomputable section

namespace Cert.KernelIdeal.Mean

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ) (ρ : Dev nD → PrngReg)

/-- The contents the host lines start from: the region's exit. -/
abbrev exitVal (c : Dev nD) : Valuation τ sig (Elt Ideal) :=
  Pipeline.withArrays (cfgs 0).spec c (V0 m c) fun w => (dats m 0 c).arrAt w (cfgs 0).N

/-- There the mean's array holds the batch mean of the batch array as launched. -/
theorem exit_mean (c : Dev nD) :
    exitVal m c (Proc.devRef .tc main_call0_v0) = meanK (m ((c : Thread nD τ).loc main_arg0)) := by
  show Pipeline.withArrays (cfgs 0).spec c (V0 m c) _ (Proc.devRef .tc (Pipeline.arrRef (cfgs 0).spec 1)) = _
  rw [Pipeline.withArrays_arr (cfgs 0).spec launch0.win.arr_inj c (V0 m c) _ 1]
  exact final_mean m c

/-- And an argument that is no array of the pipeline holds its launch contents. -/
theorem exit_arg (c : Dev nD) (r : Ref sig .tc) (hr : r ∈ [main_arg1, main_arg2, main_arg3, main_arg4, main_arg5]) :
    exitVal m c (Proc.devRef .tc r) = m ((c : Thread nD τ).loc r) := by
  show Pipeline.withArrays (cfgs 0).spec c (V0 m c) _ (Proc.devRef .tc r) = _
  rw [Pipeline.withArrays_of_ne _ c _ _ r ?_]
  · rfl
  · intro w
    simp only [List.mem_cons, List.mem_nil_iff, or_false] at hr
    rcases hr with rfl | rfl | rfl | rfl | rfl <;> fin_cases w <;> decide

/-- What the lines leave at a buffer, from the region's exit. -/
theorem tail_at (c : Dev nD) (b : Ref sig .tc) :
    Pipeline.afterTail₀ cfgs (dats m) 0 (V0 m) [hostOps1] c b = StableHlo.after hostOps1 (exitVal m c) (Proc.devRef .tc b) := by
  unfold Pipeline.afterTail₀
  rfl

set_option maxHeartbeats 4000000 in
/-- The run, read: the three results as the downstream functions of the batch mean and the arguments; the arguments
    unchanged. -/
theorem run : θ_run defs (onTc (τ := τ) (main (F := Ideal))) ⟨m, fun _ => 0, ρ⟩ fun r => ∀ c : Dev nD,
      r.2.mem ((c.tc : Thread nD τ).loc main_v0_0)
        = Cert.Downstream.output (meanK (m ((c.tc : Thread nD τ).loc main_arg0))) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_v0_1)
        = Cert.Downstream.affinity1 (meanK (m ((c.tc : Thread nD τ).loc main_arg0))) (m ((c.tc : Thread nD τ).loc main_arg1))
      ∧ r.2.mem ((c.tc : Thread nD τ).loc main_v0_2)
        = Cert.Downstream.affinity2 (meanK (m ((c.tc : Thread nD τ).loc main_arg0))) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_main m ρ)
  have hv : ∀ b : Ref sig .tc, b.isScoped = false → (∀ w, ((cfgs 0).spec w).arr.view.ref ≠ b) →
      r.2.mem ((c.tc : Thread nD τ).loc b) = StableHlo.after hostOps1 (exitVal m c) (Proc.devRef .tc b) :=
    fun b hs ha => ((h c).2 b (Pipeline.mem_restRefs_of b hs ha)).trans (tail_at m c b)
  have e1 := exit_arg m c main_arg1 (by simp)
  have e2 := exit_arg m c main_arg2 (by simp)
  have e3 := exit_arg m c main_arg3 (by simp)
  have e4 := exit_arg m c main_arg4 (by simp)
  have e5 := exit_arg m c main_arg5 (by simp)
  have em := exit_mean m c
  refine ⟨?_, ?_, ?_, ?_, ?_, ?_, ?_, ?_, ?_⟩
  · rw [hv main_v0_0 rfl (by decide), Cert.KernelIdeal.Tail.out0, em, e1, e2, e3, e4, e5]
  · rw [hv main_v0_1 rfl (by decide), Cert.KernelIdeal.Tail.out1, em, e1]
  · rw [hv main_v0_2 rfl (by decide), Cert.KernelIdeal.Tail.out2, em, e1, e2, e3]
  · exact ((h c).1 0).trans (((dats m 0 c).arrAt_in 0 rfl _).trans ((A_eq m c 0).trans (V_main_arg0 m c)))
  · rw [hv main_arg1 rfl (by decide), Cert.KernelIdeal.Tail.kept_arg1, e1]
  · rw [hv main_arg2 rfl (by decide), Cert.KernelIdeal.Tail.kept_arg2, e2]
  · rw [hv main_arg3 rfl (by decide), Cert.KernelIdeal.Tail.kept_arg3, e3]
  · rw [hv main_arg4 rfl (by decide), Cert.KernelIdeal.Tail.kept_arg4, e4]
  · rw [hv main_arg5 rfl (by decide), Cert.KernelIdeal.Tail.kept_arg5, e5]

end Cert.KernelIdeal.Mean

end
-- ==== Proof.Reference.Ops.lean ====
/-
  The reference program's @main as one straight line of host operations, and its run.

  @main computes the batch mean of the first argument (a sum over the leading axis from zero, divided by 2048),
  then twice: a Gram matrix, its rescaling between its extremes under a square root, the division by its trace, the
  adjacency mask, the division of every row by its sum (a zero sum replaced by one), and a layer (a product with a
  transposed weight matrix, the bias added along rows, the clamp at zero, the row-major re-reading as a matrix with 63
  columns, its transpose, the product with the affinity matrix on the left). The module-local functions (the trace,
  the two selections, the two clamps at zero) are called in place: a call means its callee's operations over the
  call's own buffers, so the line lists them at the call site. Every weakly fair execution of @main then terminates
  with each buffer at the fold of the operations' results over the launch contents.
-/
import proofs.«102532_j52673478918326_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 101 operations in order, the calls' operations in place: the mean (5), the Gram matrix (2), the
    affinity (35, of which the trace's 11 and one selection), the first layer (11, of which the clamp's 3), the second
    Gram matrix (2), the second affinity (35), the second layer (11). -/
abbrev ops : List (HloOp τ sig (Elt F)) :=
  [ nullary main_cst (constant S_ .f32 0x00000000#32),
    binary main_arg0 main_cst main_v0 ((fun x v => Host.reduceAdd x v reducesTo_S2048x63x2048_S63x2048_d0 h_S_) : (⟨S2048x63x2048, .f32⟩ : BufTy).Contents (Elt F) → (⟨S_, .f32⟩ : BufTy).Contents (Elt F) → (⟨S63x2048, .f32⟩ : BufTy).Contents (Elt F)),
    nullary main_cst_0 (constant S_ .f32 0x45000000#32),
    unary main_cst_0 main_v1 (broadcastInDim S63x2048 ![] bcast_S_S63x2048 : (⟨S_, .f32⟩ : BufTy).Contents (Elt F) → (⟨S63x2048, .f32⟩ : BufTy).Contents (Elt F)),
    binary main_v0 main_v1 main_v2 (Host.divf : (⟨S63x2048, .f32⟩ : BufTy).Contents (Elt F) → (⟨S63x2048, .f32⟩ : BufTy).Contents (Elt F) → (⟨S63x2048, .f32⟩ : BufTy).Contents (Elt F)),
    unary main_v2 main_v3 ((transpose S2048x63 [1, 0] · transposes_S63x2048_S2048x63_1_0) : (⟨S63x2048, .f32⟩ : BufTy).Contents (Elt F) → (⟨S2048x63, .f32⟩ : BufTy).Contents (Elt F)),
    binary main_v2 main_v3 main_v4 ((fun l r => Host.dotGeneral dot_S63x2048_S2048x63_S63x63_1_0_0_1_n_n none l r) : (⟨S63x2048, .f32⟩ : BufTy).Contents (Elt F) → (⟨S2048x63, .f32⟩ : BufTy).Contents (Elt F) → (⟨S63x63, .f32⟩ : BufTy).Contents (Elt F)),
    nullary main_cst_1 (constant S_ .f32 0xFF800000#32),
    binary main_v4 main_cst_1 main_v5 ((fun x v => Host.reduce FloatOps.maximumf x v reducesTo_S63x63_S_d0_1 h_S_) : (⟨S63x63, .f32⟩ : BufTy).Contents (Elt F) → (⟨S_, .f32⟩ : BufTy).Contents (Elt F) → (⟨S_, .f32⟩ : BufTy).Contents (Elt F)),
    nullary main_cst_2 (constant S_ .f32 0x7F800000#32),
    binary main_v4 main_cst_2 main_v6 ((fun x v => Host.reduce FloatOps.minimumf x v reducesTo_S63x63_S_d0_1 h_S_) : (⟨S63x63, .f32⟩ : BufTy).Contents (Elt F) → (⟨S_, .f32⟩ : BufTy).Contents (Elt F) → (⟨S_, .f32⟩ : BufTy).Contents (Elt F)),
    unary main_v5 main_v7 (broadcastInDim S63x63 ![] bcast_S_S63x63 : (⟨S_, .f32⟩ : BufTy).Contents (Elt F) → (⟨S63x63, .f32⟩ : BufTy).Contents (Elt F)),
    binary main_v4 main_v7 main_v8 (subf : (⟨S63x63, .f32⟩ : BufTy).Contents (Elt F) → (⟨S63x63, .f32⟩ : BufTy).Contents (Elt F) → (⟨S63x63, .f32⟩ : BufTy).Contents (Elt F)),
    binary main_v6 main_v5 main_v9 (subf : (⟨S_, .f32⟩ : BufTy).Contents (Elt F) → (⟨S_, .f32⟩ : BufTy).Contents (Elt F) → (⟨S_, .f32⟩ : BufTy).Contents (Elt F)),
    unary main_v9 main_v10 (broadcastInDim S63x63 ![] bcast_S_S63x63 : (⟨S_, .f32⟩ : BufTy).Contents (Elt F) → (⟨S63x63, .f32⟩ : BufTy).Contents (Elt F)),
    binary main_v8 main_v10 main_v11 (Host.divf : (⟨S63x63, .f32⟩ : BufTy).Contents (Elt F) → (⟨S63x63, .f32⟩ : BufTy).Contents (Elt F) → (⟨S63x63, .f32⟩ : BufTy).Contents (Elt F)),
    unary main_v11 main_v12 (Host.sqrt : (⟨S63x63, .f32⟩ : BufTy).Contents (Elt F) → (⟨S63x63, .f32⟩ : BufTy).Contents (Elt F)),
    TRef.nullary main_call0.v0 (iotaInDim S63x63 32 0),
    TRef.nullary main_call0.v1 (iotaInDim S63x63 32 1),
    TRef.nullary main_call0.c (constantI S_ 32 0#32),
    TRef.unary main_call0.c main_call0.v2 (broadcastInDim S63x63 ![] bcast_S_S63x63),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S63x63 ![] bcast_S_S63x63),
    TRef.ternary main_call0.v4 (.of main_v12) main_call0.v5 main_call0.call0.v0 select,
    TRef.nullary main_call0.cst_0 (constant S_ .f32 0x00000000#32),
    TRef.binary main_call0.call0.v0 main_call0.cst_0 main_call0.v7 (fun x v => Host.reduceAdd x v reducesTo_S63x63_S_d0_1 h_S_),
    unary main_v13 main_v14 (broadcastInDim S63x63 ![] bcast_S_S63x63 : (⟨S_, .f32⟩ : BufTy).Contents (Elt F) → (⟨S63x63, .f32⟩ : BufTy).Contents (Elt F)),
    binary main_v12 main_v14 main_v15 (Host.divf : (⟨S63x63, .f32⟩ : BufTy).Contents (Elt F) → (⟨S63x63, .f32⟩ : BufTy).Contents (Elt F) → (⟨S63x63, .f32⟩ : BufTy).Contents (Elt F)),
    binary main_arg1 main_v15 main_v16 (mulf : (⟨S63x63, .f32⟩ : BufTy).Contents (Elt F) → (⟨S63x63, .f32⟩ : BufTy).Contents (Elt F) → (⟨S63x63, .f32⟩ : BufTy).Contents (Elt F)),
    nullary main_cst_3 (constant S_ .f32 0x00000000#32),
    binary main_v16 main_cst_3 main_v17 ((fun x v => Host.reduceAdd x v reducesTo_S63x63_S63_d1 h_S_) : (⟨S63x63, .f32⟩ : BufTy).Contents (Elt F) → (⟨S_, .f32⟩ : BufTy).Contents (Elt F) → (⟨S63, .f32⟩ : BufTy).Contents (Elt F)),
    unary main_v17 main_v18 (broadcastInDim S63x1 ![0] bcast_S63_S63x1_0 : (⟨S63, .f32⟩ : BufTy).Contents (Elt F) → (⟨S63x1, .f32⟩ : BufTy).Contents (Elt F)),
    nullary main_cst_4 (constant S_ .f32 0x00000000#32),
    unary main_cst_4 main_v19 (broadcastInDim S63x1 ![] bcast_S_S63x1 : (⟨S_, .f32⟩ : BufTy).Contents (Elt F) → (⟨S63x1, .f32⟩ : BufTy).Contents (Elt F)),
    binary main_v18 main_v19 main_v20 (cmpf .oeq : (⟨S63x1, .f32⟩ : BufTy).Contents (Elt F) → (⟨S63x1, .f32⟩ : BufTy).Contents (Elt F) → (⟨S63x1, .i1⟩ : BufTy).Contents (Elt F)),
    nullary main_cst_5 (constant S_ .f32 0x3F800000#32),
    unary main_cst_5 main_v21 (broadcastInDim S63x1 ![] bcast_S_S63x1 : (⟨S_, .f32⟩ : BufTy).Contents (Elt F) → (⟨S63x1, .f32⟩ : BufTy).Contents (Elt F)),
    TRef.ternary (.of main_v20) (.of main_v21) (.of main_v18) main_call1.v0 select,
    unary main_v22 main_v23 (broadcastInDim S63x63 ![0, 1] bcast_S63x1_S63x63_0_1 : (⟨S63x1, .f32⟩ : BufTy).Contents (Elt F) → (⟨S63x63, .f32⟩ : BufTy).Contents (Elt F)),
    binary main_v16 main_v23 main_v24 (Host.divf : (⟨S63x63, .f32⟩ : BufTy).Contents (Elt F) → (⟨S63x63, .f32⟩ : BufTy).Contents (Elt F) → (⟨S63x63, .f32⟩ : BufTy).Contents (Elt F)),
    unary main_arg2 main_v25 ((transpose S2048x1024 [1, 0] · transposes_S1024x2048_S2048x1024_1_0) : (⟨S1024x2048, .f32⟩ : BufTy).Contents (Elt F) → (⟨S2048x1024, .f32⟩ : BufTy).Contents (Elt F)),
    binary main_v2 main_v25 main_v26 ((fun l r => Host.dotGeneral dot_S63x2048_S2048x1024_S63x1024_1_0_0_1_n_n none l r) : (⟨S63x2048, .f32⟩ : BufTy).Contents (Elt F) → (⟨S2048x1024, .f32⟩ : BufTy).Contents (Elt F) → (⟨S63x1024, .f32⟩ : BufTy).Contents (Elt F)),
    unary main_arg3 main_v27 (broadcastInDim S1x1024 ![1] bcast_S1024_S1x1024_1 : (⟨S1024, .f32⟩ : BufTy).Contents (Elt F) → (⟨S1x1024, .f32⟩ : BufTy).Contents (Elt F)),
    unary main_v27 main_v28 (broadcastInDim S63x1024 ![0, 1] bcast_S1x1024_S63x1024_0_1 : (⟨S1x1024, .f32⟩ : BufTy).Contents (Elt F) → (⟨S63x1024, .f32⟩ : BufTy).Contents (Elt F)),
    binary main_v26 main_v28 main_v29 (addf : (⟨S63x1024, .f32⟩ : BufTy).Contents (Elt F) → (⟨S63x1024, .f32⟩ : BufTy).Contents (Elt F) → (⟨S63x1024, .f32⟩ : BufTy).Contents (Elt F)),
    TRef.nullary main_call2.cst (constant S_ .f32 0x00000000#32),
    TRef.unary main_call2.cst main_call2.v0 (broadcastInDim S63x1024 ![] bcast_S_S63x1024),
    TRef.binary (.of main_v29) main_call2.v0 main_call2.v1 maximumf,
    reshape main_v30 main_v31 rfl shapeCasts_S63x1024_S1024x63,
    unary main_v31 main_v32 ((transpose S63x1024 [1, 0] · transposes_S1024x63_S63x1024_1_0) : (⟨S1024x63, .f32⟩ : BufTy).Contents (Elt F) → (⟨S63x1024, .f32⟩ : BufTy).Contents (Elt F)),
    binary main_v24 main_v32 main_v33 ((fun l r => Host.dotGeneral dot_S63x63_S63x1024_S63x1024_1_0_0_1_n_n none l r) : (⟨S63x63, .f32⟩ : BufTy).Contents (Elt F) → (⟨S63x1024, .f32⟩ : BufTy).Contents (Elt F) → (⟨S63x1024, .f32⟩ : BufTy).Contents (Elt F)),
    unary main_v33 main_v34 ((transpose S1024x63 [1, 0] · transposes_S63x1024_S1024x63_1_0) : (⟨S63x1024, .f32⟩ : BufTy).Contents (Elt F) → (⟨S1024x63, .f32⟩ : BufTy).Contents (Elt F)),
    binary main_v33 main_v34 main_v35 ((fun l r => Host.dotGeneral dot_S63x1024_S1024x63_S63x63_1_0_0_1_n_n none l r) : (⟨S63x1024, .f32⟩ : BufTy).Contents (Elt F) → (⟨S1024x63, .f32⟩ : BufTy).Contents (Elt F) → (⟨S63x63, .f32⟩ : BufTy).Contents (Elt F)),
    nullary main_cst_6 (constant S_ .f32 0xFF800000#32),
    binary main_v35 main_cst_6 main_v36 ((fun x v => Host.reduce FloatOps.maximumf x v reducesTo_S63x63_S_d0_1 h_S_) : (⟨S63x63, .f32⟩ : BufTy).Contents (Elt F) → (⟨S_, .f32⟩ : BufTy).Contents (Elt F) → (⟨S_, .f32⟩ : BufTy).Contents (Elt F)),
    nullary main_cst_7 (constant S_ .f32 0x7F800000#32),
    binary main_v35 main_cst_7 main_v37 ((fun x v => Host.reduce FloatOps.minimumf x v reducesTo_S63x63_S_d0_1 h_S_) : (⟨S63x63, .f32⟩ : BufTy).Contents (Elt F) → (⟨S_, .f32⟩ : BufTy).Contents (Elt F) → (⟨S_, .f32⟩ : BufTy).Contents (Elt F)),
    unary main_v36 main_v38 (broadcastInDim S63x63 ![] bcast_S_S63x63 : (⟨S_, .f32⟩ : BufTy).Contents (Elt F) → (⟨S63x63, .f32⟩ : BufTy).Contents (Elt F)),
    binary main_v35 main_v38 main_v39 (subf : (⟨S63x63, .f32⟩ : BufTy).Contents (Elt F) → (⟨S63x63, .f32⟩ : BufTy).Contents (Elt F) → (⟨S63x63, .f32⟩ : BufTy).Contents (Elt F)),
    binary main_v37 main_v36 main_v40 (subf : (⟨S_, .f32⟩ : BufTy).Contents (Elt F) → (⟨S_, .f32⟩ : BufTy).Contents (Elt F) → (⟨S_, .f32⟩ : BufTy).Contents (Elt F)),
    unary main_v40 main_v41 (broadcastInDim S63x63 ![] bcast_S_S63x63 : (⟨S_, .f32⟩ : BufTy).Contents (Elt F) → (⟨S63x63, .f32⟩ : BufTy).Contents (Elt F)),
    binary main_v39 main_v41 main_v42 (Host.divf : (⟨S63x63, .f32⟩ : BufTy).Contents (Elt F) → (⟨S63x63, .f32⟩ : BufTy).Contents (Elt F) → (⟨S63x63, .f32⟩ : BufTy).Contents (Elt F)),
    unary main_v42 main_v43 (Host.sqrt : (⟨S63x63, .f32⟩ : BufTy).Contents (Elt F) → (⟨S63x63, .f32⟩ : BufTy).Contents (Elt F)),
    TRef.nullary main_call3.v0 (iotaInDim S63x63 32 0),
    TRef.nullary main_call3.v1 (iotaInDim S63x63 32 1),
    TRef.nullary main_call3.c (constantI S_ 32 0#32),
    TRef.unary main_call3.c main_call3.v2 (broadcastInDim S63x63 ![] bcast_S_S63x63),
    TRef.binary main_call3.v0 main_call3.v2 main_call3.v3 addi,
    TRef.binary main_call3.v3 main_call3.v1 main_call3.v4 (cmpi .eq),
    TRef.nullary main_call3.cst (constant S_ .f32 0x00000000#32),
    TRef.unary main_call3.cst main_call3.v5 (broadcastInDim S63x63 ![] bcast_S_S63x63),
    TRef.ternary main_call3.v4 (.of main_v43) main_call3.v5 main_call3.call0.v0 select,
    TRef.nullary main_call3.cst_0 (constant S_ .f32 0x00000000#32),
    TRef.binary main_call3.call0.v0 main_call3.cst_0 main_call3.v7 (fun x v => Host.reduceAdd x v reducesTo_S63x63_S_d0_1 h_S_),
    unary main_v44 main_v45 (broadcastInDim S63x63 ![] bcast_S_S63x63 : (⟨S_, .f32⟩ : BufTy).Contents (Elt F) → (⟨S63x63, .f32⟩ : BufTy).Contents (Elt F)),
    binary main_v43 main_v45 main_v46 (Host.divf : (⟨S63x63, .f32⟩ : BufTy).Contents (Elt F) → (⟨S63x63, .f32⟩ : BufTy).Contents (Elt F) → (⟨S63x63, .f32⟩ : BufTy).Contents (Elt F)),
    binary main_arg1 main_v46 main_v47 (mulf : (⟨S63x63, .f32⟩ : BufTy).Contents (Elt F) → (⟨S63x63, .f32⟩ : BufTy).Contents (Elt F) → (⟨S63x63, .f32⟩ : BufTy).Contents (Elt F)),
    nullary main_cst_8 (constant S_ .f32 0x00000000#32),
    binary main_v47 main_cst_8 main_v48 ((fun x v => Host.reduceAdd x v reducesTo_S63x63_S63_d1 h_S_) : (⟨S63x63, .f32⟩ : BufTy).Contents (Elt F) → (⟨S_, .f32⟩ : BufTy).Contents (Elt F) → (⟨S63, .f32⟩ : BufTy).Contents (Elt F)),
    unary main_v48 main_v49 (broadcastInDim S63x1 ![0] bcast_S63_S63x1_0 : (⟨S63, .f32⟩ : BufTy).Contents (Elt F) → (⟨S63x1, .f32⟩ : BufTy).Contents (Elt F)),
    nullary main_cst_9 (constant S_ .f32 0x00000000#32),
    unary main_cst_9 main_v50 (broadcastInDim S63x1 ![] bcast_S_S63x1 : (⟨S_, .f32⟩ : BufTy).Contents (Elt F) → (⟨S63x1, .f32⟩ : BufTy).Contents (Elt F)),
    binary main_v49 main_v50 main_v51 (cmpf .oeq : (⟨S63x1, .f32⟩ : BufTy).Contents (Elt F) → (⟨S63x1, .f32⟩ : BufTy).Contents (Elt F) → (⟨S63x1, .i1⟩ : BufTy).Contents (Elt F)),
    nullary main_cst_10 (constant S_ .f32 0x3F800000#32),
    unary main_cst_10 main_v52 (broadcastInDim S63x1 ![] bcast_S_S63x1 : (⟨S_, .f32⟩ : BufTy).Contents (Elt F) → (⟨S63x1, .f32⟩ : BufTy).Contents (Elt F)),
    TRef.ternary (.of main_v51) (.of main_v52) (.of main_v49) main_call4.v0 select,
    unary main_v53 main_v54 (broadcastInDim S63x63 ![0, 1] bcast_S63x1_S63x63_0_1 : (⟨S63x1, .f32⟩ : BufTy).Contents (Elt F) → (⟨S63x63, .f32⟩ : BufTy).Contents (Elt F)),
    binary main_v47 main_v54 main_v55 (Host.divf : (⟨S63x63, .f32⟩ : BufTy).Contents (Elt F) → (⟨S63x63, .f32⟩ : BufTy).Contents (Elt F) → (⟨S63x63, .f32⟩ : BufTy).Contents (Elt F)),
    unary main_arg4 main_v56 ((transpose S1024x300 [1, 0] · transposes_S300x1024_S1024x300_1_0) : (⟨S300x1024, .f32⟩ : BufTy).Contents (Elt F) → (⟨S1024x300, .f32⟩ : BufTy).Contents (Elt F)),
    binary main_v33 main_v56 main_v57 ((fun l r => Host.dotGeneral dot_S63x1024_S1024x300_S63x300_1_0_0_1_n_n none l r) : (⟨S63x1024, .f32⟩ : BufTy).Contents (Elt F) → (⟨S1024x300, .f32⟩ : BufTy).Contents (Elt F) → (⟨S63x300, .f32⟩ : BufTy).Contents (Elt F)),
    unary main_arg5 main_v58 (broadcastInDim S1x300 ![1] bcast_S300_S1x300_1 : (⟨S300, .f32⟩ : BufTy).Contents (Elt F) → (⟨S1x300, .f32⟩ : BufTy).Contents (Elt F)),
    unary main_v58 main_v59 (broadcastInDim S63x300 ![0, 1] bcast_S1x300_S63x300_0_1 : (⟨S1x300, .f32⟩ : BufTy).Contents (Elt F) → (⟨S63x300, .f32⟩ : BufTy).Contents (Elt F)),
    binary main_v57 main_v59 main_v60 (addf : (⟨S63x300, .f32⟩ : BufTy).Contents (Elt F) → (⟨S63x300, .f32⟩ : BufTy).Contents (Elt F) → (⟨S63x300, .f32⟩ : BufTy).Contents (Elt F)),
    TRef.nullary main_call5.cst (constant S_ .f32 0x00000000#32),
    TRef.unary main_call5.cst main_call5.v0 (broadcastInDim S63x300 ![] bcast_S_S63x300),
    TRef.binary (.of main_v60) main_call5.v0 main_call5.v1 maximumf,
    reshape main_v61 main_v62 rfl shapeCasts_S63x300_S300x63,
    unary main_v62 main_v63 ((transpose S63x300 [1, 0] · transposes_S300x63_S63x300_1_0) : (⟨S300x63, .f32⟩ : BufTy).Contents (Elt F) → (⟨S63x300, .f32⟩ : BufTy).Contents (Elt F)),
    binary main_v55 main_v63 main_v64 ((fun l r => Host.dotGeneral dot_S63x63_S63x300_S63x300_1_0_0_1_n_n none l r) : (⟨S63x63, .f32⟩ : BufTy).Contents (Elt F) → (⟨S63x300, .f32⟩ : BufTy).Contents (Elt F) → (⟨S63x300, .f32⟩ : BufTy).Contents (Elt F)) ]

set_option maxRecDepth 4096 in
set_option maxHeartbeats 4000000 in
/-- @main is that straight line: its two windows in order, each call its callee's operations over the call's own
    buffers; the two sides are joined by the associativity of sequencing and its unit law. -/
theorem main_eq (c : Dev nD) : main (F := F) c = seq ops := by
  simp only [main, main_part0, main_part1, fn_trace.body, fn_where.body, fn_where_0.body, fn_relu.body, fn_relu_1.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
    binary_bufs_sub .., nullary_bufs_sub .., binary_bufs_sub .., nullary_bufs_sub .., binary_bufs_sub .., unary_bufs_sub ..,
    binary_bufs_sub .., binary_bufs_sub .., unary_bufs_sub .., binary_bufs_sub .., unary_bufs_sub .., nullary_bufs_sub ..,
    nullary_bufs_sub .., nullary_bufs_sub .., unary_bufs_sub .., binary_bufs_sub .., binary_bufs_sub .., nullary_bufs_sub ..,
    unary_bufs_sub .., ternary_bufs_sub .., nullary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., nullary_bufs_sub .., unary_bufs_sub .., ternary_bufs_sub .., unary_bufs_sub .., binary_bufs_sub ..,
    unary_bufs_sub .., binary_bufs_sub .., unary_bufs_sub .., unary_bufs_sub .., binary_bufs_sub .., nullary_bufs_sub ..,
    unary_bufs_sub .., binary_bufs_sub .., reshape_bufs_sub .., unary_bufs_sub .., binary_bufs_sub .., unary_bufs_sub ..,
    binary_bufs_sub .., nullary_bufs_sub .., binary_bufs_sub .., nullary_bufs_sub .., binary_bufs_sub .., unary_bufs_sub ..,
    binary_bufs_sub .., binary_bufs_sub .., unary_bufs_sub .., binary_bufs_sub .., unary_bufs_sub .., nullary_bufs_sub ..,
    nullary_bufs_sub .., nullary_bufs_sub .., unary_bufs_sub .., binary_bufs_sub .., binary_bufs_sub .., nullary_bufs_sub ..,
    unary_bufs_sub .., ternary_bufs_sub .., nullary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., nullary_bufs_sub .., unary_bufs_sub .., ternary_bufs_sub .., unary_bufs_sub .., binary_bufs_sub ..,
    unary_bufs_sub .., binary_bufs_sub .., unary_bufs_sub .., unary_bufs_sub .., binary_bufs_sub .., nullary_bufs_sub ..,
    unary_bufs_sub .., binary_bufs_sub .., reshape_bufs_sub .., unary_bufs_sub .., binary_bufs_sub ..⟩

/-- On the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.Reference.Value.lean ====
/-
  The reference program's results as the shared downstream functions of its arguments.

  The line of operations is cut where the program's stages end: the batch mean, the Gram matrix, the affinity,
  the first layer, the second Gram matrix, the second affinity, the second layer. Run from any contents, each
  stage leaves at its result buffer one stage function of the contents it read, and leaves every buffer it does
  not write as it was; the contents after the whole line are the stages' composition (the fold over a
  concatenation is the fold over the second part from the fold over the first). The three results are then the
  output features and the two affinity matrices of the mean of the first argument, and the arguments are unchanged.
-/
import proofs.«102532_j52673478918326_2_alg».proof.Proof.Reference.Ops
import proofs.«102532_j52673478918326_2_alg».proof.Proof.Downstream

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The stages -/

/-- The mean's five operations. -/
def segMean : List (HloOp τ sig (Elt F)) := (ops (F := F)).take 5

/-- The first Gram matrix's two operations. -/
def segGram1 : List (HloOp τ sig (Elt F)) := ((ops (F := F)).drop 5).take 2

/-- The first affinity's thirty-five operations. -/
def segAff1 : List (HloOp τ sig (Elt F)) := ((ops (F := F)).drop 7).take 35

/-- The first layer's eleven operations. -/
def segLayer1 : List (HloOp τ sig (Elt F)) := ((ops (F := F)).drop 42).take 11

/-- The second Gram matrix's two operations. -/
def segGram2 : List (HloOp τ sig (Elt F)) := ((ops (F := F)).drop 53).take 2

/-- The second affinity's thirty-five operations. -/
def segAff2 : List (HloOp τ sig (Elt F)) := ((ops (F := F)).drop 55).take 35

/-- The second layer's eleven operations. -/
def segLayer2 : List (HloOp τ sig (Elt F)) := (ops (F := F)).drop 90

/-- The line is its seven stages in order. -/
theorem ops_split : (ops (F := F)) = segMean ++ (segGram1 ++ (segAff1 ++ (segLayer1 ++ (segGram2 ++ (segAff2 ++ segLayer2))))) := rfl

/-- The contents after the whole line: the stages' folds composed. -/
theorem after_ops (V : Valuation τ sig (Elt F)) :
    after (ops (F := F)) V
      = after segLayer2 (after segAff2 (after segGram2 (after segLayer1 (after segAff1 (after segGram1 (after segMean V)))))) := by
  rw [ops_split]
  simp only [after_append]

/-! ## Each stage from any contents: its result buffer at the stage function, the buffers it does not write unchanged -/

theorem segMean_v2 (W : Valuation τ sig (Elt F)) :
    after (segMean (F := F)) W (main_v2 : DevRef τ sig) = Cert.Downstream.meanRef (W (main_arg0 : DevRef τ sig)) := by
  show after [_, _, _, _, _] W _ = _
  after_results_simp
  rfl

theorem segMean_kept_arg1 (W : Valuation τ sig (Elt F)) :
    after (segMean (F := F)) W (main_arg1 : DevRef τ sig) = W (main_arg1 : DevRef τ sig) := by
  show after [_, _, _, _, _] W _ = _
  after_results_simp

theorem segMean_kept_arg2 (W : Valuation τ sig (Elt F)) :
    after (segMean (F := F)) W (main_arg2 : DevRef τ sig) = W (main_arg2 : DevRef τ sig) := by
  show after [_, _, _, _, _] W _ = _
  after_results_simp

theorem segMean_kept_arg3 (W : Valuation τ sig (Elt F)) :
    after (segMean (F := F)) W (main_arg3 : DevRef τ sig) = W (main_arg3 : DevRef τ sig) := by
  show after [_, _, _, _, _] W _ = _
  after_results_simp

theorem segMean_kept_arg4 (W : Valuation τ sig (Elt F)) :
    after (segMean (F := F)) W (main_arg4 : DevRef τ sig) = W (main_arg4 : DevRef τ sig) := by
  show after [_, _, _, _, _] W _ = _
  after_results_simp

theorem segMean_kept_arg5 (W : Valuation τ sig (Elt F)) :
    after (segMean (F := F)) W (main_arg5 : DevRef τ sig) = W (main_arg5 : DevRef τ sig) := by
  show after [_, _, _, _, _] W _ = _
  after_results_simp

theorem segGram1_v4 (W : Valuation τ sig (Elt F)) :
    after (segGram1 (F := F)) W (main_v4 : DevRef τ sig) = Cert.Downstream.gram2048 (W (main_v2 : DevRef τ sig)) := by
  show after [_, _] W _ = _
  after_results_simp
  rfl

theorem segGram1_kept_v2 (W : Valuation τ sig (Elt F)) :
    after (segGram1 (F := F)) W (main_v2 : DevRef τ sig) = W (main_v2 : DevRef τ sig) := by
  show after [_, _] W _ = _
  after_results_simp

theorem segGram1_kept_arg1 (W : Valuation τ sig (Elt F)) :
    after (segGram1 (F := F)) W (main_arg1 : DevRef τ sig) = W (main_arg1 : DevRef τ sig) := by
  show after [_, _] W _ = _
  after_results_simp

theorem segGram1_kept_arg2 (W : Valuation τ sig (Elt F)) :
    after (segGram1 (F := F)) W (main_arg2 : DevRef τ sig) = W (main_arg2 : DevRef τ sig) := by
  show after [_, _] W _ = _
  after_results_simp

theorem segGram1_kept_arg3 (W : Valuation τ sig (Elt F)) :
    after (segGram1 (F := F)) W (main_arg3 : DevRef τ sig) = W (main_arg3 : DevRef τ sig) := by
  show after [_, _] W _ = _
  after_results_simp

theorem segGram1_kept_arg4 (W : Valuation τ sig (Elt F)) :
    after (segGram1 (F := F)) W (main_arg4 : DevRef τ sig) = W (main_arg4 : DevRef τ sig) := by
  show after [_, _] W _ = _
  after_results_simp

theorem segGram1_kept_arg5 (W : Valuation τ sig (Elt F)) :
    after (segGram1 (F := F)) W (main_arg5 : DevRef τ sig) = W (main_arg5 : DevRef τ sig) := by
  show after [_, _] W _ = _
  after_results_simp

theorem segAff1_v24 (W : Valuation τ sig (Elt F)) :
    after (segAff1 (F := F)) W (main_v24 : DevRef τ sig) = Cert.Downstream.affinity (W (main_v4 : DevRef τ sig)) (W (main_arg1 : DevRef τ sig)) := by
  show after [_, _, _, _, _, _, _, _, _, _, _, _, _, _, _, _, _, _, _, _, _, _, _, _, _, _, _, _, _, _, _, _, _, _, _] W _ = _
  after_results_simp
  rfl

theorem segAff1_kept_v2 (W : Valuation τ sig (Elt F)) :
    after (segAff1 (F := F)) W (main_v2 : DevRef τ sig) = W (main_v2 : DevRef τ sig) := by
  show after [_, _, _, _, _, _, _, _, _, _, _, _, _, _, _, _, _, _, _, _, _, _, _, _, _, _, _, _, _, _, _, _, _, _, _] W _ = _
  after_results_simp

theorem segAff1_kept_arg1 (W : Valuation τ sig (Elt F)) :
    after (segAff1 (F := F)) W (main_arg1 : DevRef τ sig) = W (main_arg1 : DevRef τ sig) := by
  show after [_, _, _, _, _, _, _, _, _, _, _, _, _, _, _, _, _, _, _, _, _, _, _, _, _, _, _, _, _, _, _, _, _, _, _] W _ = _
  after_results_simp

theorem segAff1_kept_arg2 (W : Valuation τ sig (Elt F)) :
    after (segAff1 (F := F)) W (main_arg2 : DevRef τ sig) = W (main_arg2 : DevRef τ sig) := by
  show after [_, _, _, _, _, _, _, _, _, _, _, _, _, _, _, _, _, _, _, _, _, _, _, _, _, _, _, _, _, _, _, _, _, _, _] W _ = _
  after_results_simp

theorem segAff1_kept_arg3 (W : Valuation τ sig (Elt F)) :
    after (segAff1 (F := F)) W (main_arg3 : DevRef τ sig) = W (main_arg3 : DevRef τ sig) := by
  show after [_, _, _, _, _, _, _, _, _, _, _, _, _, _, _, _, _, _, _, _, _, _, _, _, _, _, _, _, _, _, _, _, _, _, _] W _ = _
  after_results_simp

theorem segAff1_kept_arg4 (W : Valuation τ sig (Elt F)) :
    after (segAff1 (F := F)) W (main_arg4 : DevRef τ sig) = W (main_arg4 : DevRef τ sig) := by
  show after [_, _, _, _, _, _, _, _, _, _, _, _, _, _, _, _, _, _, _, _, _, _, _, _, _, _, _, _, _, _, _, _, _, _, _] W _ = _
  after_results_simp

theorem segAff1_kept_arg5 (W : Valuation τ sig (Elt F)) :
    after (segAff1 (F := F)) W (main_arg5 : DevRef τ sig) = W (main_arg5 : DevRef τ sig) := by
  show after [_, _, _, _, _, _, _, _, _, _, _, _, _, _, _, _, _, _, _, _, _, _, _, _, _, _, _, _, _, _, _, _, _, _, _] W _ = _
  after_results_simp

theorem segLayer1_v33 (W : Valuation τ sig (Elt F)) :
    after (segLayer1 (F := F)) W (main_v33 : DevRef τ sig) = Cert.Downstream.layer1 (W (main_v2 : DevRef τ sig)) (W (main_arg2 : DevRef τ sig)) (W (main_arg3 : DevRef τ sig)) (W (main_v24 : DevRef τ sig)) := by
  show after [_, _, _, _, _, _, _, _, _, _, _] W _ = _
  after_results_simp
  rfl

theorem segLayer1_kept_v24 (W : Valuation τ sig (Elt F)) :
    after (segLayer1 (F := F)) W (main_v24 : DevRef τ sig) = W (main_v24 : DevRef τ sig) := by
  show after [_, _, _, _, _, _, _, _, _, _, _] W _ = _
  after_results_simp

theorem segLayer1_kept_arg1 (W : Valuation τ sig (Elt F)) :
    after (segLayer1 (F := F)) W (main_arg1 : DevRef τ sig) = W (main_arg1 : DevRef τ sig) := by
  show after [_, _, _, _, _, _, _, _, _, _, _] W _ = _
  after_results_simp

theorem segLayer1_kept_arg4 (W : Valuation τ sig (Elt F)) :
    after (segLayer1 (F := F)) W (main_arg4 : DevRef τ sig) = W (main_arg4 : DevRef τ sig) := by
  show after [_, _, _, _, _, _, _, _, _, _, _] W _ = _
  after_results_simp

theorem segLayer1_kept_arg5 (W : Valuation τ sig (Elt F)) :
    after (segLayer1 (F := F)) W (main_arg5 : DevRef τ sig) = W (main_arg5 : DevRef τ sig) := by
  show after [_, _, _, _, _, _, _, _, _, _, _] W _ = _
  after_results_simp

theorem segGram2_v35 (W : Valuation τ sig (Elt F)) :
    after (segGram2 (F := F)) W (main_v35 : DevRef τ sig) = Cert.Downstream.gram1024 (W (main_v33 : DevRef τ sig)) := by
  show after [_, _] W _ = _
  after_results_simp
  rfl

theorem segGram2_kept_v33 (W : Valuation τ sig (Elt F)) :
    after (segGram2 (F := F)) W (main_v33 : DevRef τ sig) = W (main_v33 : DevRef τ sig) := by
  show after [_, _] W _ = _
  after_results_simp

theorem segGram2_kept_v24 (W : Valuation τ sig (Elt F)) :
    after (segGram2 (F := F)) W (main_v24 : DevRef τ sig) = W (main_v24 : DevRef τ sig) := by
  show after [_, _] W _ = _
  after_results_simp

theorem segGram2_kept_arg1 (W : Valuation τ sig (Elt F)) :
    after (segGram2 (F := F)) W (main_arg1 : DevRef τ sig) = W (main_arg1 : DevRef τ sig) := by
  show after [_, _] W _ = _
  after_results_simp

theorem segGram2_kept_arg4 (W : Valuation τ sig (Elt F)) :
    after (segGram2 (F := F)) W (main_arg4 : DevRef τ sig) = W (main_arg4 : DevRef τ sig) := by
  show after [_, _] W _ = _
  after_results_simp

theorem segGram2_kept_arg5 (W : Valuation τ sig (Elt F)) :
    after (segGram2 (F := F)) W (main_arg5 : DevRef τ sig) = W (main_arg5 : DevRef τ sig) := by
  show after [_, _] W _ = _
  after_results_simp

theorem segAff2_v55 (W : Valuation τ sig (Elt F)) :
    after (segAff2 (F := F)) W (main_v55 : DevRef τ sig) = Cert.Downstream.affinity (W (main_v35 : DevRef τ sig)) (W (main_arg1 : DevRef τ sig)) := by
  show after [_, _, _, _, _, _, _, _, _, _, _, _, _, _, _, _, _, _, _, _, _, _, _, _, _, _, _, _, _, _, _, _, _, _, _] W _ = _
  after_results_simp
  rfl

theorem segAff2_kept_v33 (W : Valuation τ sig (Elt F)) :
    after (segAff2 (F := F)) W (main_v33 : DevRef τ sig) = W (main_v33 : DevRef τ sig) := by
  show after [_, _, _, _, _, _, _, _, _, _, _, _, _, _, _, _, _, _, _, _, _, _, _, _, _, _, _, _, _, _, _, _, _, _, _] W _ = _
  after_results_simp

theorem segAff2_kept_v24 (W : Valuation τ sig (Elt F)) :
    after (segAff2 (F := F)) W (main_v24 : DevRef τ sig) = W (main_v24 : DevRef τ sig) := by
  show after [_, _, _, _, _, _, _, _, _, _, _, _, _, _, _, _, _, _, _, _, _, _, _, _, _, _, _, _, _, _, _, _, _, _, _] W _ = _
  after_results_simp

theorem segAff2_kept_arg4 (W : Valuation τ sig (Elt F)) :
    after (segAff2 (F := F)) W (main_arg4 : DevRef τ sig) = W (main_arg4 : DevRef τ sig) := by
  show after [_, _, _, _, _, _, _, _, _, _, _, _, _, _, _, _, _, _, _, _, _, _, _, _, _, _, _, _, _, _, _, _, _, _, _] W _ = _
  after_results_simp

theorem segAff2_kept_arg5 (W : Valuation τ sig (Elt F)) :
    after (segAff2 (F := F)) W (main_arg5 : DevRef τ sig) = W (main_arg5 : DevRef τ sig) := by
  show after [_, _, _, _, _, _, _, _, _, _, _, _, _, _, _, _, _, _, _, _, _, _, _, _, _, _, _, _, _, _, _, _, _, _, _] W _ = _
  after_results_simp

theorem segLayer2_v64 (W : Valuation τ sig (Elt F)) :
    after (segLayer2 (F := F)) W (main_v64 : DevRef τ sig) = Cert.Downstream.layer2 (W (main_v33 : DevRef τ sig)) (W (main_arg4 : DevRef τ sig)) (W (main_arg5 : DevRef τ sig)) (W (main_v55 : DevRef τ sig)) := by
  show after [_, _, _, _, _, _, _, _, _, _, _] W _ = _
  after_results_simp
  rfl

theorem segLayer2_kept_v55 (W : Valuation τ sig (Elt F)) :
    after (segLayer2 (F := F)) W (main_v55 : DevRef τ sig) = W (main_v55 : DevRef τ sig) := by
  show after [_, _, _, _, _, _, _, _, _, _, _] W _ = _
  after_results_simp

theorem segLayer2_kept_v24 (W : Valuation τ sig (Elt F)) :
    after (segLayer2 (F := F)) W (main_v24 : DevRef τ sig) = W (main_v24 : DevRef τ sig) := by
  show after [_, _, _, _, _, _, _, _, _, _, _] W _ = _
  after_results_simp

/-! ## The results -/

variable (V : Valuation τ sig (Elt F))

/-- The first result: the output features of the mean of the first argument. -/
theorem out0 :
    after (ops (F := F)) V (main_v64 : DevRef τ sig)
      = Cert.Downstream.output (Cert.Downstream.meanRef (V (main_arg0 : DevRef τ sig))) (V (main_arg1 : DevRef τ sig)) (V (main_arg2 : DevRef τ sig))
          (V (main_arg3 : DevRef τ sig)) (V (main_arg4 : DevRef τ sig)) (V (main_arg5 : DevRef τ sig)) := by
  rw [after_ops, segLayer2_v64,
    segAff2_kept_v33, segAff2_kept_arg4, segAff2_kept_arg5, segAff2_v55,
    segGram2_kept_v33, segGram2_kept_arg4, segGram2_kept_arg5, segGram2_v35, segGram2_kept_arg1,
    segLayer1_v33, segLayer1_kept_arg4, segLayer1_kept_arg5, segLayer1_kept_arg1,
    segAff1_kept_v2, segAff1_kept_arg2, segAff1_kept_arg3, segAff1_v24, segAff1_kept_arg4, segAff1_kept_arg5, segAff1_kept_arg1,
    segGram1_kept_v2, segGram1_kept_arg2, segGram1_kept_arg3, segGram1_v4, segGram1_kept_arg1, segGram1_kept_arg4, segGram1_kept_arg5,
    segMean_v2, segMean_kept_arg2, segMean_kept_arg3, segMean_kept_arg1, segMean_kept_arg4, segMean_kept_arg5]
  rfl

/-- The second result: the first affinity matrix. -/
theorem out1 :
    after (ops (F := F)) V (main_v24 : DevRef τ sig)
      = Cert.Downstream.affinity1 (Cert.Downstream.meanRef (V (main_arg0 : DevRef τ sig))) (V (main_arg1 : DevRef τ sig)) := by
  rw [after_ops, segLayer2_kept_v24, segAff2_kept_v24, segGram2_kept_v24, segLayer1_kept_v24, segAff1_v24,
    segGram1_v4, segGram1_kept_arg1, segMean_v2, segMean_kept_arg1]
  rfl

/-- The third result: the second affinity matrix. -/
theorem out2 :
    after (ops (F := F)) V (main_v55 : DevRef τ sig)
      = Cert.Downstream.affinity2 (Cert.Downstream.meanRef (V (main_arg0 : DevRef τ sig))) (V (main_arg1 : DevRef τ sig)) (V (main_arg2 : DevRef τ sig))
          (V (main_arg3 : DevRef τ sig)) := by
  rw [after_ops, segLayer2_kept_v55, segAff2_v55,
    segGram2_v35, segGram2_kept_arg1,
    segLayer1_v33, segLayer1_kept_arg1,
    segAff1_kept_v2, segAff1_kept_arg2, segAff1_kept_arg3, segAff1_v24, segAff1_kept_arg1,
    segGram1_kept_v2, segGram1_kept_arg2, segGram1_kept_arg3, segGram1_v4, segGram1_kept_arg1,
    segMean_v2, segMean_kept_arg2, segMean_kept_arg3, segMean_kept_arg1]
  rfl

/-! ## The arguments: no operation writes one -/

theorem kept_arg0 : after (ops (F := F)) V (main_arg0 : DevRef τ sig) = V (main_arg0 : DevRef τ sig) := by
  after_results_simp

theorem kept_arg1 : after (ops (F := F)) V (main_arg1 : DevRef τ sig) = V (main_arg1 : DevRef τ sig) := by
  after_results_simp

theorem kept_arg2 : after (ops (F := F)) V (main_arg2 : DevRef τ sig) = V (main_arg2 : DevRef τ sig) := by
  after_results_simp

theorem kept_arg3 : after (ops (F := F)) V (main_arg3 : DevRef τ sig) = V (main_arg3 : DevRef τ sig) := by
  after_results_simp

theorem kept_arg4 : after (ops (F := F)) V (main_arg4 : DevRef τ sig) = V (main_arg4 : DevRef τ sig) := by
  after_results_simp

theorem kept_arg5 : after (ops (F := F)) V (main_arg5 : DevRef τ sig) = V (main_arg5 : DevRef τ sig) := by
  after_results_simp

/-! ## The run -/

/-- On the compiled mesh, for any float values, from any memory with zero counters: every weakly fair execution of
    @main terminates with the three results at the downstream functions of the mean of the first argument and of the
    other arguments, as the launch memory holds them, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
          = Cert.Downstream.output (Cert.Downstream.meanRef (m ((c.tc : Thread nD τ).loc main_arg0))) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_v24)
          = Cert.Downstream.affinity1 (Cert.Downstream.meanRef (m ((c.tc : Thread nD τ).loc main_arg0))) (m ((c.tc : Thread nD τ).loc main_arg1))
      ∧ r.2.mem ((c.tc : Thread nD τ).loc main_v55)
          = Cert.Downstream.affinity2 (Cert.Downstream.meanRef (m ((c.tc : Thread nD τ).loc main_arg0))) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v64).trans (out0 _), (h c main_v24).trans (out1 _), (h c main_v55).trans (out2 _),
      (h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _)⟩)
    (run_main m ρ)

end Cert.ReferenceIdeal.RefRun

end
-- ==== Proof.MeanAtIndex.lean ====
/-
  The reference's batch mean read at one element, at the exact-real values.

  The sum over the leading axis, started from the zero word, is at row p and column q the finite sum in the extended
  reals of the 2048 batch entries at (b, p, q): the zero word denotes 0, and the source index lying over (p, q) with
  batch coordinate b is (b, p, q). The divisor's word denotes the real 2048 and the other word its reciprocal
  2⁻¹¹; division by a nonzero real is multiplication by its reciprocal on every extended real, the infinities and
  the junk value included.
-/
import proofs.«102532_j52673478918326_2_alg».proof.Proof.Downstream
import Idealize.ShloMosaic.PureOps.Ideal.Laws
import Idealize.ShloMosaic.Lib.ValueIdx

noncomputable section

open scoped BigOperators

namespace Cert.MeanAtIndex

open Idealize.ShloMosaic

/-- The word `0x45000000`: sign 0, exponent field 138, fraction 0, so 2²³ · 2^(138 − 127 − 23) = 2048. -/
theorem ofBits_2048 : Ideal.ofBits .f32 0x45000000#32 = ((2048 : ℝ) : EReal) := by
  simp [Ideal.ofBits, Ideal.ieee, -EReal.coe_mul]; norm_num

/-- The word `0x3A000000`: sign 0, exponent field 116, fraction 0, so 2²³ · 2^(116 − 127 − 23) = 1 / 2048. -/
theorem ofBits_inv2048 : Ideal.ofBits .f32 0x3A000000#32 = ((1 / 2048 : ℝ) : EReal) := by
  simp [Ideal.ofBits, Ideal.ieee, -EReal.coe_mul]; norm_num

/-- Over the result index (p, q), the source index with batch coordinate b is (b, p, q). -/
theorem lift_ix (h : Cert.Downstream.S2048x63x2048.Reduces [0] Cert.Downstream.S63x2048) (p : Fin 63) (q : Fin 2048)
    (b : Fin 2048) : h.lift (ValueIdx.ix2 p q) b = ValueIdx.ix3 b p q := by
  funext c
  match c with
  | ⟨0, _⟩ => rfl
  | ⟨1, _⟩ => rfl
  | ⟨2, _⟩ => rfl

/-- The mean at (p, q): the sum of the batch entries at (b, p, q), times 2⁻¹¹. -/
theorem meanRef_apply (x : FVec Ideal Cert.Downstream.S2048x63x2048 .f32) (p : Fin 63) (q : Fin 2048) :
    Cert.Downstream.meanRef (F := Ideal) x (ValueIdx.ix2 p q)
      = (∑ b : Fin 2048, x (ValueIdx.ix3 b p q)) * Ideal.ofBits .f32 0x3A000000#32 := by
  have hR : Cert.Downstream.S2048x63x2048.Reduces [0] Cert.Downstream.S63x2048 := by decide
  have hT : Cert.Downstream.S2048x63x2048.ReducesTo [0] Cert.Downstream.S63x2048 := by decide
  have hsum : Ideal.hostReduceAdd hT x (Ideal.ofBits .f32 0x00000000#32) (ValueIdx.ix2 p q)
      = ∑ b : Fin 2048, x (ValueIdx.ix3 b p q) := by
    rw [Ideal.hostReduceAdd_single hT hR, Ideal.ofBits_zero_f32, zero_add]
    exact Finset.sum_congr rfl fun b _ => congrArg x (lift_ix hR p q b)
  show Ideal.div (Ideal.hostReduceAdd hT x (Ideal.ofBits .f32 0x00000000#32) (ValueIdx.ix2 p q))
      (Ideal.ofBits .f32 0x45000000#32) = _
  rw [hsum, ofBits_2048, Ideal.div_coe (by norm_num), ofBits_inv2048]

end Cert.MeanAtIndex

end
-- ==== Proof.LibHostTail.lean ====
/-
  A long line of host operations after a pallas_call region, handled in pieces.

  Running a list of host operations folds each operation's result over the buffers' contents, so the contents after a
  concatenation are the second part's fold from the first part's, and a list can be cut at any position. A buffer
  that no operation of the list writes keeps its contents; when "writes none of these buffers" is known operation by
  operation, as one fact over the list, it holds for each of them. The frame run of a program whose @main continues
  after the region with ONE stretch of host operations asks three things of that stretch, operation by operation: it
  touches unscoped TensorCore buffers only, allocates nothing, and writes no array of the pipeline. Each follows from
  the same property stated once over the list, whatever the list's length.
-/
import Idealize.ShloMosaic.Lib.Pipeline.FrameSuffix

namespace Cert.Lib.HostTail

open Idealize.ShloMosaic Idealize.ShloMosaic.StableHlo

variable {τ : Topo} {sig : RefSig} {Val : EltTy → Type}

/-- A list cut at position `k`: run the first `k` operations, then the rest from what they leave. -/
theorem after_split (k : Nat) (ops : List (HloOp τ sig Val)) (V : Valuation τ sig Val) :
    after ops V = after (ops.drop k) (after (ops.take k) V) := by
  conv_lhs => rw [← List.take_append_drop k ops]
  exact Idealize.ShloMosaic.StableHlo.after_append _ _ _

/-- A buffer among a list `rs` of references none of which any operation writes keeps its contents. -/
theorem after_kept_of_forall {ops : List (HloOp τ sig Val)} {rs : List (Ref sig .tc)}
    (h : ops.Forall fun op => ∀ r ∈ rs, Proc.devRef (τ := τ) .tc r ∉ op.writes) (V : Valuation τ sig Val)
    (r : Ref sig .tc) (hr : r ∈ rs) : after ops V (Proc.devRef .tc r) = V (Proc.devRef .tc r) :=
  after_of_forall_not_mem ops V fun op hop => (List.forall_iff_forall_mem.mp h) op hop r hr

/-- The three side conditions the frame run around a region asks of the one stretch of host operations after it,
    from the same properties stated once over the list: every operation touches TensorCore references only, allocates
    nothing, and writes no array of the windows `win` (which are unscoped, `hw`). -/
theorem tail_conditions {gr W : Nat} (win : Fin W → Pipeline.WinSpec sig gr) (hw : ∀ w, (Pipeline.arrRef win w).isScoped = false)
    (ops : List (HloOp τ sig Val)) (hsub : ops.Forall fun op => op.bufs ⊆ tcRefs τ sig)
    (hfresh : ops.Forall fun op => op.fresh = ∅)
    (hkeep : ops.Forall fun op => ∀ w, Proc.devRef (τ := τ) .tc (Pipeline.arrRef win w) ∉ op.writes) :
    (∀ o ∈ ([ops] : List (List (HloOp τ sig Val))), ∀ op ∈ o, op.bufs ⊆ Pipeline.tailRefs sig Pipeline.Prefetch.none win)
    ∧ (∀ o ∈ ([ops] : List (List (HloOp τ sig Val))), ∀ op ∈ o, op.fresh = ∅)
    ∧ (∀ o ∈ ([ops] : List (List (HloOp τ sig Val))), ∀ op ∈ o, ∀ w, Proc.devRef (τ := τ) .tc (Pipeline.arrRef win w) ∉ op.writes) := by
  refine ⟨?_, ?_, ?_⟩
  · rw [Pipeline.tailRefs_none win hw]
    intro o ho op hop
    obtain rfl : o = ops := by simpa using ho
    exact Pipeline.sub_ucRefs op ((List.forall_iff_forall_mem.mp hsub) op hop)
  · intro o ho op hop
    obtain rfl : o = ops := by simpa using ho
    exact (List.forall_iff_forall_mem.mp hfresh) op hop
  · intro o ho op hop
    obtain rfl : o = ops := by simpa using ho
    exact (List.forall_iff_forall_mem.mp hkeep) op hop

end Cert.Lib.HostTail
-- ==== Proof.lean ====
/-
  A batch mean computed tile by tile against `jnp.mean`, followed by the same two graph layers: the two programs
  agree on the extended reals.

  The kernel sums the 2048 batch entries of each (row, column) in 32 tiles of 64, accumulating in place over the
  grid, and multiplies the total by 2^-11; the reference sums them in one reduction from zero and divides by 2048.
  On the extended reals addition is associative and commutative, so the tiled sum is the whole sum, and dividing by
  the real 2048 is multiplying by the real 1/2048 on every extended real: the two means are one array, with no
  appeal to finiteness. Everything after the mean - two Gram matrices, their rescaling between extremes, traces, masked
  row normalisation, two dense layers - is the same sequence of operations in both programs, read here as the same
  pure functions of the mean and the arguments, and never opened. Each program terminates, faults nowhere and leaves
  its arguments unchanged; the idealized kernel is the kernel's own text (no rewrite was made).
-/
import proofs.«102532_j52673478918326_2_alg».proof.Defs
import proofs.«102532_j52673478918326_2_alg».proof.Proof.Gen.Kernel
import proofs.«102532_j52673478918326_2_alg».proof.Proof.Gen.KernelIdeal
import proofs.«102532_j52673478918326_2_alg».proof.Proof.Gen.ReferenceIdeal
import proofs.«102532_j52673478918326_2_alg».proof.Proof.Gen.Pre_finite_inputs
import proofs.«102532_j52673478918326_2_alg».proof.Proof.Kernel.Frame
import proofs.«102532_j52673478918326_2_alg».proof.Proof.KernelIdeal.Value
import proofs.«102532_j52673478918326_2_alg».proof.Proof.Reference.Value
import proofs.«102532_j52673478918326_2_alg».proof.Proof.MeanAtIndex
import proofs.«102532_j52673478918326_2_alg».proof.Proof.LibHostTail

noncomputable section

namespace Cert.Proof

open Idealize.ShloMosaic Idealize.SL.Sem

/-- The reference's batch mean is the kernel's: at every entry the sum over the 2048 batch entries, times 2^-11. -/
theorem mean_eq (X : FVec Ideal Cert.Downstream.S2048x63x2048 .f32) :
    Cert.Downstream.meanRef (F := Ideal) X = Cert.KernelIdeal.Mean.meanK X := by
  funext j
  obtain ⟨p, l, rfl⟩ : ∃ (p : Fin 63) (l : Fin 2048), j = ValueIdx.ix2 p l := ⟨j 0, j 1, ValueIdx.eq_ix2 j⟩
  rw [Cert.MeanAtIndex.meanRef_apply]
  rfl

theorem frame_k : Cert.frame_Kernel := fun m ρ _ => Cert.Kernel.Mean.frame m ρ

theorem frame_ki : Cert.frame_KernelIdeal := fun m ρ _ => Cert.KernelIdeal.Mean.frame m ρ

theorem frame_ri : Cert.frame_ReferenceIdeal := fun m ρ _ =>
  (θ_run Cert.ReferenceIdeal.defs _ _).mono (fun _ h c => (h c).2.2.2) (Cert.ReferenceIdeal.RefRun.run (F := Ideal) m ρ)

theorem preserves : Cert.preserves_Kernel_KernelIdeal := trivial

/-- Both runs end with the three results at the downstream functions of the batch mean of arguments that agree. -/
theorem algebraic : Cert.algebraic_KernelIdeal_ReferenceIdeal := by
  intro m ρ m' ρ' _ hagree
  refine ⟨_, _, _, Cert.KernelIdeal.Mean.run m ρ, ?_⟩
  refine (θ_run Cert.ReferenceIdeal.defs _ _).mono (fun _ h c => ?_) (Cert.ReferenceIdeal.RefRun.run (F := Ideal) m' ρ')
  obtain ⟨a0, a1, a2, a3, a4, a5⟩ := hagree c
  obtain ⟨h0, h1, h2, hk⟩ := h c
  refine ⟨h0.trans ?_, h1.trans ?_, h2.trans ?_, hk⟩
  · rw [a0, a1, a2, a3, a4, a5, mean_eq]
  · rw [a0, a1, mean_eq]
  · rw [a0, a1, a2, a3, mean_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
